-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x6890x3 : Shape := ⟨3, ![8, 6890, 3]⟩
abbrev S6890x3 : Shape := ⟨2, ![6890, 3]⟩
abbrev S13776x3 : Shape := ⟨2, ![13776, 3]⟩
abbrev S8x128x128x128 : Shape := ⟨4, ![8, 128, 128, 128]⟩
abbrev S_ : Shape := ⟨0, ![]⟩

class Facts : Prop where
  bcast_S_S8x6890x3 : S_.BroadcastsInDim S8x6890x3 (![] : Fin 0 → Fin S8x6890x3.rank)
  reducesTo_S8x6890x3_S_d0_1_2 : S8x6890x3.ReducesTo [0, 1, 2] S_
  h_S_ : 0 < S_.numel
  bcast_S_S6890x3 : S_.BroadcastsInDim S6890x3 (![] : Fin 0 → Fin S6890x3.rank)
  reducesTo_S6890x3_S_d0_1 : S6890x3.ReducesTo [0, 1] S_
  bcast_S_S8x128x128x128 : S_.BroadcastsInDim S8x128x128x128 (![] : Fin 0 → Fin S8x128x128x128.rank)
  reducesTo_S8x128x128x128_S_d0_1_2_3 : S8x128x128x128.ReducesTo [0, 1, 2, 3] S_

variable [Facts]

def fn {F : FTy → Type} [FloatOps F] (main_arg0 : FVec F S8x6890x3 .f32) (main_arg1 : FVec F S6890x3 .f32) (main_arg2 : IVec S13776x3 32) (main_arg3 : FVec F S8x128x128x128 .f32) : IVec S_ 1 :=
  let main_v0 : FVec F S8x6890x3 .f32 := Host.absf main_arg0
  let main_cst : FVec F S_ .f32 := constant S_ .f32 0x7F800000#32
  let main_v1 : FVec F S8x6890x3 .f32 := broadcastInDim S8x6890x3 ![] bcast_S_S8x6890x3 main_cst
  let main_v2 : IVec S8x6890x3 1 := cmpf .olt main_v0 main_v1
  let main_c : IVec S_ 1 := constantI S_ 1 1#1
  let main_v3 : IVec S_ 1 := (fun x v => Host.reduce IntOp.andi x v reducesTo_S8x6890x3_S_d0_1_2 h_S_) main_v2 main_c
  let main_v4 : FVec F S6890x3 .f32 := Host.absf main_arg1
  let main_cst_0 : FVec F S_ .f32 := constant S_ .f32 0x7F800000#32
  let main_v5 : FVec F S6890x3 .f32 := broadcastInDim S6890x3 ![] bcast_S_S6890x3 main_cst_0
  let main_v6 : IVec S6890x3 1 := cmpf .olt main_v4 main_v5
  let main_c_1 : IVec S_ 1 := constantI S_ 1 1#1
  let main_v7 : IVec S_ 1 := (fun x v => Host.reduce IntOp.andi x v reducesTo_S6890x3_S_d0_1 h_S_) main_v6 main_c_1
  let main_v8 : IVec S_ 1 := andi main_v3 main_v7
  let main_v9 : FVec F S8x128x128x128 .f32 := Host.absf main_arg3
  let main_cst_2 : FVec F S_ .f32 := constant S_ .f32 0x7F800000#32
  let main_v10 : FVec F S8x128x128x128 .f32 := broadcastInDim S8x128x128x128 ![] bcast_S_S8x128x128x128 main_cst_2
  let main_v11 : IVec S8x128x128x128 1 := cmpf .olt main_v9 main_v10
  let main_c_3 : IVec S_ 1 := constantI S_ 1 1#1
  let main_v12 : IVec S_ 1 := (fun x v => Host.reduce IntOp.andi x v reducesTo_S8x128x128x128_S_d0_1_2_3 h_S_) main_v11 main_c_3
  let main_v13 : IVec S_ 1 := andi main_v8 main_v12
  main_v13
-- ==== Kernel.lean ====
abbrev S8x6890x3 : Shape := ⟨3, ![8, 6890, 3]⟩
abbrev S6890x3 : Shape := ⟨2, ![6890, 3]⟩
abbrev S13776x3 : Shape := ⟨2, ![13776, 3]⟩
abbrev S8x128x128x128 : Shape := ⟨4, ![8, 128, 128, 128]⟩
abbrev S_ : Shape := ⟨0, ![]⟩
abbrev S13776x3x1 : Shape := ⟨3, ![13776, 3, 1]⟩
abbrev S8x13776x3x3 : Shape := ⟨4, ![8, 13776, 3, 3]⟩
abbrev S8x13776x3 : Shape := ⟨3, ![8, 13776, 3]⟩
abbrev S13776x3x3 : Shape := ⟨3, ![13776, 3, 3]⟩
abbrev S5 : Shape := ⟨1, ![5]⟩
abbrev S5x5x5 : Shape := ⟨3, ![5, 5, 5]⟩
abbrev S5x5x5x1 : Shape := ⟨4, ![5, 5, 5, 1]⟩
abbrev S5x5x5x3 : Shape := ⟨4, ![5, 5, 5, 3]⟩
abbrev S125x3 : Shape := ⟨2, ![125, 3]⟩
abbrev S8x13776x1x3 : Shape := ⟨4, ![8, 13776, 1, 3]⟩
abbrev S1x1x125x3 : Shape := ⟨4, ![1, 1, 125, 3]⟩
abbrev S8x13776x125x3 : Shape := ⟨4, ![8, 13776, 125, 3]⟩
abbrev S8x13776x125 : Shape := ⟨3, ![8, 13776, 125]⟩
abbrev S8x13776x125x1 : Shape := ⟨4, ![8, 13776, 125, 1]⟩
abbrev S8 : Shape := ⟨1, ![8]⟩
abbrev S8x1x1 : Shape := ⟨3, ![8, 1, 1]⟩
abbrev S13776000 : Shape := ⟨1, ![13776000]⟩
abbrev S55104000 : Shape := ⟨1, ![55104000]⟩
abbrev S13776x1 : Shape := ⟨2, ![13776, 1]⟩
abbrev S13776 : Shape := ⟨1, ![13776]⟩
abbrev S1x13776x1 : Shape := ⟨3, ![1, 13776, 1]⟩
abbrev S67108864 : Shape := ⟨1, ![67108864]⟩
abbrev S55104000x1 : Shape := ⟨2, ![55104000, 1]⟩
abbrev S8x4x128x128x128 : Shape := ⟨5, ![8, 4, 128, 128, 128]⟩
abbrev S8x3x128x128x128 : Shape := ⟨5, ![8, 3, 128, 128, 128]⟩
abbrev S1x4x32x128x128 : Shape := ⟨5, ![1, 4, 32, 128, 128]⟩
abbrev S1x3x32x128x128 : Shape := ⟨5, ![1, 3, 32, 128, 128]⟩
abbrev S4x32x128x128 : Shape := ⟨4, ![4, 32, 128, 128]⟩
abbrev S1x32x128x128 : Shape := ⟨4, ![1, 32, 128, 128]⟩
abbrev S32x128x128 : Shape := ⟨3, ![32, 128, 128]⟩
abbrev S3x32x128x128 : Shape := ⟨4, ![3, 32, 128, 128]⟩

abbrev nBuf : Space → Nat
  | .hbm => 167
  | .vmem => 4
  | .smem => 0
  | _ => 0

abbrev hbmTy0_0 (i : Nat) : BufTy := match i % 128 with
  | 0 => ⟨S8x6890x3, .f32⟩
  | 1 => ⟨S6890x3, .f32⟩
  | 2 => ⟨S13776x3, .i32⟩
  | 3 => ⟨S8x128x128x128, .f32⟩
  | 4 => ⟨S_, .i32⟩
  | 5 => ⟨S13776x3, .i32⟩
  | 6 => ⟨S13776x3, .i1⟩
  | 7 => ⟨S_, .i32⟩
  | 8 => ⟨S13776x3, .i32⟩
  | 9 => ⟨S13776x3, .i32⟩
  | 10 => ⟨S13776x3, .i32⟩
  | 11 => ⟨S13776x3x1, .i32⟩
  | 12 => ⟨S8x13776x3x3, .f32⟩
  | 13 => ⟨S_, .f32⟩
  | 14 => ⟨S8x13776x3, .f32⟩
  | 15 => ⟨S_, .f32⟩
  | 16 => ⟨S8x13776x3, .f32⟩
  | 17 => ⟨S8x13776x3, .f32⟩
  | 18 => ⟨S_, .i32⟩
  | 19 => ⟨S13776x3, .i32⟩
  | 20 => ⟨S13776x3, .i1⟩
  | 21 => ⟨S_, .i32⟩
  | 22 => ⟨S13776x3, .i32⟩
  | 23 => ⟨S13776x3, .i32⟩
  | 24 => ⟨S13776x3, .i32⟩
  | 25 => ⟨S13776x3x1, .i32⟩
  | 26 => ⟨S13776x3x3, .f32⟩
  | 27 => ⟨S_, .f32⟩
  | 28 => ⟨S13776x3, .f32⟩
  | 29 => ⟨S_, .f32⟩
  | 30 => ⟨S13776x3, .f32⟩
  | 31 => ⟨S13776x3, .f32⟩
  | 32 => ⟨S_, .f32⟩
  | 33 => ⟨S8x13776x3, .f32⟩
  | 34 => ⟨S8x13776x3, .f32⟩
  | 35 => ⟨S_, .f32⟩
  | 36 => ⟨S8x13776x3, .f32⟩
  | 37 => ⟨S8x13776x3, .f32⟩
  | 38 => ⟨S8x13776x3, .f32⟩
  | 39 => ⟨S8x13776x3, .i32⟩
  | 40 => ⟨S5, .i32⟩
  | 41 => ⟨S_, .i32⟩
  | 42 => ⟨S5, .i32⟩
  | 43 => ⟨S5, .i32⟩
  | 44 => ⟨S5x5x5, .i32⟩
  | 45 => ⟨S5x5x5, .i32⟩
  | 46 => ⟨S5x5x5, .i32⟩
  | 47 => ⟨S5x5x5x1, .i32⟩
  | 48 => ⟨S5x5x5x1, .i32⟩
  | 49 => ⟨S5x5x5x1, .i32⟩
  | 50 => ⟨S5x5x5x3, .i32⟩
  | 51 => ⟨S125x3, .i32⟩
  | 52 => ⟨S8x13776x1x3, .i32⟩
  | 53 => ⟨S1x1x125x3, .i32⟩
  | 54 => ⟨S8x13776x125x3, .i32⟩
  | 55 => ⟨S8x13776x125x3, .i32⟩
  | 56 => ⟨S8x13776x125x3, .i32⟩
  | 57 => ⟨S8x13776x125x3, .f32⟩
  | 58 => ⟨S_, .f32⟩
  | 59 => ⟨S8x13776x125x3, .f32⟩
  | 60 => ⟨S8x13776x125x3, .f32⟩
  | 61 => ⟨S_, .f32⟩
  | 62 => ⟨S8x13776x125x3, .f32⟩
  | 63 => ⟨S8x13776x125x3, .f32⟩
  | 64 => ⟨S8x13776x1x3, .f32⟩
  | 65 => ⟨S8x13776x125x3, .f32⟩
  | 66 => ⟨S8x13776x125x3, .f32⟩
  | 67 => ⟨S8x13776x125x3, .f32⟩
  | 68 => ⟨S_, .f32⟩
  | 69 => ⟨S8x13776x125, .f32⟩
  | 70 => ⟨S8x13776x125, .f32⟩
  | 71 => ⟨S_, .f32⟩
  | 72 => ⟨S8x13776x125, .f32⟩
  | 73 => ⟨S8x13776x125, .f32⟩
  | 74 => ⟨S8x13776x125, .f32⟩
  | 75 => ⟨S_, .i32⟩
  | 76 => ⟨S8x13776x125x3, .i32⟩
  | 77 => ⟨S8x13776x125x3, .i1⟩
  | 78 => ⟨S_, .i32⟩
  | 79 => ⟨S8x13776x125x3, .i32⟩
  | 80 => ⟨S8x13776x125x3, .i1⟩
  | 81 => ⟨S8x13776x125x3, .i1⟩
  | 82 => ⟨S_, .i1⟩
  | 83 => ⟨S8x13776x125, .i1⟩
  | 84 => ⟨S_, .f32⟩
  | 85 => ⟨S_, .f32⟩
  | 86 => ⟨S8x13776x125, .f32⟩
  | 87 => ⟨S8x13776x125, .f32⟩
  | 88 => ⟨S_, .i32⟩
  | 89 => ⟨S_, .i32⟩
  | 90 => ⟨S_, .i32⟩
  | 91 => ⟨S8x13776x125x3, .i32⟩
  | 92 => ⟨S8x13776x125x3, .i32⟩
  | 93 => ⟨S_, .i32⟩
  | 94 => ⟨S8x13776x125x3, .i32⟩
  | 95 => ⟨S8x13776x125x3, .i32⟩
  | 96 => ⟨S8x13776x125x1, .i32⟩
  | 97 => ⟨S8x13776x125, .i32⟩
  | 98 => ⟨S_, .i32⟩
  | 99 => ⟨S8x13776x125, .i32⟩
  | 100 => ⟨S8x13776x125, .i32⟩
  | 101 => ⟨S8x13776x125x1, .i32⟩
  | 102 => ⟨S8x13776x125, .i32⟩
  | 103 => ⟨S8x13776x125, .i32⟩
  | 104 => ⟨S_, .i32⟩
  | 105 => ⟨S8x13776x125, .i32⟩
  | 106 => ⟨S8x13776x125, .i32⟩
  | 107 => ⟨S8x13776x125x1, .i32⟩
  | 108 => ⟨S8x13776x125, .i32⟩
  | 109 => ⟨S8x13776x125, .i32⟩
  | 110 => ⟨S8, .i32⟩
  | 111 => ⟨S8x1x1, .i32⟩
  | 112 => ⟨S_, .i32⟩
  | 113 => ⟨S8x1x1, .i32⟩
  | 114 => ⟨S8x1x1, .i32⟩
  | 115 => ⟨S8x13776x125, .i32⟩
  | 116 => ⟨S8x13776x125, .i32⟩
  | 117 => ⟨S_, .i32⟩
  | 118 => ⟨S8x13776x125, .i32⟩
  | 119 => ⟨S8x13776x125, .i32⟩
  | 120 => ⟨S13776000, .i32⟩
  | 121 => ⟨S_, .i32⟩
  | 122 => ⟨S8x13776x125, .i32⟩
  | 123 => ⟨S8x13776x125, .i32⟩
  | 124 => ⟨S13776000, .i32⟩
  | 125 => ⟨S_, .i32⟩
  | 126 => ⟨S8x13776x125, .i32⟩
  | 127 => ⟨S8x13776x125, .i32⟩
  | _ => ⟨S8x6890x3, .f32⟩

abbrev hbmTy0_1 (i : Nat) : BufTy := match i % 128 with
  | 0 => ⟨S13776000, .i32⟩
  | 1 => ⟨S_, .i32⟩
  | 2 => ⟨S8x13776x125, .i32⟩
  | 3 => ⟨S8x13776x125, .i32⟩
  | 4 => ⟨S13776000, .i32⟩
  | 5 => ⟨S55104000, .i32⟩
  | 6 => ⟨S13776000, .f32⟩
  | 7 => ⟨S13776x1, .f32⟩
  | 8 => ⟨S13776, .f32⟩
  | 9 => ⟨S1x13776x1, .f32⟩
  | 10 => ⟨S8x13776x125, .f32⟩
  | 11 => ⟨S8x13776x125, .f32⟩
  | 12 => ⟨S13776000, .f32⟩
  | 13 => ⟨S13776x1, .f32⟩
  | 14 => ⟨S13776, .f32⟩
  | 15 => ⟨S1x13776x1, .f32⟩
  | 16 => ⟨S8x13776x125, .f32⟩
  | 17 => ⟨S8x13776x125, .f32⟩
  | 18 => ⟨S13776000, .f32⟩
  | 19 => ⟨S13776x1, .f32⟩
  | 20 => ⟨S13776, .f32⟩
  | 21 => ⟨S1x13776x1, .f32⟩
  | 22 => ⟨S8x13776x125, .f32⟩
  | 23 => ⟨S8x13776x125, .f32⟩
  | 24 => ⟨S13776000, .f32⟩
  | 25 => ⟨S55104000, .f32⟩
  | 26 => ⟨S_, .f32⟩
  | 27 => ⟨S67108864, .f32⟩
  | 28 => ⟨S_, .i32⟩
  | 29 => ⟨S55104000, .i32⟩
  | 30 => ⟨S55104000, .i1⟩
  | 31 => ⟨S_, .i32⟩
  | 32 => ⟨S55104000, .i32⟩
  | 33 => ⟨S55104000, .i32⟩
  | 34 => ⟨S55104000, .i32⟩
  | 35 => ⟨S55104000x1, .i32⟩
  | 36 => ⟨S67108864, .f32⟩
  | 37 => ⟨S8x4x128x128x128, .f32⟩
  | 38 => ⟨S8x3x128x128x128, .f32⟩
  | _ => ⟨S8x6890x3, .f32⟩

abbrev hbmTy (i : Nat) : BufTy := match i / 128 with
  | 0 => hbmTy0_0 i
  | 1 => hbmTy0_1 i
  | _ => ⟨S8x6890x3, .f32⟩

abbrev bufTy : (tb : Table) → Fin (tcTables nBuf tb) → BufTy
  | .hbm, ⟨i, _⟩ => hbmTy i
  | .local _ .vmem, ⟨0, _⟩ => ⟨S1x4x32x128x128, .f32⟩
  | .local _ .vmem, ⟨1, _⟩ => ⟨S1x4x32x128x128, .f32⟩
  | .local _ .vmem, ⟨2, _⟩ => ⟨S1x3x32x128x128, .f32⟩
  | .local _ .vmem, ⟨3, _⟩ => ⟨S1x3x32x128x128, .f32⟩
  | _, _ => ⟨S8x6890x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_13 : Ref sig .tc := ⟨.hbm, 75, rfl⟩
abbrev main_v56 : Ref sig .tc := ⟨.hbm, 76, rfl⟩
abbrev main_v57 : Ref sig .tc := ⟨.hbm, 77, rfl⟩
abbrev main_c_14 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_cst_16 : Ref sig .tc := ⟨.hbm, 84, rfl⟩
abbrev main_call0_v0 : Ref sig .tc := ⟨.hbm, 85, rfl⟩
abbrev main_call0_v1 : Ref sig .tc := ⟨.hbm, 86, rfl⟩
abbrev main_v62 : Ref sig .tc := ⟨.hbm, 87, rfl⟩
abbrev main_c_17 : Ref sig .tc := ⟨.hbm, 88, rfl⟩
abbrev main_c_18 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_19 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_20 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_21 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_22 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_c_23 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_24 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_25 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_26 : Ref sig .tc := ⟨.hbm, 154, rfl⟩
abbrev main_v115 : Ref sig .tc := ⟨.hbm, 155, rfl⟩
abbrev main_c_27 : Ref sig .tc := ⟨.hbm, 156, rfl⟩
abbrev main_v116 : Ref sig .tc := ⟨.hbm, 157, rfl⟩
abbrev main_v117 : Ref sig .tc := ⟨.hbm, 158, rfl⟩
abbrev main_c_28 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x4x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x32x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S13776x3 : S_.BroadcastsInDim S13776x3 (![] : Fin 0 → Fin S13776x3.rank)
  bcast_S13776x3_S13776x3x1_0_1 : S13776x3.BroadcastsInDim S13776x3x1 (![0, 1] : Fin 2 → Fin S13776x3x1.rank)
  reducesTo_S8x13776x3x3_S8x13776x3_d2 : S8x13776x3x3.ReducesTo [2] S8x13776x3
  h_S_ : 0 < S_.numel
  bcast_S_S8x13776x3 : S_.BroadcastsInDim S8x13776x3 (![] : Fin 0 → Fin S8x13776x3.rank)
  reducesTo_S13776x3x3_S13776x3_d1 : S13776x3x3.ReducesTo [1] S13776x3
  bcast_S_S5 : S_.BroadcastsInDim S5 (![] : Fin 0 → Fin S5.rank)
  bcast_S5_S5x5x5_0 : S5.BroadcastsInDim S5x5x5 (![0] : Fin 1 → Fin S5x5x5.rank)
  bcast_S5_S5x5x5_1 : S5.BroadcastsInDim S5x5x5 (![1] : Fin 1 → Fin S5x5x5.rank)
  bcast_S5_S5x5x5_2 : S5.BroadcastsInDim S5x5x5 (![2] : Fin 1 → Fin S5x5x5.rank)
  bcast_S5x5x5_S5x5x5x1_0_1_2 : S5x5x5.BroadcastsInDim S5x5x5x1 (![0, 1, 2] : Fin 3 → Fin S5x5x5x1.rank)
  concatenates_S5x5x5x1_S5x5x5x1_S5x5x5x1_S5x5x5x3_d3 : Shape.Concatenates [S5x5x5x1, S5x5x5x1, S5x5x5x1] S5x5x5x3 3
  shapeCasts_S5x5x5x3_S125x3 : S5x5x5x3.ShapeCasts S125x3
  bcast_S8x13776x3_S8x13776x1x3_0_1_3 : S8x13776x3.BroadcastsInDim S8x13776x1x3 (![0, 1, 3] : Fin 3 → Fin S8x13776x1x3.rank)
  bcast_S125x3_S1x1x125x3_2_3 : S125x3.BroadcastsInDim S1x1x125x3 (![2, 3] : Fin 2 → Fin S1x1x125x3.rank)
  bcast_S8x13776x1x3_S8x13776x125x3_0_1_2_3 : S8x13776x1x3.BroadcastsInDim S8x13776x125x3 (![0, 1, 2, 3] : Fin 4 → Fin S8x13776x125x3.rank)
  bcast_S1x1x125x3_S8x13776x125x3_0_1_2_3 : S1x1x125x3.BroadcastsInDim S8x13776x125x3 (![0, 1, 2, 3] : Fin 4 → Fin S8x13776x125x3.rank)
  bcast_S_S8x13776x125x3 : S_.BroadcastsInDim S8x13776x125x3 (![] : Fin 0 → Fin S8x13776x125x3.rank)
  reducesTo_S8x13776x125x3_S8x13776x125_d3 : S8x13776x125x3.ReducesTo [3] S8x13776x125
  bcast_S_S8x13776x125 : S_.BroadcastsInDim S8x13776x125 (![] : Fin 0 → Fin S8x13776x125.rank)
  slices_S8x13776x125x3_S8x13776x125x1_0_0_0_0 : S8x13776x125x3.Slices ![0, 0, 0, 0] S8x13776x125x1
  shapeCasts_S8x13776x125x1_S8x13776x125 : S8x13776x125x1.ShapeCasts S8x13776x125
  slices_S8x13776x125x3_S8x13776x125x1_0_0_0_1 : S8x13776x125x3.Slices ![0, 0, 0, 1] S8x13776x125x1
  slices_S8x13776x125x3_S8x13776x125x1_0_0_0_2 : S8x13776x125x3.Slices ![0, 0, 0, 2] S8x13776x125x1
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x13776x125_0_1_2 : S8x1x1.BroadcastsInDim S8x13776x125 (![0, 1, 2] : Fin 3 → Fin S8x13776x125.rank)
  shapeCasts_S8x13776x125_S13776000 : S8x13776x125.ShapeCasts S13776000
  concatenates_S13776000_S13776000_S13776000_S13776000_S55104000_d0 : Shape.Concatenates [S13776000, S13776000, S13776000, S13776000] S55104000 0
  slices_S13776x3_S13776x1_0_0 : S13776x3.Slices ![0, 0] S13776x1
  shapeCasts_S13776x1_S13776 : S13776x1.ShapeCasts S13776
  bcast_S13776_S1x13776x1_1 : S13776.BroadcastsInDim S1x13776x1 (![1] : Fin 1 → Fin S1x13776x1.rank)
  bcast_S1x13776x1_S8x13776x125_0_1_2 : S1x13776x1.BroadcastsInDim S8x13776x125 (![0, 1, 2] : Fin 3 → Fin S8x13776x125.rank)
  slices_S13776x3_S13776x1_0_1 : S13776x3.Slices ![0, 1] S13776x1
  slices_S13776x3_S13776x1_0_2 : S13776x3.Slices ![0, 2] S13776x1
  bcast_S_S67108864 : S_.BroadcastsInDim S67108864 (![] : Fin 0 → Fin S67108864.rank)
  bcast_S_S55104000 : S_.BroadcastsInDim S55104000 (![] : Fin 0 → Fin S55104000.rank)
  bcast_S55104000_S55104000x1_0 : S55104000.BroadcastsInDim S55104000x1 (![0] : Fin 1 → Fin S55104000x1.rank)
  shapeCasts_S67108864_S8x4x128x128x128 : S67108864.ShapeCasts S8x4x128x128x128
  inb_S1x4x32x128x128_S1x4x32x128x128_0_0_0_0_0 : ∀ a, (![0, 0, 0, 0, 0] : Fin 5 → Nat) a + S1x4x32x128x128.size a ≤ S1x4x32x128x128.size a
  h_S1x4x32x128x128 : 0 < S1x4x32x128x128.numel
  shapeCasts_S1x4x32x128x128_S4x32x128x128 : S1x4x32x128x128.ShapeCasts S4x32x128x128
  slices_S4x32x128x128_o0_0_0_0_S1x32x128x128 : S4x32x128x128.Slices ![0, 0, 0, 0] S1x32x128x128
  shapeCasts_S1x32x128x128_S32x128x128 : S1x32x128x128.ShapeCasts S32x128x128
  slices_S4x32x128x128_o1_0_0_0_S3x32x128x128 : S4x32x128x128.Slices ![1, 0, 0, 0] S3x32x128x128
  shapeCasts_S32x128x128_S1x32x128x128 : S32x128x128.ShapeCasts S1x32x128x128
  broadcasts_S1x32x128x128_S3x32x128x128 : S1x32x128x128.Broadcasts S3x32x128x128
  inb_S1x3x32x128x128_S1x3x32x128x128_0_0_0_0_0 : ∀ a, (![0, 0, 0, 0, 0] : Fin 5 → Nat) a + S1x3x32x128x128.size a ≤ S1x3x32x128x128.size a
  h_S1x3x32x128x128 : 0 < S1x3x32x128x128.numel
  shapeCasts_S1x3x32x128x128_S3x32x128x128 : S1x3x32x128x128.ShapeCasts S3x32x128x128
  shapeCasts_S3x32x128x128_S1x3x32x128x128 : S3x32x128x128.ShapeCasts S1x3x32x128x128
  gather_S8x6890x3_S13776x3x1_S8x13776x3x3_03_1_n_n_1_2_813_wf : GatherDims.WF S8x6890x3 S13776x3x1 S8x13776x3x3 [0, 3] [1] [] [1] [] 2 ![8, 1, 3]
  gather_S6890x3_S13776x3x1_S13776x3x3_2_0_n_n_0_2_13_wf : GatherDims.WF S6890x3 S13776x3x1 S13776x3x3 [2] [0] [] [0] [] 2 ![1, 3]
  scatter_S67108864_S55104000x1_S55104000_n_0_0_1_wf : ScatterDims.WF S67108864 S55104000x1 S55104000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x32x128x128.size a ≤ S8x4x128x128x128.size a
  hwx0_0 : ∀ i : grid0.Coords, EltTy.bits .f32 = 32 ∨ (Rect.block (s := S8x4x128x128x128) S1x4x32x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x32x128x128.size a ≤ S8x3x128x128x128.size a
  hwx0_1 : ∀ i : grid0.Coords, EltTy.bits .f32 = 32 ∨ (Rect.block (s := S8x3x128x128x128) S1x3x32x128x128.size (cc0_transform_1 i) (hinb0_1 i)).WholeWords (EltTy.packing .f32)

variable [Facts₀]

def gather_S8x6890x3_S13776x3x1_S8x13776x3x3_03_1_n_n_1_2_813 : GatherDims S8x6890x3 S13776x3x1 S8x13776x3x3 where
  offsetDims := [0, 3]
  collapsedSliceDims := [1]
  operandBatchingDims := []
  startIndicesBatchingDims := []
  startIndexMap := [1]
  indexVectorDim := 2
  sliceSizes := ![8, 1, 3]
  wf := gather_S8x6890x3_S13776x3x1_S8x13776x3x3_03_1_n_n_1_2_813_wf
def gather_S6890x3_S13776x3x1_S13776x3x3_2_0_n_n_0_2_13 : GatherDims S6890x3 S13776x3x1 S13776x3x3 where
  offsetDims := [2]
  collapsedSliceDims := [0]
  operandBatchingDims := []
  startIndicesBatchingDims := []
  startIndexMap := [0]
  indexVectorDim := 2
  sliceSizes := ![1, 3]
  wf := gather_S6890x3_S13776x3x1_S13776x3x3_2_0_n_n_0_2_13_wf
def scatter_S67108864_S55104000x1_S55104000_n_0_0_1 : ScatterDims S67108864 S55104000x1 S55104000 where
  updateWindowDims := []
  insertedWindowDims := [0]
  scatterDimsToOperandDims := [0]
  indexVectorDim := 1
  wf := scatter_S67108864_S55104000x1_S55104000_n_0_0_1_wf

abbrev win0_0 : Pipeline.Window sig grid0 :=
  Pipeline.Window.ofSpec (Memref.whole main_v123) S1x4x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v124) S1x3x32x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x6890x3 : Shape := ⟨3, ![8, 6890, 3]⟩
abbrev S6890x3 : Shape := ⟨2, ![6890, 3]⟩
abbrev S13776x3 : Shape := ⟨2, ![13776, 3]⟩
abbrev S8x128x128x128 : Shape := ⟨4, ![8, 128, 128, 128]⟩
abbrev S_ : Shape := ⟨0, ![]⟩
abbrev S13776x3x1 : Shape := ⟨3, ![13776, 3, 1]⟩
abbrev S8x13776x3x3 : Shape := ⟨4, ![8, 13776, 3, 3]⟩
abbrev S8x13776x3 : Shape := ⟨3, ![8, 13776, 3]⟩
abbrev S13776x3x3 : Shape := ⟨3, ![13776, 3, 3]⟩
abbrev S5 : Shape := ⟨1, ![5]⟩
abbrev S5x5x5 : Shape := ⟨3, ![5, 5, 5]⟩
abbrev S5x5x5x1 : Shape := ⟨4, ![5, 5, 5, 1]⟩
abbrev S5x5x5x3 : Shape := ⟨4, ![5, 5, 5, 3]⟩
abbrev S125x3 : Shape := ⟨2, ![125, 3]⟩
abbrev S8x13776x1x3 : Shape := ⟨4, ![8, 13776, 1, 3]⟩
abbrev S1x1x125x3 : Shape := ⟨4, ![1, 1, 125, 3]⟩
abbrev S8x13776x125x3 : Shape := ⟨4, ![8, 13776, 125, 3]⟩
abbrev S8x13776x125 : Shape := ⟨3, ![8, 13776, 125]⟩
abbrev S8 : Shape := ⟨1, ![8]⟩
abbrev S8x1x1 : Shape := ⟨3, ![8, 1, 1]⟩
abbrev S8x13776x125x1 : Shape := ⟨4, ![8, 13776, 125, 1]⟩
abbrev S13776000 : Shape := ⟨1, ![13776000]⟩
abbrev S1x13776x1x3 : Shape := ⟨4, ![1, 13776, 1, 3]⟩
abbrev S13776000x3 : Shape := ⟨2, ![13776000, 3]⟩
abbrev S16777216x3 : Shape := ⟨2, ![16777216, 3]⟩
abbrev S13776000x1 : Shape := ⟨2, ![13776000, 1]⟩
abbrev S16777216 : Shape := ⟨1, ![16777216]⟩
abbrev S16777216x1 : Shape := ⟨2, ![16777216, 1]⟩
abbrev S8x128x128x128x3 : Shape := ⟨5, ![8, 128, 128, 128, 3]⟩
abbrev S8x3x128x128x128 : Shape := ⟨5, ![8, 3, 128, 128, 128]⟩

abbrev nBuf : Space → Nat
  | .hbm => 152
  | .vmem => 0
  | .smem => 0
  | _ => 0

abbrev hbmTy0_0 (i : Nat) : BufTy := match i % 128 with
  | 0 => ⟨S8x6890x3, .f32⟩
  | 1 => ⟨S6890x3, .f32⟩
  | 2 => ⟨S13776x3, .i32⟩
  | 3 => ⟨S8x128x128x128, .f32⟩
  | 4 => ⟨S_, .i32⟩
  | 5 => ⟨S13776x3, .i32⟩
  | 6 => ⟨S13776x3, .i1⟩
  | 7 => ⟨S_, .i32⟩
  | 8 => ⟨S13776x3, .i32⟩
  | 9 => ⟨S13776x3, .i32⟩
  | 10 => ⟨S13776x3, .i32⟩
  | 11 => ⟨S13776x3x1, .i32⟩
  | 12 => ⟨S8x13776x3x3, .f32⟩
  | 13 => ⟨S_, .f32⟩
  | 14 => ⟨S8x13776x3, .f32⟩
  | 15 => ⟨S_, .f32⟩
  | 16 => ⟨S8x13776x3, .f32⟩
  | 17 => ⟨S8x13776x3, .f32⟩
  | 18 => ⟨S_, .i32⟩
  | 19 => ⟨S13776x3, .i32⟩
  | 20 => ⟨S13776x3, .i1⟩
  | 21 => ⟨S_, .i32⟩
  | 22 => ⟨S13776x3, .i32⟩
  | 23 => ⟨S13776x3, .i32⟩
  | 24 => ⟨S13776x3, .i32⟩
  | 25 => ⟨S13776x3x1, .i32⟩
  | 26 => ⟨S13776x3x3, .f32⟩
  | 27 => ⟨S_, .f32⟩
  | 28 => ⟨S13776x3, .f32⟩
  | 29 => ⟨S_, .f32⟩
  | 30 => ⟨S13776x3, .f32⟩
  | 31 => ⟨S13776x3, .f32⟩
  | 32 => ⟨S_, .f32⟩
  | 33 => ⟨S8x13776x3, .f32⟩
  | 34 => ⟨S8x13776x3, .f32⟩
  | 35 => ⟨S_, .f32⟩
  | 36 => ⟨S8x13776x3, .f32⟩
  | 37 => ⟨S8x13776x3, .f32⟩
  | 38 => ⟨S8x13776x3, .f32⟩
  | 39 => ⟨S8x13776x3, .i32⟩
  | 40 => ⟨S5, .i32⟩
  | 41 => ⟨S_, .i32⟩
  | 42 => ⟨S5, .i32⟩
  | 43 => ⟨S5, .i32⟩
  | 44 => ⟨S5x5x5, .i32⟩
  | 45 => ⟨S5x5x5, .i32⟩
  | 46 => ⟨S5x5x5, .i32⟩
  | 47 => ⟨S5x5x5x1, .i32⟩
  | 48 => ⟨S5x5x5x1, .i32⟩
  | 49 => ⟨S5x5x5x1, .i32⟩
  | 50 => ⟨S5x5x5x3, .i32⟩
  | 51 => ⟨S125x3, .i32⟩
  | 52 => ⟨S8x13776x1x3, .i32⟩
  | 53 => ⟨S1x1x125x3, .i32⟩
  | 54 => ⟨S8x13776x125x3, .i32⟩
  | 55 => ⟨S8x13776x125x3, .i32⟩
  | 56 => ⟨S8x13776x125x3, .i32⟩
  | 57 => ⟨S8x13776x125x3, .f32⟩
  | 58 => ⟨S_, .f32⟩
  | 59 => ⟨S8x13776x125x3, .f32⟩
  | 60 => ⟨S8x13776x125x3, .f32⟩
  | 61 => ⟨S_, .f32⟩
  | 62 => ⟨S8x13776x125x3, .f32⟩
  | 63 => ⟨S8x13776x125x3, .f32⟩
  | 64 => ⟨S8x13776x1x3, .f32⟩
  | 65 => ⟨S8x13776x125x3, .f32⟩
  | 66 => ⟨S8x13776x125x3, .f32⟩
  | 67 => ⟨S8x13776x125x3, .f32⟩
  | 68 => ⟨S_, .f32⟩
  | 69 => ⟨S8x13776x125, .f32⟩
  | 70 => ⟨S8x13776x125, .f32⟩
  | 71 => ⟨S_, .f32⟩
  | 72 => ⟨S8x13776x125, .f32⟩
  | 73 => ⟨S8x13776x125, .f32⟩
  | 74 => ⟨S8x13776x125, .f32⟩
  | 75 => ⟨S_, .i32⟩
  | 76 => ⟨S8x13776x125x3, .i32⟩
  | 77 => ⟨S8x13776x125x3, .i1⟩
  | 78 => ⟨S_, .i32⟩
  | 79 => ⟨S8x13776x125x3, .i32⟩
  | 80 => ⟨S8x13776x125x3, .i1⟩
  | 81 => ⟨S8x13776x125x3, .i1⟩
  | 82 => ⟨S_, .i1⟩
  | 83 => ⟨S8x13776x125, .i1⟩
  | 84 => ⟨S_, .f32⟩
  | 85 => ⟨S_, .f32⟩
  | 86 => ⟨S8x13776x125, .f32⟩
  | 87 => ⟨S8x13776x125, .f32⟩
  | 88 => ⟨S_, .i32⟩
  | 89 => ⟨S_, .i32⟩
  | 90 => ⟨S_, .i32⟩
  | 91 => ⟨S8x13776x125x3, .i32⟩
  | 92 => ⟨S8x13776x125x3, .i32⟩
  | 93 => ⟨S_, .i32⟩
  | 94 => ⟨S8x13776x125x3, .i32⟩
  | 95 => ⟨S8x13776x125x3, .i32⟩
  | 96 => ⟨S8, .i32⟩
  | 97 => ⟨S8x1x1, .i32⟩
  | 98 => ⟨S_, .i32⟩
  | 99 => ⟨S8x1x1, .i32⟩
  | 100 => ⟨S8x1x1, .i32⟩
  | 101 => ⟨S8x13776x125x1, .i32⟩
  | 102 => ⟨S8x13776x125, .i32⟩
  | 103 => ⟨S8x13776x125, .i32⟩
  | 104 => ⟨S8x13776x125, .i32⟩
  | 105 => ⟨S_, .i32⟩
  | 106 => ⟨S8x13776x125, .i32⟩
  | 107 => ⟨S8x13776x125, .i32⟩
  | 108 => ⟨S8x13776x125x1, .i32⟩
  | 109 => ⟨S8x13776x125, .i32⟩
  | 110 => ⟨S8x13776x125, .i32⟩
  | 111 => ⟨S_, .i32⟩
  | 112 => ⟨S8x13776x125, .i32⟩
  | 113 => ⟨S8x13776x125, .i32⟩
  | 114 => ⟨S8x13776x125x1, .i32⟩
  | 115 => ⟨S8x13776x125, .i32⟩
  | 116 => ⟨S8x13776x125, .i32⟩
  | 117 => ⟨S13776000, .i32⟩
  | 118 => ⟨S13776000, .f32⟩
  | 119 => ⟨S8x13776x125x1, .f32⟩
  | 120 => ⟨S1x13776x1x3, .f32⟩
  | 121 => ⟨S8x13776x125x3, .f32⟩
  | 122 => ⟨S8x13776x125x3, .f32⟩
  | 123 => ⟨S8x13776x125x3, .f32⟩
  | 124 => ⟨S13776000x3, .f32⟩
  | 125 => ⟨S_, .f32⟩
  | 126 => ⟨S16777216x3, .f32⟩
  | 127 => ⟨S_, .i32⟩
  | _ => ⟨S8x6890x3, .f32⟩

abbrev hbmTy0_1 (i : Nat) : BufTy := match i % 128 with
  | 0 => ⟨S13776000, .i32⟩
  | 1 => ⟨S13776000, .i1⟩
  | 2 => ⟨S_, .i32⟩
  | 3 => ⟨S13776000, .i32⟩
  | 4 => ⟨S13776000, .i32⟩
  | 5 => ⟨S13776000, .i32⟩
  | 6 => ⟨S13776000x1, .i32⟩
  | 7 => ⟨S16777216x3, .f32⟩
  | 8 => ⟨S_, .f32⟩
  | 9 => ⟨S16777216, .f32⟩
  | 10 => ⟨S_, .i32⟩
  | 11 => ⟨S13776000, .i32⟩
  | 12 => ⟨S13776000, .i1⟩
  | 13 => ⟨S_, .i32⟩
  | 14 => ⟨S13776000, .i32⟩
  | 15 => ⟨S13776000, .i32⟩
  | 16 => ⟨S13776000, .i32⟩
  | 17 => ⟨S13776000x1, .i32⟩
  | 18 => ⟨S16777216, .f32⟩
  | 19 => ⟨S16777216x1, .f32⟩
  | 20 => ⟨S16777216x3, .f32⟩
  | 21 => ⟨S16777216x3, .f32⟩
  | 22 => ⟨S8x128x128x128x3, .f32⟩
  | 23 => ⟨S8x3x128x128x128, .f32⟩
  | _ => ⟨S8x6890x3, .f32⟩

abbrev hbmTy (i : Nat) : BufTy := match i / 128 with
  | 0 => hbmTy0_0 i
  | 1 => hbmTy0_1 i
  | _ => ⟨S8x6890x3, .f32⟩

abbrev bufTy : (tb : Table) → Fin (tcTables nBuf tb) → BufTy
  | .hbm, ⟨i, _⟩ => hbmTy i
  | _, _ => ⟨S8x6890x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_9 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_13 : Ref sig .tc := ⟨.hbm, 75, rfl⟩
abbrev main_v56 : Ref sig .tc := ⟨.hbm, 76, rfl⟩
abbrev main_v57 : Ref sig .tc := ⟨.hbm, 77, rfl⟩
abbrev main_c_14 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_15 : Ref sig .tc := ⟨.hbm, 82, rfl⟩
abbrev main_v61 : Ref sig .tc := ⟨.hbm, 83, rfl⟩
abbrev main_cst_16 : Ref sig .tc := ⟨.hbm, 84, rfl⟩
abbrev main_call0_v0 : Ref sig .tc := ⟨.hbm, 85, rfl⟩
abbrev main_call0_v1 : Ref sig .tc := ⟨.hbm, 86, rfl⟩
abbrev main_v62 : Ref sig .tc := ⟨.hbm, 87, rfl⟩
abbrev main_c_17 : Ref sig .tc := ⟨.hbm, 88, rfl⟩
abbrev main_c_18 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_19 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_20 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_21 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_22 : Ref sig .tc := ⟨.hbm, 125, rfl⟩
abbrev main_v90 : Ref sig .tc := ⟨.hbm, 126, rfl⟩
abbrev main_c_23 : Ref sig .tc := ⟨.hbm, 127, rfl⟩
abbrev main_v91 : Ref sig .tc := ⟨.hbm, 128, rfl⟩
abbrev main_v92 : Ref sig .tc := ⟨.hbm, 129, rfl⟩
abbrev main_c_24 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_25 : Ref sig .tc := ⟨.hbm, 136, rfl⟩
abbrev main_v98 : Ref sig .tc := ⟨.hbm, 137, rfl⟩
abbrev main_c_26 : Ref sig .tc := ⟨.hbm, 138, rfl⟩
abbrev main_v99 : Ref sig .tc := ⟨.hbm, 139, rfl⟩
abbrev main_v100 : Ref sig .tc := ⟨.hbm, 140, rfl⟩
abbrev main_c_27 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩

abbrev nD : Nat := 1
abbrev τ : Topo := Topo.v7x

variable {F : FTy → Type} [FloatOps F]

class Facts₀ : Prop where
  bcast_S_S13776x3 : S_.BroadcastsInDim S13776x3 (![] : Fin 0 → Fin S13776x3.rank)
  bcast_S13776x3_S13776x3x1_0_1 : S13776x3.BroadcastsInDim S13776x3x1 (![0, 1] : Fin 2 → Fin S13776x3x1.rank)
  reducesTo_S8x13776x3x3_S8x13776x3_d2 : S8x13776x3x3.ReducesTo [2] S8x13776x3
  h_S_ : 0 < S_.numel
  bcast_S_S8x13776x3 : S_.BroadcastsInDim S8x13776x3 (![] : Fin 0 → Fin S8x13776x3.rank)
  reducesTo_S13776x3x3_S13776x3_d1 : S13776x3x3.ReducesTo [1] S13776x3
  bcast_S_S5 : S_.BroadcastsInDim S5 (![] : Fin 0 → Fin S5.rank)
  bcast_S5_S5x5x5_0 : S5.BroadcastsInDim S5x5x5 (![0] : Fin 1 → Fin S5x5x5.rank)
  bcast_S5_S5x5x5_1 : S5.BroadcastsInDim S5x5x5 (![1] : Fin 1 → Fin S5x5x5.rank)
  bcast_S5_S5x5x5_2 : S5.BroadcastsInDim S5x5x5 (![2] : Fin 1 → Fin S5x5x5.rank)
  bcast_S5x5x5_S5x5x5x1_0_1_2 : S5x5x5.BroadcastsInDim S5x5x5x1 (![0, 1, 2] : Fin 3 → Fin S5x5x5x1.rank)
  concatenates_S5x5x5x1_S5x5x5x1_S5x5x5x1_S5x5x5x3_d3 : Shape.Concatenates [S5x5x5x1, S5x5x5x1, S5x5x5x1] S5x5x5x3 3
  shapeCasts_S5x5x5x3_S125x3 : S5x5x5x3.ShapeCasts S125x3
  bcast_S8x13776x3_S8x13776x1x3_0_1_3 : S8x13776x3.BroadcastsInDim S8x13776x1x3 (![0, 1, 3] : Fin 3 → Fin S8x13776x1x3.rank)
  bcast_S125x3_S1x1x125x3_2_3 : S125x3.BroadcastsInDim S1x1x125x3 (![2, 3] : Fin 2 → Fin S1x1x125x3.rank)
  bcast_S8x13776x1x3_S8x13776x125x3_0_1_2_3 : S8x13776x1x3.BroadcastsInDim S8x13776x125x3 (![0, 1, 2, 3] : Fin 4 → Fin S8x13776x125x3.rank)
  bcast_S1x1x125x3_S8x13776x125x3_0_1_2_3 : S1x1x125x3.BroadcastsInDim S8x13776x125x3 (![0, 1, 2, 3] : Fin 4 → Fin S8x13776x125x3.rank)
  bcast_S_S8x13776x125x3 : S_.BroadcastsInDim S8x13776x125x3 (![] : Fin 0 → Fin S8x13776x125x3.rank)
  reducesTo_S8x13776x125x3_S8x13776x125_d3 : S8x13776x125x3.ReducesTo [3] S8x13776x125
  bcast_S_S8x13776x125 : S_.BroadcastsInDim S8x13776x125 (![] : Fin 0 → Fin S8x13776x125.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  slices_S8x13776x125x3_S8x13776x125x1_0_0_0_0 : S8x13776x125x3.Slices ![0, 0, 0, 0] S8x13776x125x1
  shapeCasts_S8x13776x125x1_S8x13776x125 : S8x13776x125x1.ShapeCasts S8x13776x125
  bcast_S8x1x1_S8x13776x125_0_1_2 : S8x1x1.BroadcastsInDim S8x13776x125 (![0, 1, 2] : Fin 3 → Fin S8x13776x125.rank)
  slices_S8x13776x125x3_S8x13776x125x1_0_0_0_1 : S8x13776x125x3.Slices ![0, 0, 0, 1] S8x13776x125x1
  slices_S8x13776x125x3_S8x13776x125x1_0_0_0_2 : S8x13776x125x3.Slices ![0, 0, 0, 2] S8x13776x125x1
  shapeCasts_S8x13776x125_S13776000 : S8x13776x125.ShapeCasts S13776000
  bcast_S8x13776x125_S8x13776x125x1_0_1_2 : S8x13776x125.BroadcastsInDim S8x13776x125x1 (![0, 1, 2] : Fin 3 → Fin S8x13776x125x1.rank)
  bcast_S13776x3_S1x13776x1x3_1_3 : S13776x3.BroadcastsInDim S1x13776x1x3 (![1, 3] : Fin 2 → Fin S1x13776x1x3.rank)
  bcast_S8x13776x125x1_S8x13776x125x3_0_1_2_3 : S8x13776x125x1.BroadcastsInDim S8x13776x125x3 (![0, 1, 2, 3] : Fin 4 → Fin S8x13776x125x3.rank)
  bcast_S1x13776x1x3_S8x13776x125x3_0_1_2_3 : S1x13776x1x3.BroadcastsInDim S8x13776x125x3 (![0, 1, 2, 3] : Fin 4 → Fin S8x13776x125x3.rank)
  shapeCasts_S8x13776x125x3_S13776000x3 : S8x13776x125x3.ShapeCasts S13776000x3
  bcast_S_S16777216x3 : S_.BroadcastsInDim S16777216x3 (![] : Fin 0 → Fin S16777216x3.rank)
  bcast_S_S13776000 : S_.BroadcastsInDim S13776000 (![] : Fin 0 → Fin S13776000.rank)
  bcast_S13776000_S13776000x1_0 : S13776000.BroadcastsInDim S13776000x1 (![0] : Fin 1 → Fin S13776000x1.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S16777216x1_S16777216x3_0_1 : S16777216x1.BroadcastsInDim S16777216x3 (![0, 1] : Fin 2 → Fin S16777216x3.rank)
  shapeCasts_S16777216x3_S8x128x128x128x3 : S16777216x3.ShapeCasts S8x128x128x128x3
  transposes_S8x128x128x128x3_S8x3x128x128x128_0_4_1_2_3 : S8x128x128x128x3.Transposes [0, 4, 1, 2, 3] S8x3x128x128x128
  gather_S8x6890x3_S13776x3x1_S8x13776x3x3_03_1_n_n_1_2_813_wf : GatherDims.WF S8x6890x3 S13776x3x1 S8x13776x3x3 [0, 3] [1] [] [1] [] 2 ![8, 1, 3]
  gather_S6890x3_S13776x3x1_S13776x3x3_2_0_n_n_0_2_13_wf : GatherDims.WF S6890x3 S13776x3x1 S13776x3x3 [2] [0] [] [0] [] 2 ![1, 3]
  scatter_S16777216x3_S13776000x1_S13776000x3_1_0_0_1_wf : ScatterDims.WF S16777216x3 S13776000x1 S13776000x3 [1] [0] [0] 1
  scatter_S16777216_S13776000x1_S13776000_n_0_0_1_wf : ScatterDims.WF S16777216 S13776000x1 S13776000 [] [0] [0] 1

variable [Facts₀]

def gather_S8x6890x3_S13776x3x1_S8x13776x3x3_03_1_n_n_1_2_813 : GatherDims S8x6890x3 S13776x3x1 S8x13776x3x3 where
  offsetDims := [0, 3]
  collapsedSliceDims := [1]
  operandBatchingDims := []
  startIndicesBatchingDims := []
  startIndexMap := [1]
  indexVectorDim := 2
  sliceSizes := ![8, 1, 3]
  wf := gather_S8x6890x3_S13776x3x1_S8x13776x3x3_03_1_n_n_1_2_813_wf
def gather_S6890x3_S13776x3x1_S13776x3x3_2_0_n_n_0_2_13 : GatherDims S6890x3 S13776x3x1 S13776x3x3 where
  offsetDims := [2]
  collapsedSliceDims := [0]
  operandBatchingDims := []
  startIndicesBatchingDims := []
  startIndexMap := [0]
  indexVectorDim := 2
  sliceSizes := ![1, 3]
  wf := gather_S6890x3_S13776x3x1_S13776x3x3_2_0_n_n_0_2_13_wf
def scatter_S16777216x3_S13776000x1_S13776000x3_1_0_0_1 : ScatterDims S16777216x3 S13776000x1 S13776000x3 where
  updateWindowDims := [1]
  insertedWindowDims := [0]
  scatterDimsToOperandDims := [0]
  indexVectorDim := 1
  wf := scatter_S16777216x3_S13776000x1_S13776000x3_1_0_0_1_wf
def scatter_S16777216_S13776000x1_S13776000_n_0_0_1 : ScatterDims S16777216 S13776000x1 S13776000 where
  updateWindowDims := []
  insertedWindowDims := [0]
  scatterDimsToOperandDims := [0]
  indexVectorDim := 1
  wf := scatter_S16777216_S13776000x1_S13776000_n_0_0_1_wf

class Facts : Prop extends Facts₀ where

variable [Facts]
-- ==== Proof.FrameK.lean ====
import proofs.«102091_j32057635897979_2_alg».proof.Proof.Gen.Kernel.Launch
import proofs.«102091_j32057635897979_2_alg».proof.Proof.Gen.Kernel.Skeleton
import proofs.«102091_j32057635897979_2_alg».proof.Proof.Gen.Kernel.Points
import Idealize.ShloMosaic.Lib.Pipeline.FrameBody
import Idealize.ShloMosaic.Lib.Ring
import Idealize.ShloMosaic.Lib.Tactic

/-! # The frame of the program: its host operations, then one pipelined region

@main is five stretches of host operations followed by a single region over the static 8 x 4 grid. The region has
two windows: window 0 reads the 8x4x128x128x128 array the host operations assembled, a block of shape
1x4x32x128x128 at each grid point; window 1 writes the 8x3x128x128x128 result, a block of shape 1x3x32x128x128 at
each point. At a point the body loads the whole input block, loads the whole output block (a value it never uses)
and stores over the whole output block a function of the input block alone.

This file states what every TensorCore buffer holds when the region is entered (`V`), shows that no host operation
writes any of the four arguments, gives the body's triple and the pipeline's proof data, and concludes that @main
runs to the end with the four argument arrays unchanged. Everything is stated at an arbitrary float model `F`. -/

-- membership in a rectangle whose long axes have extents 32, 128 and 128 is checked by a structural recursion that
-- descends once per coordinate of those axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s TensorCore buffer `b` holds when the region is entered: the launch memory `m` after the effect of
    every host operation of the five stretches, in program order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

set_option maxHeartbeats 4000000 in
/-- No operation of the first stretch allocates a buffer: each writes a buffer the signature already declares. -/
theorem hostOps0_fresh : (hostOps0 : List (HloOp τ sig (Elt F))).Forall fun op => op.fresh = ∅ := by
  simp only [List.Forall]; repeat' constructor
/-- No operation of the second stretch (the inlined select against a constant) allocates a buffer. -/
theorem hostOps0_1_fresh : (hostOps0_1 : List (HloOp τ sig (Elt F))).Forall fun op => op.fresh = ∅ := by
  simp only [List.Forall]; repeat' constructor
/-- No operation of the third stretch (two integer constants) allocates a buffer. -/
theorem hostOps0_2_fresh : (hostOps0_2 : List (HloOp τ sig (Elt F))).Forall fun op => op.fresh = ∅ := by
  simp only [List.Forall]; repeat' constructor
/-- No operation of the fourth stretch (the inlined clamp between two constants) allocates a buffer. -/
theorem hostOps0_3_fresh : (hostOps0_3 : List (HloOp τ sig (Elt F))).Forall fun op => op.fresh = ∅ := by
  simp only [List.Forall]; repeat' constructor
set_option maxHeartbeats 4000000 in
/-- No operation of the fifth stretch allocates a buffer. -/
theorem hostOps0_4_fresh : (hostOps0_4 : List (HloOp τ sig (Elt F))).Forall fun op => op.fresh = ∅ := by
  simp only [List.Forall]; repeat' constructor

/-- @main is the five stretches of host operations followed by the region, and nothing else: each operation touches
    TensorCore buffers only and allocates none, so at the region's entry core `c`'s buffers hold `V m c`. Holds at
    any choice `𝒱₀` of the body's variants. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 8000000 in
/-- The region finds argument 0 (the 8x6890x3 array of floats) as it was launched: every host operation before the region writes exactly one
    buffer, its own result, and none of those results is this argument's buffer, so the fold of the operations'
    effects over the launch memory is the identity at it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (by decide)))
set_option maxHeartbeats 8000000 in
/-- The region finds argument 1 (the 6890x3 array of floats) as it was launched: every host operation before the region writes exactly one
    buffer, its own result, and none of those results is this argument's buffer, so the fold of the operations'
    effects over the launch memory is the identity at it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (by decide)))
set_option maxHeartbeats 8000000 in
/-- The region finds argument 2 (the 13776x3 array of integers) as it was launched: every host operation before the region writes exactly one
    buffer, its own result, and none of those results is this argument's buffer, so the fold of the operations'
    effects over the launch memory is the identity at it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (by decide)))
set_option maxHeartbeats 8000000 in
/-- The region finds argument 3 (the 8x128x128x128 array of floats) as it was launched: every host operation before the region writes exactly one
    buffer, its own result, and none of those results is this argument's buffer, so the fold of the operations'
    effects over the launch memory is the identity at it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (by decide)))

/-! ## The windows' blocks -/

/-- Window `w`'s block at grid point `t`: the rectangle of `w`'s array that the point's index map selects, read off
    the array's contents at the region's entry (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every grid point the input window's current staging buffer holds the point's block of the input array,
    whether the pipeline fetched it at this point or it stayed from the point before. Holds for any proof data whose
    input array is the region-entry contents (`hA`) and whose body leaves the input block in place (`hafter`): a
    fetched buffer holds the block by the copy, and an unfetched one holds the previous point's block, which is the
    same block because the index did not move. The window is never cut short and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run of @main that ends with every buffer outside the two windows' arrays at its region-entry contents, the
    four arguments end as launched: each argument's buffer is unscoped and is neither window's array (the windows
    stage two intermediate values of @main), so it ends at `V`, and `V` at an argument is the launch memory because
    no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

/-- The whole rectangle of the input block: offset 0 and the block's full extent 1x4x32x128x128 on every axis. The
    body's one load of the input reads through it. -/
abbrev r0_0 : Rect S1x4x32x128x128 :=
  Rect.unit (s := S1x4x32x128x128) ![0, 0, 0, 0, 0] S1x4x32x128x128.size inb_S1x4x32x128x128_S1x4x32x128x128_0_0_0_0_0

/-- The whole rectangle of the output block: offset 0 and the block's full extent 1x3x32x128x128 on every axis. The
    body's unused load of the output and its one store go through it. -/
abbrev r0_1 : Rect S1x3x32x128x128 :=
  Rect.unit (s := S1x3x32x128x128) ![0, 0, 0, 0, 0] S1x3x32x128x128.size inb_S1x3x32x128x128_S1x3x32x128x128_0_0_0_0_0

/-! ## What the body leaves in the output window's buffer -/

/-- The output block after the body, as a function of the input block `x0` alone: the body's single store, whose
    payload `k0_pay1` divides channels 1 to 3 of the input block by channel 0 plus the constant 0.001, laid over
    the whole output rectangle. Nothing of the buffer's earlier contents survives, the store being total. -/
def out0_1 (x0 : Vec F S1x4x32x128x128 .f32) : Vec F S1x3x32x128x128 .f32 :=
  View.canon [⟨r0_1, k0_pay1 (View.ld x0 r0_0)⟩]

/-- The single store covers the output block: its rectangle starts at the origin with the block's own extent, so
    there is one tile and it is the whole shape; every index of the block lies in it. -/
theorem cover0_1 (p0 : Vec F S1x3x32x128x128 .f32) (y : S1x3x32x128x128.Idx) :
    ∃ pc ∈ ([⟨r0_1, p0⟩] : List (View.Piece (Elt F) S1x3x32x128x128 .f32)), y ∈ pc.1.set :=
  View.cover_of_tiled [⟨r0_1, p0⟩] S1x3x32x128x128.size (by rfl) y

/-! ## The body's triple -/

set_option maxHeartbeats 4000000 in
/-- The kernel body at any grid coordinates `i`, run on whole staging buffers with the input's at contents `x0` and
    the output's at ANY contents `d`, reaches its continuation with the input's buffer still at `x0` and the
    output's at `out0_1 x0`. The body first loads the input block, then loads the output block: that second load
    only needs the output buffer to be owned at some contents, and its value is never used, so `d` does not appear
    in the result. The final store is total over the output block, hence what the buffer holds afterwards is the
    canonical contents of that one write, independent of `d`. -/
theorem sound_kernel (c : Dev nD) (E : Set ℕ) (i : grid0.Coords)
    (arg2 : Memref sig .tc .vmem S1x4x32x128x128 .f32) (harg2 : arg2.IsWhole)
    (arg3 : Memref sig .tc .vmem S1x3x32x128x128 .f32) (harg3 : arg3.IsWhole)
    (x0 : Vec F S1x4x32x128x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__normalize_kernel i arg2 harg2 arg3 harg3) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the pipeline on core `c`: the two arrays at their region-entry contents; after the body at
    point `t` the input's staging buffer still at the point's input block and the output's at `out0_1` of that
    block; the invariant carried between points is the class's (the remaining scoped buffers at some contents and the
    generator register at some state, neither touched by the body); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents, by projecting the definition; the long fold `V` is not
    unfolded to see it. -/
theorem A_eq (c : Dev nD) (w : Fin cfg0.W) : (dats m 0 c).A w = V m c (Pipeline.arrRef spec0 w) := by
  dsimp only [dats]

/-- After the body at point `t` the input window's buffer holds the point's input block. -/
theorem after0_0 (c : Dev nD) (t : Fin cfg0.N) : (dats m 0 c).after 0 t = iblk m c 0 t := by dsimp only [dats]
/-- After the body at point `t` the output window's buffer holds `out0_1` of the point's input block. -/
theorem after0_1 (c : Dev nD) (t : Fin cfg0.N) : (dats m 0 c).after 1 t = out0_1 (iblk m c 0 t) := by dsimp only [dats]

/-- Before the body at point `t` the input window's current staging buffer holds the point's input block, whatever
    the output's earlier contents `d` were. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is entered with at point `t`: the invariant and the core's debt before the point, and each window's
    current staging buffer, owned whole, at what it holds before the body (for the output, anything). -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body returns at point `t`: the invariant and the debt after the point, and each window's buffer at
    what the proof data says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point `t`: the input's buffer holds the point's input block (`before0_0`) and the output's
    holds something, which is all `sound_kernel` asks; the invariant and the debt are the same before and after the
    point and pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation at every point: the separating product over the two windows written out, it is
    `sound_body`. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with the statement below, which needs plain
-- definitions unfolded inside the type of a metavariable
set_option backward.isDefEq.respectTransparency.types false in
/-- At the compiled mesh, for any values, from any memory with zero counters: every weakly fair execution of @main on
    the TensorCores terminates, and in every final state each array of the pipeline holds what the proof data
    computes for it and every other unscoped buffer holds what it held at the region's entry. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the program at any float model `F`: from any memory `m` with zero counters and any generator
    registers `ρ`, @main runs to the end without fault and the four argument arrays end holding what `m` held. The
    host operations write only their own result buffers, the region writes only its output window's array, and
    none of those is an argument's buffer. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.FrameKI.lean ====
import proofs.«102091_j32057635897979_2_alg».proof.Proof.Gen.KernelIdeal.Launch
import proofs.«102091_j32057635897979_2_alg».proof.Proof.Gen.KernelIdeal.Skeleton
import proofs.«102091_j32057635897979_2_alg».proof.Proof.Gen.KernelIdeal.Points
import Idealize.ShloMosaic.Lib.Pipeline.FrameBody
import Idealize.ShloMosaic.Lib.Ring
import Idealize.ShloMosaic.Lib.Tactic

/-! # The frame of the program: its host operations, then one pipelined region

@main is five stretches of host operations followed by a single region over the static 8 x 4 grid. The region has
two windows: window 0 reads the 8x4x128x128x128 array the host operations assembled, a block of shape
1x4x32x128x128 at each grid point; window 1 writes the 8x3x128x128x128 result, a block of shape 1x3x32x128x128 at
each point. At a point the body loads the whole input block, loads the whole output block (a value it never uses)
and stores over the whole output block a function of the input block alone.

This file states what every TensorCore buffer holds when the region is entered (`V`), shows that no host operation
writes any of the four arguments, gives the body's triple and the pipeline's proof data, and concludes that @main
runs to the end with the four argument arrays unchanged. Everything is stated at an arbitrary float model `F`. -/

-- membership in a rectangle whose long axes have extents 32, 128 and 128 is checked by a structural recursion that
-- descends once per coordinate of those axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s TensorCore buffer `b` holds when the region is entered: the launch memory `m` after the effect of
    every host operation of the five stretches, in program order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

set_option maxHeartbeats 4000000 in
/-- No operation of the first stretch allocates a buffer: each writes a buffer the signature already declares. -/
theorem hostOps0_fresh : (hostOps0 : List (HloOp τ sig (Elt F))).Forall fun op => op.fresh = ∅ := by
  simp only [List.Forall]; repeat' constructor
/-- No operation of the second stretch (the inlined select against a constant) allocates a buffer. -/
theorem hostOps0_1_fresh : (hostOps0_1 : List (HloOp τ sig (Elt F))).Forall fun op => op.fresh = ∅ := by
  simp only [List.Forall]; repeat' constructor
/-- No operation of the third stretch (two integer constants) allocates a buffer. -/
theorem hostOps0_2_fresh : (hostOps0_2 : List (HloOp τ sig (Elt F))).Forall fun op => op.fresh = ∅ := by
  simp only [List.Forall]; repeat' constructor
/-- No operation of the fourth stretch (the inlined clamp between two constants) allocates a buffer. -/
theorem hostOps0_3_fresh : (hostOps0_3 : List (HloOp τ sig (Elt F))).Forall fun op => op.fresh = ∅ := by
  simp only [List.Forall]; repeat' constructor
set_option maxHeartbeats 4000000 in
/-- No operation of the fifth stretch allocates a buffer. -/
theorem hostOps0_4_fresh : (hostOps0_4 : List (HloOp τ sig (Elt F))).Forall fun op => op.fresh = ∅ := by
  simp only [List.Forall]; repeat' constructor

/-- @main is the five stretches of host operations followed by the region, and nothing else: each operation touches
    TensorCore buffers only and allocates none, so at the region's entry core `c`'s buffers hold `V m c`. Holds at
    any choice `𝒱₀` of the body's variants. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option maxHeartbeats 8000000 in
/-- The region finds argument 0 (the 8x6890x3 array of floats) as it was launched: every host operation before the region writes exactly one
    buffer, its own result, and none of those results is this argument's buffer, so the fold of the operations'
    effects over the launch memory is the identity at it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (by decide)))
set_option maxHeartbeats 8000000 in
/-- The region finds argument 1 (the 6890x3 array of floats) as it was launched: every host operation before the region writes exactly one
    buffer, its own result, and none of those results is this argument's buffer, so the fold of the operations'
    effects over the launch memory is the identity at it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (by decide)))
set_option maxHeartbeats 8000000 in
/-- The region finds argument 2 (the 13776x3 array of integers) as it was launched: every host operation before the region writes exactly one
    buffer, its own result, and none of those results is this argument's buffer, so the fold of the operations'
    effects over the launch memory is the identity at it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (by decide)))
set_option maxHeartbeats 8000000 in
/-- The region finds argument 3 (the 8x128x128x128 array of floats) as it was launched: every host operation before the region writes exactly one
    buffer, its own result, and none of those results is this argument's buffer, so the fold of the operations'
    effects over the launch memory is the identity at it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes,
      StableHlo.nary_writes, StableHlo.unaryIndexed_writes, Finset.mem_singleton]
    repeat' apply And.intro
    all_goals exact StableHlo.devRef_ne_of_ne (by decide)))

/-! ## The windows' blocks -/

/-- Window `w`'s block at grid point `t`: the rectangle of `w`'s array that the point's index map selects, read off
    the array's contents at the region's entry (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- At every grid point the input window's current staging buffer holds the point's block of the input array,
    whether the pipeline fetched it at this point or it stayed from the point before. Holds for any proof data whose
    input array is the region-entry contents (`hA`) and whose body leaves the input block in place (`hafter`): a
    fetched buffer holds the block by the copy, and an unfetched one holds the previous point's block, which is the
    same block because the index did not move. The window is never cut short and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run of @main that ends with every buffer outside the two windows' arrays at its region-entry contents, the
    four arguments end as launched: each argument's buffer is unscoped and is neither window's array (the windows
    stage two intermediate values of @main), so it ends at `V`, and `V` at an argument is the launch memory because
    no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's accesses -/

/-- The whole rectangle of the input block: offset 0 and the block's full extent 1x4x32x128x128 on every axis. The
    body's one load of the input reads through it. -/
abbrev r0_0 : Rect S1x4x32x128x128 :=
  Rect.unit (s := S1x4x32x128x128) ![0, 0, 0, 0, 0] S1x4x32x128x128.size inb_S1x4x32x128x128_S1x4x32x128x128_0_0_0_0_0

/-- The whole rectangle of the output block: offset 0 and the block's full extent 1x3x32x128x128 on every axis. The
    body's unused load of the output and its one store go through it. -/
abbrev r0_1 : Rect S1x3x32x128x128 :=
  Rect.unit (s := S1x3x32x128x128) ![0, 0, 0, 0, 0] S1x3x32x128x128.size inb_S1x3x32x128x128_S1x3x32x128x128_0_0_0_0_0

/-! ## What the body leaves in the output window's buffer -/

/-- The output block after the body, as a function of the input block `x0` alone: the body's single store, whose
    payload `k0_pay1` divides channels 1 to 3 of the input block by channel 0 plus the constant 0.001, laid over
    the whole output rectangle. Nothing of the buffer's earlier contents survives, the store being total. -/
def out0_1 (x0 : Vec F S1x4x32x128x128 .f32) : Vec F S1x3x32x128x128 .f32 :=
  View.canon [⟨r0_1, k0_pay1 (View.ld x0 r0_0)⟩]

/-- The single store covers the output block: its rectangle starts at the origin with the block's own extent, so
    there is one tile and it is the whole shape; every index of the block lies in it. -/
theorem cover0_1 (p0 : Vec F S1x3x32x128x128 .f32) (y : S1x3x32x128x128.Idx) :
    ∃ pc ∈ ([⟨r0_1, p0⟩] : List (View.Piece (Elt F) S1x3x32x128x128 .f32)), y ∈ pc.1.set :=
  View.cover_of_tiled [⟨r0_1, p0⟩] S1x3x32x128x128.size (by rfl) y

/-! ## The body's triple -/

set_option maxHeartbeats 4000000 in
/-- The kernel body at any grid coordinates `i`, run on whole staging buffers with the input's at contents `x0` and
    the output's at ANY contents `d`, reaches its continuation with the input's buffer still at `x0` and the
    output's at `out0_1 x0`. The body first loads the input block, then loads the output block: that second load
    only needs the output buffer to be owned at some contents, and its value is never used, so `d` does not appear
    in the result. The final store is total over the output block, hence what the buffer holds afterwards is the
    canonical contents of that one write, independent of `d`. -/
theorem sound_kernel (c : Dev nD) (E : Set ℕ) (i : grid0.Coords)
    (arg2 : Memref sig .tc .vmem S1x4x32x128x128 .f32) (harg2 : arg2.IsWhole)
    (arg3 : Memref sig .tc .vmem S1x3x32x128x128 .f32) (harg3 : arg3.IsWhole)
    (x0 : Vec F S1x4x32x128x128 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__normalize_kernel i arg2 harg2 arg3 harg3) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of the pipeline on core `c`: the two arrays at their region-entry contents; after the body at
    point `t` the input's staging buffer still at the point's input block and the output's at `out0_1` of that
    block; the invariant carried between points is the class's (the remaining scoped buffers at some contents and the
    generator register at some state, neither touched by the body); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
  Φ _ := Pipeline.ΦA spec0 c
  q _ := fullShare
  owed _ := 0

/-- The proof data's arrays are the region-entry contents, by projecting the definition; the long fold `V` is not
    unfolded to see it. -/
theorem A_eq (c : Dev nD) (w : Fin cfg0.W) : (dats m 0 c).A w = V m c (Pipeline.arrRef spec0 w) := by
  dsimp only [dats]

/-- After the body at point `t` the input window's buffer holds the point's input block. -/
theorem after0_0 (c : Dev nD) (t : Fin cfg0.N) : (dats m 0 c).after 0 t = iblk m c 0 t := by dsimp only [dats]
/-- After the body at point `t` the output window's buffer holds `out0_1` of the point's input block. -/
theorem after0_1 (c : Dev nD) (t : Fin cfg0.N) : (dats m 0 c).after 1 t = out0_1 (iblk m c 0 t) := by dsimp only [dats]

/-- Before the body at point `t` the input window's current staging buffer holds the point's input block, whatever
    the output's earlier contents `d` were. -/
theorem before0_0 (c : Dev nD) (t : Fin cfg0.N) (d) : (dats m 0 c).before 0 t d = iblk m c 0 t :=
  before0_0_of m (dats m 0 c) (A_eq m c 0) (after0_0 m c) t d

/-! ## The body obligation, at a generic point -/

/-- What the body is entered with at point `t`: the invariant and the core's debt before the point, and each window's
    current staging buffer, owned whole, at what it holds before the body (for the output, anything). -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body returns at point `t`: the invariant and the debt after the point, and each window's buffer at
    what the proof data says the body leaves there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point `t`: the input's buffer holds the point's input block (`before0_0`) and the output's
    holds something, which is all `sound_kernel` asks; the invariant and the debt are the same before and after the
    point and pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩⟩
  iapply (sound_kernel c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation at every point: the separating product over the two windows written out, it is
    `sound_body`. -/
theorem body_obligation (c : Dev nD) : BodyObligation (dats (F := F) m 0 c) (defs₀ (F := F)) Variants.none () Set.univ := fun t => by
  rw [bigSep_W0, bigSep_W0]
  exact sound_body m c t

/-! ## The run and the frame -/

-- the frame run's implicit arguments are found by unifying its conclusion with the statement below, which needs plain
-- definitions unfolded inside the type of a metavariable
set_option backward.isDefEq.respectTransparency.types false in
/-- At the compiled mesh, for any values, from any memory with zero counters: every weakly fair execution of @main on
    the TensorCores terminates, and in every final state each array of the pipeline holds what the proof data
    computes for it and every other unscoped buffer holds what it held at the region's entry. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame of the program at any float model `F`: from any memory `m` with zero counters and any generator
    registers `ρ`, @main runs to the end without fault and the four argument arrays end holding what `m` held. The
    host operations write only their own result buffers, the region writes only its output window's array, and
    none of those is an argument's buffer. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KNorm.lean ====
/-
  The channel-first normalisation the kernel's region computes on the whole accumulation volume:
  `out[b, c, x, y, z] = vol[b, c + 1, x, y, z] / (vol[b, 0, x, y, z] + ε)`, `ε` the f32 word `0x3A83126F` (0.001):
  channels 1..3 of the volume are the weighted code sums, channel 0 the weight sum.
-/
import Idealize.ShloMosaic.PureOps.Ideal
import Idealize.ShloMosaic.Lib.ValueIdx

noncomputable section

namespace Cert.KNorm

open Idealize.ShloMosaic Idealize.ShloMosaic.ValueIdx

variable {F : FTy → Type} [FloatOps F]

/-- The normalised volume as ONE function of the whole accumulation volume, index by index. -/
def normalize (vol : FVec F (⟨5, ![8, 4, 128, 128, 128]⟩ : Shape) .f32) : FVec F (⟨5, ![8, 3, 128, 128, 128]⟩ : Shape) .f32 :=
  fun i => FloatOps.divf
    (vol (ix5 (⟨(i 0).val, (i 0).isLt⟩ : Fin 8) (⟨(i 1).val + 1, Nat.succ_lt_succ (i 1).isLt⟩ : Fin 4) (⟨(i 2).val, (i 2).isLt⟩ : Fin 128) (⟨(i 3).val, (i 3).isLt⟩ : Fin 128) (⟨(i 4).val, (i 4).isLt⟩ : Fin 128)))
    (FloatOps.addf
      (vol (ix5 (⟨(i 0).val, (i 0).isLt⟩ : Fin 8) (0 : Fin 4) (⟨(i 2).val, (i 2).isLt⟩ : Fin 128) (⟨(i 3).val, (i 3).isLt⟩ : Fin 128) (⟨(i 4).val, (i 4).isLt⟩ : Fin 128)))
      (Scalar.ofBits .f32 0x3A83126F#32))

/-- The normalised volume at literal coordinates. -/
theorem normalize_apply (vol : FVec F (⟨5, ![8, 4, 128, 128, 128]⟩ : Shape) .f32) (b : Fin 8) (c : Fin 3) (x y z : Fin 128) :
    normalize vol (ix5 b c x y z) = FloatOps.divf (vol (ix5 b (⟨c.val + 1, Nat.succ_lt_succ c.isLt⟩ : Fin 4) x y z))
      (FloatOps.addf (vol (ix5 b (0 : Fin 4) x y z)) (Scalar.ofBits .f32 0x3A83126F#32)) := rfl

end Cert.KNorm

end
-- ==== Proof.ValueKI.lean ====
import proofs.«102091_j32057635897979_2_alg».proof.Proof.FrameKI
import proofs.«102091_j32057635897979_2_alg».proof.Proof.KNorm
import Idealize.ShloMosaic.Lib.Pipeline.Value
import Idealize.ShloMosaic.Lib.ValueIdx
import Idealize.ShloMosaic.Lib.ValueLayout

/-! # The value of the program: the result array as one function of the accumulation array

The region's output window writes the 8x3x128x128x128 result array block by block, one block per point of the 8 x 4
grid. This file shows that the array ends holding the normalised volume: at batch `b`, channel `c`, row `x`,
column `y`, lane `z` the accumulation array's channel `c + 1` there divided by its channel 0 there plus the
constant 0.001. It goes from the body's payload at one index of a block, to what one grid point writes back, to the
whole array by the cover of the blocks, and ends with the run of @main read at the result and at the arguments.
Everything is stated at an arbitrary float model `F`. -/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-! ## The body's payload at an index -/

/-- The body's one payload at an index of the output block, over variables: at channel `c`, row `t`, column `y`,
    lane `z` it is the input block's channel `c + 1` there divided by the input block's channel 0 there plus the
    constant 0.001. The payload is a chain of layout operations around one addition and one division, and each layout
    operation read at an index is its operand read at one index: the casts that drop or add the leading unit axis keep
    the row-major position, the two slices shift channel 0 by their offsets 1 and 0, and the broadcast of the
    one-channel denominator over three channels reads channel 0 whatever the result's channel is. -/
theorem pay_apply (x0 : Vec F S1x4x32x128x128 .f32) (c : Fin 3) (t : Fin 32) (y z : Fin 128) :
    k0_pay1 x0 (ix5 (0 : Fin 1) c t y z)
      = FloatOps.divf (x0 (ix5 (0 : Fin 1) (⟨c.val + 1, Nat.succ_lt_succ c.isLt⟩ : Fin 4) t y z))
          (FloatOps.addf (x0 (ix5 (0 : Fin 1) (0 : Fin 4) t y z)) (Scalar.ofBits .f32 0x3A83126F#32)) := by
  have hc : c.val < 3 := c.isLt
  have ht : t.val < 32 := t.isLt
  have hy : y.val < 128 := y.isLt
  have hz : z.val < 128 := z.isLt
  -- the row-major positions the casts compare, spelt as sums
  have p5o : (S1x3x32x128x128.rowMajor (ix5 (0 : Fin 1) c t y z)).val = ((((0 * 3 + c.val) * 32 + t.val) * 128 + y.val) * 128 + z.val) :=
    Shape.rowMajor_val_five _
  have p4o : (S3x32x128x128.rowMajor (ix4 c t y z)).val = (((c.val * 32 + t.val) * 128 + y.val) * 128 + z.val) :=
    Shape.rowMajor_val_four _
  have p4n : (S4x32x128x128.rowMajor (ix4 (⟨c.val + 1, Nat.succ_lt_succ c.isLt⟩ : Fin 4) t y z)).val
      = ((((c.val + 1) * 32 + t.val) * 128 + y.val) * 128 + z.val) := Shape.rowMajor_val_four _
  have p5n : (S1x4x32x128x128.rowMajor (ix5 (0 : Fin 1) (⟨c.val + 1, Nat.succ_lt_succ c.isLt⟩ : Fin 4) t y z)).val
      = ((((0 * 4 + (c.val + 1)) * 32 + t.val) * 128 + y.val) * 128 + z.val) := Shape.rowMajor_val_five _
  have p4d : (S4x32x128x128.rowMajor (ix4 (0 : Fin 4) t y z)).val = (((0 * 32 + t.val) * 128 + y.val) * 128 + z.val) :=
    Shape.rowMajor_val_four _
  have p5d : (S1x4x32x128x128.rowMajor (ix5 (0 : Fin 1) (0 : Fin 4) t y z)).val
      = ((((0 * 4 + 0) * 32 + t.val) * 128 + y.val) * 128 + z.val) := Shape.rowMajor_val_five _
  have p4u : (S1x32x128x128.rowMajor (ix4 (0 : Fin 1) t y z)).val = (((0 * 32 + t.val) * 128 + y.val) * 128 + z.val) :=
    Shape.rowMajor_val_four _
  have p3 : (S32x128x128.rowMajor (ix3 t y z)).val = ((t.val * 128 + y.val) * 128 + z.val) := Shape.rowMajor_val_three _
  unfold k0_pay1
  -- the result's leading unit axis added: position kept
  refine (shapeCast_apply _ _ (ix5 (0 : Fin 1) c t y z) (ix4 c t y z) (by rw [p4o, p5o]; omega)).trans ?_
  -- the division, pointwise
  refine congrArg₂ FloatOps.divf ?_ ?_
  · -- numerator: channels 1 to 3 of the block, its leading unit axis dropped
    refine (extractStridedSlice_apply _ _ _ (ix4 c t y z) (ix4 (⟨c.val + 1, Nat.succ_lt_succ c.isLt⟩ : Fin 4) t y z) (fun a => by
      match a with
      | ⟨0, _⟩ => show c.val + 1 = 1 + c.val; omega
      | ⟨1, _⟩ => show t.val = 0 + t.val; omega
      | ⟨2, _⟩ => show y.val = 0 + y.val; omega
      | ⟨3, _⟩ => show z.val = 0 + z.val; omega)).trans ?_
    exact shapeCast_apply _ _ _ (ix5 (0 : Fin 1) (⟨c.val + 1, Nat.succ_lt_succ c.isLt⟩ : Fin 4) t y z) (by rw [p5n, p4n]; omega)
  · -- denominator: channel 0 plus the constant, one channel broadcast over the three
    refine (broadcastTo_apply _ _ (ix4 c t y z) (ix4 (0 : Fin 1) t y z) (fun a => by
      match a with
      | ⟨0, _⟩ => rfl
      | ⟨1, _⟩ => rfl
      | ⟨2, _⟩ => rfl
      | ⟨3, _⟩ => rfl)).trans ?_
    refine (shapeCast_apply _ _ (ix4 (0 : Fin 1) t y z) (ix3 t y z) (by rw [p3, p4u]; omega)).trans ?_
    refine congrArg₂ FloatOps.addf ?_ rfl
    refine (shapeCast_apply _ _ (ix3 t y z) (ix4 (0 : Fin 1) t y z) (by rw [p4u, p3]; omega)).trans ?_
    refine (extractStridedSlice_apply _ _ _ (ix4 (0 : Fin 1) t y z) (ix4 (0 : Fin 4) t y z) (fun a => by
      match a with
      | ⟨0, _⟩ => rfl
      | ⟨1, _⟩ => show t.val = 0 + t.val; omega
      | ⟨2, _⟩ => show y.val = 0 + y.val; omega
      | ⟨3, _⟩ => show z.val = 0 + z.val; omega)).trans ?_
    exact shapeCast_apply _ _ _ (ix5 (0 : Fin 1) (0 : Fin 4) t y z) (by rw [p5d, p4d])

/-! ## The input window's block, read as the array -/

/-- The input window's block at grid point `t`, read at the block index `x`, is the input array read at the index
    whose coordinate on each axis is the point's block index there times the block's extent plus `x`'s coordinate: a
    block is a unit-stride rectangle of the array placed at a multiple of its own extent. -/
theorem iblk_at (c : Dev nD) (t : Fin cfg0.N) (x : S1x4x32x128x128.Idx) (k : S8x4x128x128x128.Idx)
    (hk : ∀ a : Fin 5, (k a).val = win0_0.index t a * S1x4x32x128x128.size a + (x a).val) :
    (iblk m c 0 t : Vec F S1x4x32x128x128 .f32) x = (V m c main_v123 : S8x4x128x128x128.Idx → Elt F .f32) k := by
  show (V m c main_v123 : S8x4x128x128x128.Idx → Elt F .f32) (((cfg0.win 0).blk t).view.emb x) = _
  refine congrArg _ (funext fun a => Fin.ext ?_)
  rw [hk a]
  match a with
  | ⟨0, _⟩ => show win0_0.index t (0 : Fin 5) * 1 + 1 * (x 0).val = win0_0.index t (0 : Fin 5) * 1 + (x 0).val; omega
  | ⟨1, _⟩ => show win0_0.index t (1 : Fin 5) * 4 + 1 * (x 1).val = win0_0.index t (1 : Fin 5) * 4 + (x 1).val; omega
  | ⟨2, _⟩ => show win0_0.index t (2 : Fin 5) * 32 + 1 * (x 2).val = win0_0.index t (2 : Fin 5) * 32 + (x 2).val; omega
  | ⟨3, _⟩ => show win0_0.index t (3 : Fin 5) * 128 + 1 * (x 3).val = win0_0.index t (3 : Fin 5) * 128 + (x 3).val; omega
  | ⟨4, _⟩ => show win0_0.index t (4 : Fin 5) * 128 + 1 * (x 4).val = win0_0.index t (4 : Fin 5) * 128 + (x 4).val; omega

/-! ## The two index maps over the grid -/

/-- The five zero offsets of a whole-block rectangle, as the constant function. -/
theorem zero_offsets : (![0, 0, 0, 0, 0] : Fin 5 → Nat) = fun _ => 0 := funext fun a => by fin_cases a <;> rfl

/-- The two windows' index maps, compared over the 32 grid points: at every point both windows sit at the same batch
    (axis 0) and the same block of 32 rows (axis 2), and at block 0 on the channel axis and on the two minor axes,
    each of which one block spans. The batch index is at most 7 and the row-block index at most 3. -/
theorem idx_facts : ∀ t : Fin cfg0.N,
    win0_0.index t (0 : Fin 5) = win0_1.index t (0 : Fin 5)
    ∧ win0_0.index t (1 : Fin 5) = 0 ∧ win0_1.index t (1 : Fin 5) = 0
    ∧ win0_0.index t (2 : Fin 5) = win0_1.index t (2 : Fin 5)
    ∧ win0_0.index t (3 : Fin 5) = 0 ∧ win0_1.index t (3 : Fin 5) = 0
    ∧ win0_0.index t (4 : Fin 5) = 0 ∧ win0_1.index t (4 : Fin 5) = 0
    ∧ win0_1.index t (0 : Fin 5) ≤ 7 ∧ win0_1.index t (2 : Fin 5) ≤ 3 :=
  (by decide +kernel : ∀ t : Fin grid0.N, _)

/-- Every pair of a batch and a block of 32 rows is some grid point's: the 8 x 4 grid enumerates them. -/
theorem idx_onto : ∀ (b : Fin 8) (i : Fin 4), ∃ t : Fin cfg0.N, win0_1.index t = ![b.val, 0, i.val, 0, 0] :=
  (by decide +kernel : ∀ (b : Fin 8) (i : Fin 4), ∃ t : Fin grid0.N, win0_1.index t = ![b.val, 0, i.val, 0, 0])

/-! ## What a point writes back -/

/-- What grid point `t` writes back to the result array is block `t` of the normalised volume. The point's output
    buffer holds the payload of its input block; at channel `c`, row `r`, column `y`, lane `z` of the block
    that is the input block's channel `c + 1` over its channel 0 plus the constant (`pay_apply`); the input block
    is the same batch and the same 32 rows of the array as the output block, with all four channels, so those two
    reads are the array's channel `c + 1` and channel 0 at the output index's batch, row, column and lane. -/
theorem flushed_eq (c : Dev nD) (t : Fin cfg0.N) :
    (dats m 0 c).flushed 1 t = ((cfg0.win 1).blk t).view.read (Elt F) (Cert.KNorm.normalize (V m c main_v123)) := by
  show (cfg0.win 1).cut (grid0.coords t) ((dats m 0 c).after 1 t) = _
  rw [after0_1]
  unfold out0_1
  rw [View.canon_unit_zero zero_offsets]
  simp only [View.ld_unit_zero (S := S1x4x32x128x128) zero_offsets]
  obtain ⟨e0, e1, e1', e2, e3, e3', e4, e4', -, -⟩ := idx_facts t
  funext j
  obtain ⟨j0, jc, jr, jy, jz, rfl⟩ : ∃ (j0 : Fin 1) (jc : Fin 3) (jr : Fin 32) (jy jz : Fin 128), j = ix5 j0 jc jr jy jz :=
    ⟨j 0, j 1, j 2, j 3, j 4, eq_ix5 j⟩
  obtain rfl : j0 = 0 := Subsingleton.elim _ _
  show k0_pay1 (iblk m c 0 t) (ix5 (0 : Fin 1) jc jr jy jz)
    = Cert.KNorm.normalize (V m c main_v123) (((cfg0.win 1).blk t).view.emb (ix5 (0 : Fin 1) jc jr jy jz))
  refine (pay_apply _ jc jr jy jz).trans ?_
  unfold Cert.KNorm.normalize
  refine congrArg₂ FloatOps.divf ?_ (congrArg₂ FloatOps.addf ?_ rfl)
  · refine iblk_at m c t _ _ fun a => ?_
    match a with
    | ⟨0, _⟩ => show win0_1.index t (0 : Fin 5) * 1 + 1 * 0 = win0_0.index t (0 : Fin 5) * 1 + 0; omega
    | ⟨1, _⟩ => show win0_1.index t (1 : Fin 5) * 3 + 1 * jc.val + 1 = win0_0.index t (1 : Fin 5) * 4 + (jc.val + 1); omega
    | ⟨2, _⟩ => show win0_1.index t (2 : Fin 5) * 32 + 1 * jr.val = win0_0.index t (2 : Fin 5) * 32 + jr.val; omega
    | ⟨3, _⟩ => show win0_1.index t (3 : Fin 5) * 128 + 1 * jy.val = win0_0.index t (3 : Fin 5) * 128 + jy.val; omega
    | ⟨4, _⟩ => show win0_1.index t (4 : Fin 5) * 128 + 1 * jz.val = win0_0.index t (4 : Fin 5) * 128 + jz.val; omega
  · refine iblk_at m c t _ _ fun a => ?_
    match a with
    | ⟨0, _⟩ => show win0_1.index t (0 : Fin 5) * 1 + 1 * 0 = win0_0.index t (0 : Fin 5) * 1 + 0; omega
    | ⟨1, _⟩ => show 0 = win0_0.index t (1 : Fin 5) * 4 + 0; omega
    | ⟨2, _⟩ => show win0_1.index t (2 : Fin 5) * 32 + 1 * jr.val = win0_0.index t (2 : Fin 5) * 32 + jr.val; omega
    | ⟨3, _⟩ => show win0_1.index t (3 : Fin 5) * 128 + 1 * jy.val = win0_0.index t (3 : Fin 5) * 128 + jy.val; omega
    | ⟨4, _⟩ => show win0_1.index t (4 : Fin 5) * 128 + 1 * jz.val = win0_0.index t (4 : Fin 5) * 128 + jz.val; omega

/-! ## The blocks cover the result array -/

/-- An index of the result array lies in point `t`'s output block exactly when each coordinate lies in the block's
    range on its axis: from the point's block index times the block's extent, for the block's extent. -/
theorem mem_blk (t : Fin cfg0.N) (i : S8x3x128x128x128.Idx) :
    i ∈ ((cfg0.win 1).blk t).view.set ↔ ∀ a : Fin 5, win0_1.index t a * S1x3x32x128x128.size a ≤ (i a).val
      ∧ (i a).val < win0_1.index t a * S1x3x32x128x128.size a + S1x3x32x128x128.size a := by
  show i ∈ ((View.whole main_v124).slice (win0_1.rect t)).set ↔ _
  rw [View.set_slice_whole, Rect.mem_set_unit]
  exact Iff.rfl

/-- Every index of the result array is in some point's output block, and every point writes its block back: the
    index's batch `b` and its row divided by 32 name the point, whose block holds batch `b`, all three channels,
    rows `32 (r / 32)` to `32 (r / 32) + 31` and every column and lane. -/
theorem cover1 (i : S8x3x128x128x128.Idx) :
    ∃ t : Fin cfg0.N, (cfg0.win 1).flush t = true ∧ i ∈ ((cfg0.win 1).blk t).view.set := by
  have hi0 : (i 0).val < 8 := (i 0).isLt
  have hi1 : (i 1).val < 3 := (i 1).isLt
  have hi2 : (i 2).val < 128 := (i 2).isLt
  have hi3 : (i 3).val < 128 := (i 3).isLt
  have hi4 : (i 4).val < 128 := (i 4).isLt
  obtain ⟨t, ht⟩ := idx_onto ⟨(i 0).val, hi0⟩ ⟨(i 2).val / 32, by omega⟩
  have q0 : win0_1.index t (0 : Fin 5) = (i 0).val := congrFun ht 0
  have q1 : win0_1.index t (1 : Fin 5) = 0 := congrFun ht 1
  have q2 : win0_1.index t (2 : Fin 5) = (i 2).val / 32 := congrFun ht 2
  have q3 : win0_1.index t (3 : Fin 5) = 0 := congrFun ht 3
  have q4 : win0_1.index t (4 : Fin 5) = 0 := congrFun ht 4
  refine ⟨t, flush0_1 t, ?_⟩
  rw [mem_blk]
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 3 ≤ (i 1).val ∧ (i 1).val < win0_1.index t (1 : Fin 5) * 3 + 3; omega
  | ⟨2, _⟩ => show win0_1.index t (2 : Fin 5) * 32 ≤ (i 2).val ∧ (i 2).val < win0_1.index t (2 : Fin 5) * 32 + 32; omega
  | ⟨3, _⟩ => show win0_1.index t (3 : Fin 5) * 128 ≤ (i 3).val ∧ (i 3).val < win0_1.index t (3 : Fin 5) * 128 + 128; omega
  | ⟨4, _⟩ => show win0_1.index t (4 : Fin 5) * 128 ≤ (i 4).val ∧ (i 4).val < win0_1.index t (4 : Fin 5) * 128 + 128; omega

/-- After the last grid point the result array holds the normalised volume of the input array as the region found
    it: every point writes back its block of that one function, and the blocks cover the array. -/
theorem final1 (c : Dev nD) : (dats m 0 c).arrAt 1 cfg0.N = Cert.KNorm.normalize (V m c main_v123) :=
  (dats m 0 c).arrAt_eq_of_cover 1 (Cert.KNorm.normalize (V m c main_v123)) (fun t _ => flushed_eq m c t) cover1

/-! ## The run, read -/

/-- The program's value at any float model: from any memory `m` with zero counters and any generator registers
    `ρ`, @main runs to the end without fault; the result array then holds the normalised volume of what the host
    operations left in the accumulation array, and the four argument arrays hold what `m` held. The result is read
    off the pipeline's output window, the arguments off the buffers that bypass the region. -/
theorem kernel_value : θ_run defs (onTc (τ := τ) (main (F := F))) ⟨m, fun _ => 0, ρ⟩ (fun r => ∀ c : Dev nD,
      r.2.mem ((c.tc : Thread nD τ).loc main_v124) = Cert.KNorm.normalize (V m c main_v123)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 1).trans (final1 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.HandValue

end
-- ==== Proof.SplatIdx.lean ====
/-
  Flat voxel addresses as 32-bit words.

  A splat lands on the voxel with coordinates `(V0, V1, V2)`, each clipped into `[0, 127]`, of batch `b < 8`.
  The four-channel layout addresses it, for channel `ch < 4`, at `b·2²³ + ch·2²¹ + ((V0·128 + V1)·128 + V2)`; the
  channel-last layout addresses the voxel at `b·2²¹ + ((V0·128 + V1)·128 + V2)`. Both are computed in wrapping 32-bit
  arithmetic; since every quantity is below `2²⁶` nothing wraps, the words are nonnegative as signed numbers, and the
  "negative index" normalisation `select (x < 0) (x + size) x` leaves them alone.
-/
import Idealize.ShloMosaic.PureOps.Ideal
import Idealize.ShloMosaic.Lib.ValueIdx

namespace Cert.SplatIdx

open Idealize.ShloMosaic Idealize.ShloMosaic.ValueIdx

/-- A word below `2³¹` read as a signed number is its unsigned value. -/
theorem toInt_small (x : BitVec 32) (h : x.toNat < 2147483648) : x.toInt = x.toNat := by
  rw [BitVec.toInt_eq_toNat_cond]; split <;> omega

/-- Clipping into `[0, 127]` (signed maximum with 0, then signed minimum with 127) leaves a word of value at most 127. -/
theorem clip_le (X : BitVec 32) : (IntOp.minsi 127#32 (IntOp.maxsi 0#32 X)).toNat ≤ 127 := by
  unfold IntOp.minsi IntOp.maxsi
  by_cases hX : X.slt 0#32 = true
  · rw [if_pos hX]; decide
  · rw [if_neg hX]
    by_cases h1 : (127#32 : BitVec 32).slt X = true
    · rw [if_pos h1]; decide
    · rw [if_neg h1]
      simp only [BitVec.slt, decide_eq_true_eq, BitVec.toInt_eq_toNat_cond] at hX h1
      simp at hX h1
      split at hX <;> split at h1 <;> omega

/-- The normalisation of a possibly negative index does nothing to a word that is nonnegative as a signed number. -/
theorem select_nonneg (x y : BitVec 32) (h : x.toNat < 2147483648) :
    Scalar.select (IntOp.cmpi .slt x 0#32) y x = x := by
  unfold Scalar.select IntOp.cmpi
  have hn : x.slt 0#32 = false := by
    simp only [BitVec.slt, decide_eq_false_iff_not, toInt_small x h]; simp
  simp [hn]

/-- The voxel's offset inside one channel of one batch, as a natural number. -/
def vox (V0 V1 V2 : BitVec 32) : Nat := (V0.toNat * 128 + V1.toNat) * 128 + V2.toNat

theorem vox_lt (V0 V1 V2 : BitVec 32) (h0 : V0.toNat ≤ 127) (h1 : V1.toNat ≤ 127) (h2 : V2.toNat ≤ 127) :
    vox V0 V1 V2 < 2097152 := by unfold vox; omega

/-- The four-channel address `b·2²³ + vox + k` (`k = ch·2²¹`) does not wrap. -/
theorem chan_word_toNat (b : Nat) (hb : b < 8) (ch : Nat) (hch : ch < 4) (k V0 V1 V2 : BitVec 32) (hk : k.toNat = ch * 2097152)
    (h0 : V0.toNat ≤ 127) (h1 : V1.toNat ≤ 127) (h2 : V2.toNat ≤ 127) :
    (IntOp.addi (IntOp.addi (IntOp.muli (BitVec.ofNat 32 b) 8388608#32)
        (IntOp.addi (IntOp.muli (IntOp.addi (IntOp.muli V0 128#32) V1) 128#32) V2)) k).toNat
      = b * 8388608 + ch * 2097152 + vox V0 V1 V2 := by
  unfold IntOp.addi IntOp.muli vox
  bv_omega

/-- The four-channel address after the negative-index normalisation, read signed. -/
theorem chan_index_toInt (b : Nat) (hb : b < 8) (ch : Nat) (hch : ch < 4) (k V0 V1 V2 : BitVec 32) (hk : k.toNat = ch * 2097152)
    (h0 : V0.toNat ≤ 127) (h1 : V1.toNat ≤ 127) (h2 : V2.toNat ≤ 127) (x : BitVec 32)
    (hx : x = IntOp.addi (IntOp.addi (IntOp.muli (BitVec.ofNat 32 b) 8388608#32)
        (IntOp.addi (IntOp.muli (IntOp.addi (IntOp.muli V0 128#32) V1) 128#32) V2)) k) :
    (Scalar.select (IntOp.cmpi .slt x 0#32) (IntOp.addi x 67108864#32) x).toInt
      = ((b * 8388608 + ch * 2097152 + vox V0 V1 V2 : Nat) : Int) := by
  have hn := chan_word_toNat b hb ch hch k V0 V1 V2 hk h0 h1 h2
  rw [← hx] at hn
  have hv := vox_lt V0 V1 V2 h0 h1 h2
  have hlt : x.toNat < 2147483648 := by omega
  rw [select_nonneg x _ hlt, toInt_small x hlt, hn]

/-- The channel-last address `((b·128 + V0)·128 + V1)·128 + V2 = b·2²¹ + vox` does not wrap. -/
theorem last_word_toNat (b : Nat) (hb : b < 8) (V0 V1 V2 : BitVec 32)
    (h0 : V0.toNat ≤ 127) (h1 : V1.toNat ≤ 127) (h2 : V2.toNat ≤ 127) :
    (IntOp.addi (IntOp.muli (IntOp.addi (IntOp.muli (IntOp.addi (IntOp.muli (BitVec.ofNat 32 b) 128#32) V0) 128#32) V1) 128#32) V2).toNat
      = b * 2097152 + vox V0 V1 V2 := by
  unfold IntOp.addi IntOp.muli vox
  bv_omega

/-- The channel-last address after the negative-index normalisation, read signed. -/
theorem last_index_toInt (b : Nat) (hb : b < 8) (V0 V1 V2 : BitVec 32)
    (h0 : V0.toNat ≤ 127) (h1 : V1.toNat ≤ 127) (h2 : V2.toNat ≤ 127) (x : BitVec 32)
    (hx : x = IntOp.addi (IntOp.muli (IntOp.addi (IntOp.muli (IntOp.addi (IntOp.muli (BitVec.ofNat 32 b) 128#32) V0) 128#32) V1) 128#32) V2) :
    (Scalar.select (IntOp.cmpi .slt x 0#32) (IntOp.addi x 16777216#32) x).toInt
      = ((b * 2097152 + vox V0 V1 V2 : Nat) : Int) := by
  have hn := last_word_toNat b hb V0 V1 V2 h0 h1 h2
  rw [← hx] at hn
  have hv := vox_lt V0 V1 V2 h0 h1 h2
  have hlt : x.toNat < 2147483648 := by omega
  rw [select_nonneg x _ hlt, toInt_small x hlt, hn]

/-- Two four-channel addresses agree exactly when batch, channel and voxel offset agree. -/
theorem chan_addr_inj (b b' ch ch' v v' : Nat) (hch : ch < 4) (hch' : ch' < 4) (hv : v < 2097152) (hv' : v' < 2097152) :
    b * 8388608 + ch * 2097152 + v = b' * 8388608 + ch' * 2097152 + v' ↔ b = b' ∧ ch = ch' ∧ v = v' := by
  constructor
  · intro h; omega
  · rintro ⟨rfl, rfl, rfl⟩; rfl

/-- Two channel-last addresses agree exactly when batch and voxel offset agree. -/
theorem last_addr_inj (b b' v v' : Nat) (hv : v < 2097152) (hv' : v' < 2097152) :
    b * 2097152 + v = b' * 2097152 + v' ↔ b = b' ∧ v = v' := by
  constructor
  · intro h; omega
  · rintro ⟨rfl, rfl⟩; rfl

/-! ## A splat `(batch, face, neighbour)` and its voxel -/

/-- The splats: one per batch, face and neighbour offset. -/
abbrev Pt : Type := (⟨3, ![8, 13776, 125]⟩ : Shape).Idx

/-- A splat's batch, face and neighbour as literal-range numbers. -/
def pb (p : Pt) : Fin 8 := ⟨(p 0).val, (p 0).isLt⟩
def pf (p : Pt) : Fin 13776 := ⟨(p 1).val, (p 1).isLt⟩
def pk (p : Pt) : Fin 125 := ⟨(p 2).val, (p 2).isLt⟩

theorem p_eq (p : Pt) : p = ix3 (pb p) (pf p) (pk p) := by
  funext a; match a with | ⟨0, _⟩ => rfl | ⟨1, _⟩ => rfl | ⟨2, _⟩ => rfl

/-- The voxel offset `(V0·128 + V1)·128 + V2` of a splat, as a natural number, from the array of clipped voxel coordinates. -/
def voxOf (Vx : IVec (⟨4, ![8, 13776, 125, 3]⟩ : Shape) 32) (p : Pt) : Nat :=
  vox (Vx (ix4 (pb p) (pf p) (pk p) (0 : Fin 3))) (Vx (ix4 (pb p) (pf p) (pk p) (1 : Fin 3))) (Vx (ix4 (pb p) (pf p) (pk p) (2 : Fin 3)))

end Cert.SplatIdx
-- ==== Proof.KTail.lean ====
/-
  The four-channel accumulation volume, stage by stage.

  From the splat weights `W[b, f, k]` (batch, face, neighbour), the face codes `Cd[f, c]` and the clipped voxel coordinates
  `Vx[b, f, k, a]`, the host side of the kernel builds ONE flat volume of `8·4·128³` cells: the updates are the four
  lists `W`, `W·Cd[·,0]`, `W·Cd[·,1]`, `W·Cd[·,2]` laid end to end, and update `(ch, b, f, k)` is added into the cell
  `b·2²³ + ch·2²¹ + ((V0·128 + V1)·128 + V2)`. This module names the stages and reads each at an index.
-/
import proofs.«102091_j32057635897979_2_alg».proof.Proof.Gen.KernelIdeal
import Idealize.ShloMosaic.Lib.Pipeline.Value
import Idealize.ShloMosaic.Lib.ValueIdx
import Idealize.ShloMosaic.PureOps.Ideal.Laws
import proofs.«102091_j32057635897979_2_alg».proof.Proof.SplatIdx

noncomputable section

namespace Cert.KernelIdeal.Tail

open Cert.KernelIdeal Idealize.ShloMosaic Idealize.ShloMosaic.ValueIdx
open Cert.KernelIdeal.Facts₀

variable {F : FTy → Type} [FloatOps F]

/-! ## The stages -/

/-- The masked weights: the Gaussian weight where every voxel coordinate is inside the volume, the scalar `z` (zero) elsewhere. -/
def whereOut (msk : IVec S8x13776x125 1) (w : FVec F S8x13776x125 .f32) (z : FVec F S_ .f32) : FVec F S8x13776x125 .f32 :=
  select msk w (broadcastInDim S8x13776x125 ![] bcast_S_S8x13776x125 (id z))

/-- The voxel coordinates clipped into `[0, 127]`: a signed maximum with 0, then a signed minimum with 127. -/
def clipOut (X : IVec S8x13776x125x3 32) : IVec S8x13776x125x3 32 :=
  minsi (broadcastInDim S8x13776x125x3 ![] bcast_S_S8x13776x125x3 (id (constantI S_ 32 127#32)))
    (maxsi (broadcastInDim S8x13776x125x3 ![] bcast_S_S8x13776x125x3 (id (constantI S_ 32 0#32))) X)

/-- A 32-bit constant at every (batch, face, neighbour). -/
def splat32 (k : BitVec 32) : IVec S8x13776x125 32 :=
  broadcastInDim S8x13776x125 ![] bcast_S_S8x13776x125 (constantI S_ 32 k)

/-- Voxel coordinate 0, 1, 2 of every splat (the last axis sliced at `a`, the unit axis dropped). -/
def coord0 (Vx : IVec S8x13776x125x3 32) : IVec S8x13776x125 32 :=
  shapeCast S8x13776x125 (extractStridedSlice S8x13776x125x1 ![0, 0, 0, 0] Vx slices_S8x13776x125x3_S8x13776x125x1_0_0_0_0) shapeCasts_S8x13776x125x1_S8x13776x125
def coord1 (Vx : IVec S8x13776x125x3 32) : IVec S8x13776x125 32 :=
  shapeCast S8x13776x125 (extractStridedSlice S8x13776x125x1 ![0, 0, 0, 1] Vx slices_S8x13776x125x3_S8x13776x125x1_0_0_0_1) shapeCasts_S8x13776x125x1_S8x13776x125
def coord2 (Vx : IVec S8x13776x125x3 32) : IVec S8x13776x125 32 :=
  shapeCast S8x13776x125 (extractStridedSlice S8x13776x125x1 ![0, 0, 0, 2] Vx slices_S8x13776x125x3_S8x13776x125x1_0_0_0_2) shapeCasts_S8x13776x125x1_S8x13776x125

/-- The voxel's offset inside one channel of one batch: `(V0·128 + V1)·128 + V2`. -/
def voxelLocal (Vx : IVec S8x13776x125x3 32) : IVec S8x13776x125 32 :=
  addi (muli (addi (muli (coord0 Vx) (splat32 128#32)) (coord1 Vx)) (splat32 128#32)) (coord2 Vx)

/-- The batch's first cell: `b·2²³`. -/
def batchBase : IVec S8x13776x125 32 :=
  broadcastInDim S8x13776x125 ![0, 1, 2] bcast_S8x1x1_S8x13776x125_0_1_2
    (muli (broadcastInDim S8x1x1 ![0] bcast_S8_S8x1x1_0 (iotaInDim S8 32 0))
      (broadcastInDim S8x1x1 ![] bcast_S_S8x1x1 (constantI S_ 32 8388608#32)))

/-- Channel 0's cell of every splat. -/
def baseFlat (Vx : IVec S8x13776x125x3 32) : IVec S8x13776x125 32 := addi batchBase (voxelLocal Vx)

/-- The cells of one channel (offset `k = ch·2²¹`), as a flat list. -/
def chanIdx (Vx : IVec S8x13776x125x3 32) (k : BitVec 32) : IVec S13776000 32 :=
  shapeCast S13776000 (addi (baseFlat Vx) (splat32 k)) shapeCasts_S8x13776x125_S13776000

/-- The four channels' cells end to end. -/
def allIdx (Vx : IVec S8x13776x125x3 32) : IVec S55104000 32 :=
  concatenate S55104000 0 [⟨S13776000, chanIdx Vx 0#32⟩, ⟨S13776000, chanIdx Vx 2097152#32⟩, ⟨S13776000, chanIdx Vx 4194304#32⟩, ⟨S13776000, chanIdx Vx 6291456#32⟩]
    concatenates_S13776000_S13776000_S13776000_S13776000_S55104000_d0

/-- The cells after the normalisation of negative indices, as the column of scatter indices. -/
def idxCol (Vx : IVec S8x13776x125x3 32) : IVec S55104000x1 32 :=
  broadcastInDim S55104000x1 ![0] bcast_S55104000_S55104000x1_0
    (select (cmpi .slt (allIdx Vx) (broadcastInDim S55104000 ![] bcast_S_S55104000 (constantI S_ 32 0#32)))
      (addi (allIdx Vx) (broadcastInDim S55104000 ![] bcast_S_S55104000 (constantI S_ 32 67108864#32))) (allIdx Vx))

/-- Column 0, 1, 2 of the face codes at every (batch, face, neighbour). -/
def codeCol0 (Cd : FVec F S13776x3 .f32) : FVec F S8x13776x125 .f32 :=
  broadcastInDim S8x13776x125 ![0, 1, 2] bcast_S1x13776x1_S8x13776x125_0_1_2
    (broadcastInDim S1x13776x1 ![1] bcast_S13776_S1x13776x1_1
      (shapeCast S13776 (extractStridedSlice S13776x1 ![0, 0] Cd slices_S13776x3_S13776x1_0_0) shapeCasts_S13776x1_S13776))
def codeCol1 (Cd : FVec F S13776x3 .f32) : FVec F S8x13776x125 .f32 :=
  broadcastInDim S8x13776x125 ![0, 1, 2] bcast_S1x13776x1_S8x13776x125_0_1_2
    (broadcastInDim S1x13776x1 ![1] bcast_S13776_S1x13776x1_1
      (shapeCast S13776 (extractStridedSlice S13776x1 ![0, 1] Cd slices_S13776x3_S13776x1_0_1) shapeCasts_S13776x1_S13776))
def codeCol2 (Cd : FVec F S13776x3 .f32) : FVec F S8x13776x125 .f32 :=
  broadcastInDim S8x13776x125 ![0, 1, 2] bcast_S1x13776x1_S8x13776x125_0_1_2
    (broadcastInDim S1x13776x1 ![1] bcast_S13776_S1x13776x1_1
      (shapeCast S13776 (extractStridedSlice S13776x1 ![0, 2] Cd slices_S13776x3_S13776x1_0_2) shapeCasts_S13776x1_S13776))

/-- The four update lists end to end: the weights, then the weights times each code column. -/
def allUpd (W : FVec F S8x13776x125 .f32) (Cd : FVec F S13776x3 .f32) : FVec F S55104000 .f32 :=
  concatenate S55104000 0
    [⟨S13776000, shapeCast S13776000 W shapeCasts_S8x13776x125_S13776000⟩,
     ⟨S13776000, shapeCast S13776000 (mulf W (codeCol0 Cd)) shapeCasts_S8x13776x125_S13776000⟩,
     ⟨S13776000, shapeCast S13776000 (mulf W (codeCol1 Cd)) shapeCasts_S8x13776x125_S13776000⟩,
     ⟨S13776000, shapeCast S13776000 (mulf W (codeCol2 Cd)) shapeCasts_S8x13776x125_S13776000⟩]
    concatenates_S13776000_S13776000_S13776000_S13776000_S55104000_d0

/-- The accumulation volume: zero plus every update added at its cell, as `[8, 4, 128, 128, 128]`. -/
def combined (W : FVec F S8x13776x125 .f32) (Cd : FVec F S13776x3 .f32) (Vx : IVec S8x13776x125x3 32) : FVec F S8x4x128x128x128 .f32 :=
  shapeCast S8x4x128x128x128
    (Host.scatterAdd scatter_S67108864_S55104000x1_S55104000_n_0_0_1
      (broadcastInDim S67108864 ![] bcast_S_S67108864 (constant S_ .f32 0x00000000#32)) (idxCol Vx) (allUpd W Cd))
    shapeCasts_S67108864_S8x4x128x128x128

/-! ## The stages read at an index -/

/-- A clipped coordinate is at most 127. -/
theorem clipOut_le (X : IVec S8x13776x125x3 32) (i : S8x13776x125x3.Idx) : (clipOut X i).toNat ≤ 127 :=
  Cert.SplatIdx.clip_le (X i)

theorem splat32_apply (k : BitVec 32) (p : S8x13776x125.Idx) : splat32 k p = k := rfl

theorem coord0_apply (Vx : IVec S8x13776x125x3 32) (b : Fin 8) (f : Fin 13776) (k : Fin 125) :
    coord0 Vx (ix3 b f k) = Vx (ix4 b f k (0 : Fin 3)) := by
  unfold coord0
  refine (shapeCast_apply _ shapeCasts_S8x13776x125x1_S8x13776x125 (ix3 b f k) (ix4 b f k (0 : Fin 1)) ?_).trans ?_
  · rw [Shape.rowMajor_val_four, Shape.rowMajor_val_three]; show ((b.val * 13776 + f.val) * 125 + k.val) * 1 + 0 = (b.val * 13776 + f.val) * 125 + k.val; omega
  · exact extractStridedSlice_apply _ Vx _ _ _ (fun a => match a with
      | ⟨0, _⟩ => by show b.val = 0 + b.val; omega
      | ⟨1, _⟩ => by show f.val = 0 + f.val; omega
      | ⟨2, _⟩ => by show k.val = 0 + k.val; omega
      | ⟨3, _⟩ => by show 0 = 0 + 0; rfl)

theorem coord1_apply (Vx : IVec S8x13776x125x3 32) (b : Fin 8) (f : Fin 13776) (k : Fin 125) :
    coord1 Vx (ix3 b f k) = Vx (ix4 b f k (1 : Fin 3)) := by
  unfold coord1
  refine (shapeCast_apply _ shapeCasts_S8x13776x125x1_S8x13776x125 (ix3 b f k) (ix4 b f k (0 : Fin 1)) ?_).trans ?_
  · rw [Shape.rowMajor_val_four, Shape.rowMajor_val_three]; show ((b.val * 13776 + f.val) * 125 + k.val) * 1 + 0 = (b.val * 13776 + f.val) * 125 + k.val; omega
  · exact extractStridedSlice_apply _ Vx _ _ _ (fun a => match a with
      | ⟨0, _⟩ => by show b.val = 0 + b.val; omega
      | ⟨1, _⟩ => by show f.val = 0 + f.val; omega
      | ⟨2, _⟩ => by show k.val = 0 + k.val; omega
      | ⟨3, _⟩ => by show 1 = 1 + 0; rfl)

theorem coord2_apply (Vx : IVec S8x13776x125x3 32) (b : Fin 8) (f : Fin 13776) (k : Fin 125) :
    coord2 Vx (ix3 b f k) = Vx (ix4 b f k (2 : Fin 3)) := by
  unfold coord2
  refine (shapeCast_apply _ shapeCasts_S8x13776x125x1_S8x13776x125 (ix3 b f k) (ix4 b f k (0 : Fin 1)) ?_).trans ?_
  · rw [Shape.rowMajor_val_four, Shape.rowMajor_val_three]; show ((b.val * 13776 + f.val) * 125 + k.val) * 1 + 0 = (b.val * 13776 + f.val) * 125 + k.val; omega
  · exact extractStridedSlice_apply _ Vx _ _ _ (fun a => match a with
      | ⟨0, _⟩ => by show b.val = 0 + b.val; omega
      | ⟨1, _⟩ => by show f.val = 0 + f.val; omega
      | ⟨2, _⟩ => by show k.val = 0 + k.val; omega
      | ⟨3, _⟩ => by show 2 = 2 + 0; rfl)

/-- The batch's first cell at a splat of batch `b` is the word `b · 8388608`. -/
theorem batchBase_apply (b : Fin 8) (f : Fin 13776) (k : Fin 125) :
    batchBase (ix3 b f k) = IntOp.muli (BitVec.ofNat 32 b.val) 8388608#32 := by
  unfold batchBase
  refine (broadcastInDim_apply _ bcast_S8x1x1_S8x13776x125_0_1_2 _ (ix3 b f k) (ix3 b (0 : Fin 1) (0 : Fin 1)) (fun a => match a with
      | ⟨0, _⟩ => by show b.val = if (8 : Nat) = 1 then 0 else b.val; rw [if_neg (by decide)]
      | ⟨1, _⟩ => by show 0 = if (1 : Nat) = 1 then 0 else f.val; rw [if_pos rfl]
      | ⟨2, _⟩ => by show 0 = if (1 : Nat) = 1 then 0 else k.val; rw [if_pos rfl])).trans ?_
  show IntOp.muli (broadcastInDim S8x1x1 ![0] bcast_S8_S8x1x1_0 (iotaInDim S8 32 0) (ix3 b (0 : Fin 1) (0 : Fin 1))) 8388608#32 = _
  refine congrArg (fun x => IntOp.muli x 8388608#32) ?_
  exact (broadcastInDim_apply _ bcast_S8_S8x1x1_0 _ (ix3 b (0 : Fin 1) (0 : Fin 1)) (ix1 b) (fun a => match a with
      | ⟨0, _⟩ => by show b.val = if (8 : Nat) = 1 then 0 else b.val; rw [if_neg (by decide)])).trans rfl

/-- Channel 0's cell of a splat, from its voxel coordinates. -/
theorem baseFlat_apply (Vx : IVec S8x13776x125x3 32) (b : Fin 8) (f : Fin 13776) (k : Fin 125) :
    baseFlat Vx (ix3 b f k) = IntOp.addi (IntOp.muli (BitVec.ofNat 32 b.val) 8388608#32)
      (IntOp.addi (IntOp.muli (IntOp.addi (IntOp.muli (Vx (ix4 b f k (0 : Fin 3))) 128#32) (Vx (ix4 b f k (1 : Fin 3)))) 128#32) (Vx (ix4 b f k (2 : Fin 3)))) := by
  show IntOp.addi (batchBase (ix3 b f k)) (IntOp.addi (IntOp.muli (IntOp.addi (IntOp.muli (coord0 Vx (ix3 b f k)) 128#32) (coord1 Vx (ix3 b f k))) 128#32) (coord2 Vx (ix3 b f k))) = _
  rw [batchBase_apply, coord0_apply, coord1_apply, coord2_apply]

/-- A code column at a splat is the face's code. -/
theorem codeCol0_apply (Cd : FVec F S13776x3 .f32) (b : Fin 8) (f : Fin 13776) (k : Fin 125) :
    codeCol0 Cd (ix3 b f k) = Cd (ix2 f (0 : Fin 3)) := by
  unfold codeCol0
  refine (broadcastInDim_apply _ bcast_S1x13776x1_S8x13776x125_0_1_2 _ (ix3 b f k) (ix3 (0 : Fin 1) f (0 : Fin 1)) (fun a => match a with
      | ⟨0, _⟩ => by show 0 = if (1 : Nat) = 1 then 0 else b.val; rw [if_pos rfl]
      | ⟨1, _⟩ => by show f.val = if (13776 : Nat) = 1 then 0 else f.val; rw [if_neg (by decide)]
      | ⟨2, _⟩ => by show 0 = if (1 : Nat) = 1 then 0 else k.val; rw [if_pos rfl])).trans ?_
  refine (broadcastInDim_apply _ bcast_S13776_S1x13776x1_1 _ (ix3 (0 : Fin 1) f (0 : Fin 1)) (ix1 f) (fun a => match a with
      | ⟨0, _⟩ => by show f.val = if (13776 : Nat) = 1 then 0 else f.val; rw [if_neg (by decide)])).trans ?_
  refine (shapeCast_apply _ shapeCasts_S13776x1_S13776 (ix1 f) (ix2 f (0 : Fin 1)) ?_).trans ?_
  · rw [Shape.rowMajor_val_two, Shape.rowMajor_val_one]; show f.val * 1 + 0 = f.val; omega
  · exact extractStridedSlice_apply _ Cd _ _ _ (fun a => match a with
      | ⟨0, _⟩ => by show f.val = 0 + f.val; omega
      | ⟨1, _⟩ => by show 0 = 0 + 0; rfl)

theorem codeCol1_apply (Cd : FVec F S13776x3 .f32) (b : Fin 8) (f : Fin 13776) (k : Fin 125) :
    codeCol1 Cd (ix3 b f k) = Cd (ix2 f (1 : Fin 3)) := by
  unfold codeCol1
  refine (broadcastInDim_apply _ bcast_S1x13776x1_S8x13776x125_0_1_2 _ (ix3 b f k) (ix3 (0 : Fin 1) f (0 : Fin 1)) (fun a => match a with
      | ⟨0, _⟩ => by show 0 = if (1 : Nat) = 1 then 0 else b.val; rw [if_pos rfl]
      | ⟨1, _⟩ => by show f.val = if (13776 : Nat) = 1 then 0 else f.val; rw [if_neg (by decide)]
      | ⟨2, _⟩ => by show 0 = if (1 : Nat) = 1 then 0 else k.val; rw [if_pos rfl])).trans ?_
  refine (broadcastInDim_apply _ bcast_S13776_S1x13776x1_1 _ (ix3 (0 : Fin 1) f (0 : Fin 1)) (ix1 f) (fun a => match a with
      | ⟨0, _⟩ => by show f.val = if (13776 : Nat) = 1 then 0 else f.val; rw [if_neg (by decide)])).trans ?_
  refine (shapeCast_apply _ shapeCasts_S13776x1_S13776 (ix1 f) (ix2 f (0 : Fin 1)) ?_).trans ?_
  · rw [Shape.rowMajor_val_two, Shape.rowMajor_val_one]; show f.val * 1 + 0 = f.val; omega
  · exact extractStridedSlice_apply _ Cd _ _ _ (fun a => match a with
      | ⟨0, _⟩ => by show f.val = 0 + f.val; omega
      | ⟨1, _⟩ => by show 1 = 1 + 0; rfl)

theorem codeCol2_apply (Cd : FVec F S13776x3 .f32) (b : Fin 8) (f : Fin 13776) (k : Fin 125) :
    codeCol2 Cd (ix3 b f k) = Cd (ix2 f (2 : Fin 3)) := by
  unfold codeCol2
  refine (broadcastInDim_apply _ bcast_S1x13776x1_S8x13776x125_0_1_2 _ (ix3 b f k) (ix3 (0 : Fin 1) f (0 : Fin 1)) (fun a => match a with
      | ⟨0, _⟩ => by show 0 = if (1 : Nat) = 1 then 0 else b.val; rw [if_pos rfl]
      | ⟨1, _⟩ => by show f.val = if (13776 : Nat) = 1 then 0 else f.val; rw [if_neg (by decide)]
      | ⟨2, _⟩ => by show 0 = if (1 : Nat) = 1 then 0 else k.val; rw [if_pos rfl])).trans ?_
  refine (broadcastInDim_apply _ bcast_S13776_S1x13776x1_1 _ (ix3 (0 : Fin 1) f (0 : Fin 1)) (ix1 f) (fun a => match a with
      | ⟨0, _⟩ => by show f.val = if (13776 : Nat) = 1 then 0 else f.val; rw [if_neg (by decide)])).trans ?_
  refine (shapeCast_apply _ shapeCasts_S13776x1_S13776 (ix1 f) (ix2 f (0 : Fin 1)) ?_).trans ?_
  · rw [Shape.rowMajor_val_two, Shape.rowMajor_val_one]; show f.val * 1 + 0 = f.val; omega
  · exact extractStridedSlice_apply _ Cd _ _ _ (fun a => match a with
      | ⟨0, _⟩ => by show f.val = 0 + f.val; omega
      | ⟨1, _⟩ => by show 2 = 2 + 0; rfl)

end Cert.KernelIdeal.Tail

end
-- ==== Proof.LibNary3.lean ====
/-
  A host operation of THREE operands read back.

  `StableHlo.nary ![x, a, b] y f` (a concatenation of three arrays) writes `f` of its operands' contents. Stated for a
  general family `xs` the operands appear as `fun k => F ↑(xs k)`, under a binder, where the family's `k`-th member is no
  literal reference, so the contents the earlier operations wrote there cannot be rewritten further. For a literal
  family of three this lemma states the result with each operand's contents at its own reference, and gives the one
  rewriting pass that reads a whole list of host operations back with it.
-/
import Idealize.ShloMosaic.Lib.StableHlo.Run

namespace Idealize.ShloMosaic.StableHlo

variable {τ : Topo} {sig : RefSig} {Val : EltTy → Type}
variable {x a b y : Ref sig .tc}

/-- The result of a three-operand operation, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The contents after two lists of operations run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A list of host operations read back in one rewriting pass, three- and four-operand operations at their literal operands. -/
macro "after_results_simp3" : tactic =>
  `(tactic| (simp (disch := decide) only [after_cons, after_nil,
      nullary_result', unary_result', binary_result', ternary_result', quaternary_result', reshape_result', nary4_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.KHost.lean ====
import proofs.«102091_j32057635897979_2_alg».proof.Proof.FrameKI
import proofs.«102091_j32057635897979_2_alg».proof.Proof.KTail
import proofs.«102091_j32057635897979_2_alg».proof.Proof.LibNary3
import proofs.«102091_j32057635897979_2_alg».proof.Proof.SplatIdx

/-! # What the region finds in its input array

The host operations before the region compute, from the argument arrays, the splat weights, the face codes and the
clipped voxel coordinates, and from them the four-channel accumulation volume that the region's input window stages.
Reading all of them back into one term is too large to compare in one step, so the list is cut once: the first
stretch, which has no inlined call, stays a folded valuation `Vpre`, and the remaining operations (the inlined select
against a constant, two integer constants, the inlined clamp, and the operations that build the volume) are read back
over an arbitrary valuation. The result is the volume's closed form applied to what `Vpre` holds at five buffers. -/

noncomputable section

namespace Cert.KernelIdeal.HostValue

open Cert.KernelIdeal Cert.KernelIdeal.Gen Cert.KernelIdeal.Hand Idealize.ShloMosaic Idealize.ShloMosaic.TcCoe Idealize.SL.Sem
open Idealize.ShloMosaic.StableHlo

variable {F : FTy → Type} [FloatOps F]

/-! ## The cut after the first stretch -/

/-- What core `c`'s buffers hold after the first stretch of host operations alone, from the launch memory `m`. -/
abbrev Vpre (m : (ℓ : Loc nD τ sig) → Buf (Elt F) ℓ) (c : Dev nD) : Valuation τ sig (Elt F) :=
  after hostOps0 (fun b => m (c, b))

/-- Running five lists of operations one after the other is running the first, then the other four from what the
    first left: the effect of a concatenation is the composition of the effects. -/
theorem after_five {τ' : Topo} {sig' : RefSig} {Val' : EltTy → Type} (l0 l1 l2 l3 l4 : List (HloOp τ' sig' Val'))
    (W : Valuation τ' sig' Val') :
    after (List.flatten [l0, l1, l2, l3, l4]) W = after (l1 ++ (l2 ++ (l3 ++ l4))) (after l0 W) := by
  simp only [List.flatten_cons, List.flatten_nil, List.append_nil]
  exact after_append _ _ _

/-- The region-entry contents of any buffer are the last four stretches run from `Vpre`. -/
theorem V_split (m : (ℓ : Loc nD τ sig) → Buf (Elt F) ℓ) (c : Dev nD) (b : Ref sig .tc) :
    V m c b = after (hostOps0_1 ++ (hostOps0_2 ++ (hostOps0_3 ++ hostOps0_4))) (Vpre m c) (Proc.devRef .tc b) :=
  congrFun (after_five hostOps0 hostOps0_1 hostOps0_2 hostOps0_3 hostOps0_4 (fun b => m (c, b))) (Proc.devRef .tc b)

/-! ## The last four stretches read back -/

set_option maxHeartbeats 80000000 in
set_option maxRecDepth 65536 in
/-- From ANY contents `V'` of the buffers, the last four stretches leave in the volume's buffer the closed form of
    the accumulation volume: of the weights selected against the constant (the inlined select, from the mask, the raw
    weights and the constant as `V'` holds them), of the face codes as `V'` holds them, and of the voxel coordinates
    clamped into 0 to 127 (the inlined clamp, from the raw coordinates as `V'` holds them). Each operation writes one
    buffer, so the contents of the volume's buffer are the last operation's function of its operands' contents, those
    the earlier operations' functions of theirs, and so on back to buffers no operation of the four stretches writes,
    which still hold what `V'` holds. Nothing before the cut is evaluated. -/
theorem tail_volume (V' : Valuation τ sig (Elt F)) :
    (after (hostOps0_1 ++ (hostOps0_2 ++ (hostOps0_3 ++ hostOps0_4))) V' (Proc.devRef .tc main_v123) : S8x4x128x128x128.Idx → F .f32)
      = Cert.KernelIdeal.Tail.combined
          (Cert.KernelIdeal.Tail.whereOut (V' (Proc.devRef .tc main_v61)) (V' (Proc.devRef .tc main_v55)) (V' (Proc.devRef .tc main_cst_16)))
          (V' (Proc.devRef .tc main_v19))
          (Cert.KernelIdeal.Tail.clipOut (V' (Proc.devRef .tc main_v41))) := by
  simp only [hostOps0_1, hostOps0_2, hostOps0_3, hostOps0_4, List.cons_append, List.nil_append]
  after_results_simp3
  rfl

/-- The region's input array is the accumulation volume of the selected weights, the face codes and the clamped voxel
    coordinates that the first stretch of host operations leaves. -/
theorem V_volume (m : (ℓ : Loc nD τ sig) → Buf (Elt F) ℓ) (c : Dev nD) :
    (V m c main_v123 : S8x4x128x128x128.Idx → F .f32)
      = Cert.KernelIdeal.Tail.combined
          (Cert.KernelIdeal.Tail.whereOut (Vpre m c (Proc.devRef .tc main_v61)) (Vpre m c (Proc.devRef .tc main_v55)) (Vpre m c (Proc.devRef .tc main_cst_16)))
          (Vpre m c (Proc.devRef .tc main_v19))
          (Cert.KernelIdeal.Tail.clipOut (Vpre m c (Proc.devRef .tc main_v41))) :=
  (V_split m c main_v123).trans (tail_volume (Vpre m c))

end Cert.KernelIdeal.HostValue

end
-- ==== Proof.RTail.lean ====
/-
  The channel-last accumulation, stage by stage.

  From the splat weights `W[b, f, k]` (batch, face, neighbour), the face codes `Cd[f, c]` and the clipped voxel coordinates
  `Vx[b, f, k, a]`, the reference builds two flat volumes over the `8·128³` voxels `n = ((b·128 + V0)·128 + V1)·128 + V2`:
  the code sums (three columns, row `n` receiving `W[b, f, k] · Cd[f, c]` from every splat landing on voxel `n`, starting
  from zero) and the weight sums (row `n` receiving `W[b, f, k]`, starting from `10⁻³`); the output is their quotient,
  channel axis moved to second place. This module names the stages and reads each at an index.
-/
import proofs.«102091_j32057635897979_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Tail

open Cert.ReferenceIdeal Idealize.ShloMosaic Idealize.ShloMosaic.ValueIdx
open Cert.ReferenceIdeal.Facts₀

variable {F : FTy → Type} [FloatOps F]

/-! ## The stages -/

/-- The masked weights: the Gaussian weight where every voxel coordinate is inside the volume, the scalar `z` (zero) elsewhere. -/
def whereOut (msk : IVec S8x13776x125 1) (w : FVec F S8x13776x125 .f32) (z : FVec F S_ .f32) : FVec F S8x13776x125 .f32 :=
  select msk w (broadcastInDim S8x13776x125 ![] bcast_S_S8x13776x125 (id z))

/-- The voxel coordinates clipped into `[0, 127]`: a signed maximum with 0, then a signed minimum with 127. -/
def clipOut (X : IVec S8x13776x125x3 32) : IVec S8x13776x125x3 32 :=
  minsi (broadcastInDim S8x13776x125x3 ![] bcast_S_S8x13776x125x3 (id (constantI S_ 32 127#32)))
    (maxsi (broadcastInDim S8x13776x125x3 ![] bcast_S_S8x13776x125x3 (id (constantI S_ 32 0#32))) X)

/-- A 32-bit constant at every (batch, face, neighbour). -/
def splat32 (k : BitVec 32) : IVec S8x13776x125 32 :=
  broadcastInDim S8x13776x125 ![] bcast_S_S8x13776x125 (constantI S_ 32 k)

/-- Voxel coordinate 0, 1, 2 of every splat (the last axis sliced at `a`, the unit axis dropped). -/
def coord0 (Vx : IVec S8x13776x125x3 32) : IVec S8x13776x125 32 :=
  shapeCast S8x13776x125 (extractStridedSlice S8x13776x125x1 ![0, 0, 0, 0] Vx slices_S8x13776x125x3_S8x13776x125x1_0_0_0_0) shapeCasts_S8x13776x125x1_S8x13776x125
def coord1 (Vx : IVec S8x13776x125x3 32) : IVec S8x13776x125 32 :=
  shapeCast S8x13776x125 (extractStridedSlice S8x13776x125x1 ![0, 0, 0, 1] Vx slices_S8x13776x125x3_S8x13776x125x1_0_0_0_1) shapeCasts_S8x13776x125x1_S8x13776x125
def coord2 (Vx : IVec S8x13776x125x3 32) : IVec S8x13776x125 32 :=
  shapeCast S8x13776x125 (extractStridedSlice S8x13776x125x1 ![0, 0, 0, 2] Vx slices_S8x13776x125x3_S8x13776x125x1_0_0_0_2) shapeCasts_S8x13776x125x1_S8x13776x125

/-- The batch number times 128, at every (batch, face, neighbour): `b·128`. -/
def batchBase : IVec S8x13776x125 32 :=
  broadcastInDim S8x13776x125 ![0, 1, 2] bcast_S8x1x1_S8x13776x125_0_1_2
    (muli (broadcastInDim S8x1x1 ![0] bcast_S8_S8x1x1_0 (iotaInDim S8 32 0))
      (broadcastInDim S8x1x1 ![] bcast_S_S8x1x1 (constantI S_ 32 128#32)))

/-- The voxel number of every splat: `((b·128 + V0)·128 + V1)·128 + V2`. -/
def lastFlat (Vx : IVec S8x13776x125x3 32) : IVec S8x13776x125 32 :=
  addi (muli (addi (muli (addi batchBase (coord0 Vx)) (splat32 128#32)) (coord1 Vx)) (splat32 128#32)) (coord2 Vx)

/-- The voxel numbers as a flat list. -/
def flatIdx (Vx : IVec S8x13776x125x3 32) : IVec S13776000 32 :=
  shapeCast S13776000 (lastFlat Vx) shapeCasts_S8x13776x125_S13776000

/-- The voxel numbers after the normalisation of negative indices. -/
def normIdx (Vx : IVec S8x13776x125x3 32) : IVec S13776000 32 :=
  select (cmpi .slt (flatIdx Vx) (broadcastInDim S13776000 ![] bcast_S_S13776000 (constantI S_ 32 0#32)))
    (addi (flatIdx Vx) (broadcastInDim S13776000 ![] bcast_S_S13776000 (constantI S_ 32 16777216#32))) (flatIdx Vx)

/-- The normalised voxel numbers as the column of scatter indices. -/
def idxColR (Vx : IVec S8x13776x125x3 32) : IVec S13776000x1 32 :=
  broadcastInDim S13776000x1 ![0] bcast_S13776000_S13776000x1_0 (normIdx Vx)

/-- Weight times face code, at every (batch, face, neighbour, column). -/
def contrib4 (W : FVec F S8x13776x125 .f32) (Cd : FVec F S13776x3 .f32) : FVec F S8x13776x125x3 .f32 :=
  mulf
    (broadcastInDim S8x13776x125x3 ![0, 1, 2, 3] bcast_S8x13776x125x1_S8x13776x125x3_0_1_2_3
      (broadcastInDim S8x13776x125x1 ![0, 1, 2] bcast_S8x13776x125_S8x13776x125x1_0_1_2 W))
    (broadcastInDim S8x13776x125x3 ![0, 1, 2, 3] bcast_S1x13776x1x3_S8x13776x125x3_0_1_2_3
      (broadcastInDim S1x13776x1x3 ![1, 3] bcast_S13776x3_S1x13776x1x3_1_3 Cd))

/-- The same, one row per splat. -/
def contrib (W : FVec F S8x13776x125 .f32) (Cd : FVec F S13776x3 .f32) : FVec F S13776000x3 .f32 :=
  shapeCast S13776000x3 (contrib4 W Cd) shapeCasts_S8x13776x125x3_S13776000x3

/-- The code sums: zero plus every splat's row added at its voxel's row. -/
def semSum (W : FVec F S8x13776x125 .f32) (Cd : FVec F S13776x3 .f32) (Vx : IVec S8x13776x125x3 32) : FVec F S16777216x3 .f32 :=
  Host.scatterAdd scatter_S16777216x3_S13776000x1_S13776000x3_1_0_0_1
    (broadcastInDim S16777216x3 ![] bcast_S_S16777216x3 (constant S_ .f32 0x00000000#32)) (idxColR Vx) (contrib W Cd)

/-- The weight sums: `10⁻³` plus every splat's weight added at its voxel. -/
def wSum (W : FVec F S8x13776x125 .f32) (Vx : IVec S8x13776x125x3 32) : FVec F S16777216 .f32 :=
  Host.scatterAdd scatter_S16777216_S13776000x1_S13776000_n_0_0_1
    (broadcastInDim S16777216 ![] bcast_S_S16777216 (constant S_ .f32 0x3A83126F#32)) (idxColR Vx)
    (shapeCast S13776000 W shapeCasts_S8x13776x125_S13776000)

/-- The output: code sums over weight sums, as `[8, 3, 128, 128, 128]`. -/
def refOut (W : FVec F S8x13776x125 .f32) (Cd : FVec F S13776x3 .f32) (Vx : IVec S8x13776x125x3 32) : FVec F S8x3x128x128x128 .f32 :=
  transpose S8x3x128x128x128 [0, 4, 1, 2, 3]
    (shapeCast S8x128x128x128x3
      (Host.divf (semSum W Cd Vx)
        (broadcastInDim S16777216x3 ![0, 1] bcast_S16777216x1_S16777216x3_0_1
          (broadcastInDim S16777216x1 ![0] bcast_S16777216_S16777216x1_0 (wSum W Vx))))
      shapeCasts_S16777216x3_S8x128x128x128x3)
    transposes_S8x128x128x128x3_S8x3x128x128x128_0_4_1_2_3

/-! ## The stages read at an index -/

theorem splat32_apply (k : BitVec 32) (p : S8x13776x125.Idx) : splat32 k p = k := rfl

theorem coord0_apply (Vx : IVec S8x13776x125x3 32) (b : Fin 8) (f : Fin 13776) (k : Fin 125) :
    coord0 Vx (ix3 b f k) = Vx (ix4 b f k (0 : Fin 3)) := by
  unfold coord0
  refine (shapeCast_apply _ shapeCasts_S8x13776x125x1_S8x13776x125 (ix3 b f k) (ix4 b f k (0 : Fin 1)) ?_).trans ?_
  · rw [Shape.rowMajor_val_four, Shape.rowMajor_val_three]; show ((b.val * 13776 + f.val) * 125 + k.val) * 1 + 0 = (b.val * 13776 + f.val) * 125 + k.val; omega
  · exact extractStridedSlice_apply _ Vx _ _ _ (fun a => match a with
      | ⟨0, _⟩ => by show b.val = 0 + b.val; omega
      | ⟨1, _⟩ => by show f.val = 0 + f.val; omega
      | ⟨2, _⟩ => by show k.val = 0 + k.val; omega
      | ⟨3, _⟩ => by show 0 = 0 + 0; rfl)

theorem coord1_apply (Vx : IVec S8x13776x125x3 32) (b : Fin 8) (f : Fin 13776) (k : Fin 125) :
    coord1 Vx (ix3 b f k) = Vx (ix4 b f k (1 : Fin 3)) := by
  unfold coord1
  refine (shapeCast_apply _ shapeCasts_S8x13776x125x1_S8x13776x125 (ix3 b f k) (ix4 b f k (0 : Fin 1)) ?_).trans ?_
  · rw [Shape.rowMajor_val_four, Shape.rowMajor_val_three]; show ((b.val * 13776 + f.val) * 125 + k.val) * 1 + 0 = (b.val * 13776 + f.val) * 125 + k.val; omega
  · exact extractStridedSlice_apply _ Vx _ _ _ (fun a => match a with
      | ⟨0, _⟩ => by show b.val = 0 + b.val; omega
      | ⟨1, _⟩ => by show f.val = 0 + f.val; omega
      | ⟨2, _⟩ => by show k.val = 0 + k.val; omega
      | ⟨3, _⟩ => by show 1 = 1 + 0; rfl)

theorem coord2_apply (Vx : IVec S8x13776x125x3 32) (b : Fin 8) (f : Fin 13776) (k : Fin 125) :
    coord2 Vx (ix3 b f k) = Vx (ix4 b f k (2 : Fin 3)) := by
  unfold coord2
  refine (shapeCast_apply _ shapeCasts_S8x13776x125x1_S8x13776x125 (ix3 b f k) (ix4 b f k (0 : Fin 1)) ?_).trans ?_
  · rw [Shape.rowMajor_val_four, Shape.rowMajor_val_three]; show ((b.val * 13776 + f.val) * 125 + k.val) * 1 + 0 = (b.val * 13776 + f.val) * 125 + k.val; omega
  · exact extractStridedSlice_apply _ Vx _ _ _ (fun a => match a with
      | ⟨0, _⟩ => by show b.val = 0 + b.val; omega
      | ⟨1, _⟩ => by show f.val = 0 + f.val; omega
      | ⟨2, _⟩ => by show k.val = 0 + k.val; omega
      | ⟨3, _⟩ => by show 2 = 2 + 0; rfl)

/-- The batch term at a splat of batch `b` is the word `b · 128`. -/
theorem batchBase_apply (b : Fin 8) (f : Fin 13776) (k : Fin 125) :
    batchBase (ix3 b f k) = IntOp.muli (BitVec.ofNat 32 b.val) 128#32 := by
  unfold batchBase
  refine (broadcastInDim_apply _ bcast_S8x1x1_S8x13776x125_0_1_2 _ (ix3 b f k) (ix3 b (0 : Fin 1) (0 : Fin 1)) (fun a => match a with
      | ⟨0, _⟩ => by show b.val = if (8 : Nat) = 1 then 0 else b.val; rw [if_neg (by decide)]
      | ⟨1, _⟩ => by show 0 = if (1 : Nat) = 1 then 0 else f.val; rw [if_pos rfl]
      | ⟨2, _⟩ => by show 0 = if (1 : Nat) = 1 then 0 else k.val; rw [if_pos rfl])).trans ?_
  show IntOp.muli (broadcastInDim S8x1x1 ![0] bcast_S8_S8x1x1_0 (iotaInDim S8 32 0) (ix3 b (0 : Fin 1) (0 : Fin 1))) 128#32 = _
  refine congrArg (fun x => IntOp.muli x 128#32) ?_
  exact (broadcastInDim_apply _ bcast_S8_S8x1x1_0 _ (ix3 b (0 : Fin 1) (0 : Fin 1)) (ix1 b) (fun a => match a with
      | ⟨0, _⟩ => by show b.val = if (8 : Nat) = 1 then 0 else b.val; rw [if_neg (by decide)])).trans rfl

/-- The voxel number of a splat, from its batch and voxel coordinates. -/
theorem lastFlat_apply (Vx : IVec S8x13776x125x3 32) (b : Fin 8) (f : Fin 13776) (k : Fin 125) :
    lastFlat Vx (ix3 b f k) = IntOp.addi (IntOp.muli (IntOp.addi (IntOp.muli (IntOp.addi (IntOp.muli (BitVec.ofNat 32 b.val) 128#32)
      (Vx (ix4 b f k (0 : Fin 3)))) 128#32) (Vx (ix4 b f k (1 : Fin 3)))) 128#32) (Vx (ix4 b f k (2 : Fin 3))) := by
  show IntOp.addi (IntOp.muli (IntOp.addi (IntOp.muli (IntOp.addi (batchBase (ix3 b f k)) (coord0 Vx (ix3 b f k))) 128#32)
    (coord1 Vx (ix3 b f k))) 128#32) (coord2 Vx (ix3 b f k)) = _
  rw [batchBase_apply, coord0_apply, coord1_apply, coord2_apply]

/-- The column of scatter indices at row `j` is the normalised word of the flat list. -/
theorem idxColR_apply (Vx : IVec S8x13776x125x3 32) (j : S13776000.Idx) :
    idxColR Vx (ix2 (j 0) (0 : Fin 1)) = Scalar.select (IntOp.cmpi .slt (flatIdx Vx j) 0#32) (IntOp.addi (flatIdx Vx j) 16777216#32) (flatIdx Vx j) := by
  unfold idxColR
  exact (broadcastInDim_apply _ bcast_S13776000_S13776000x1_0 _ (ix2 (j 0) (0 : Fin 1)) j (fun a => match a with
    | ⟨0, _⟩ => by show (j 0).val = if (13776000 : Nat) = 1 then 0 else (j 0).val; rw [if_neg (by decide)])).trans rfl

/-- Weight times face code at a splat and a column. -/
theorem contrib4_apply (W : FVec F S8x13776x125 .f32) (Cd : FVec F S13776x3 .f32) (b : Fin 8) (f : Fin 13776) (k : Fin 125) (c : Fin 3) :
    contrib4 W Cd (ix4 b f k c) = FloatOps.mulf (W (ix3 b f k)) (Cd (ix2 f c)) := by
  show FloatOps.mulf
    (broadcastInDim S8x13776x125x3 ![0, 1, 2, 3] bcast_S8x13776x125x1_S8x13776x125x3_0_1_2_3
      (broadcastInDim S8x13776x125x1 ![0, 1, 2] bcast_S8x13776x125_S8x13776x125x1_0_1_2 W) (ix4 b f k c))
    (broadcastInDim S8x13776x125x3 ![0, 1, 2, 3] bcast_S1x13776x1x3_S8x13776x125x3_0_1_2_3
      (broadcastInDim S1x13776x1x3 ![1, 3] bcast_S13776x3_S1x13776x1x3_1_3 Cd) (ix4 b f k c)) = _
  have hW : broadcastInDim S8x13776x125x3 ![0, 1, 2, 3] bcast_S8x13776x125x1_S8x13776x125x3_0_1_2_3
      (broadcastInDim S8x13776x125x1 ![0, 1, 2] bcast_S8x13776x125_S8x13776x125x1_0_1_2 W) (ix4 b f k c) = W (ix3 b f k) := by
    refine (broadcastInDim_apply _ bcast_S8x13776x125x1_S8x13776x125x3_0_1_2_3 _ (ix4 b f k c) (ix4 b f k (0 : Fin 1)) (fun a => match a with
      | ⟨0, _⟩ => by show b.val = if (8 : Nat) = 1 then 0 else b.val; rw [if_neg (by decide)]
      | ⟨1, _⟩ => by show f.val = if (13776 : Nat) = 1 then 0 else f.val; rw [if_neg (by decide)]
      | ⟨2, _⟩ => by show k.val = if (125 : Nat) = 1 then 0 else k.val; rw [if_neg (by decide)]
      | ⟨3, _⟩ => by show 0 = if (1 : Nat) = 1 then 0 else c.val; rw [if_pos rfl])).trans ?_
    exact broadcastInDim_apply _ bcast_S8x13776x125_S8x13776x125x1_0_1_2 W (ix4 b f k (0 : Fin 1)) (ix3 b f k) (fun a => match a with
      | ⟨0, _⟩ => by show b.val = if (8 : Nat) = 1 then 0 else b.val; rw [if_neg (by decide)]
      | ⟨1, _⟩ => by show f.val = if (13776 : Nat) = 1 then 0 else f.val; rw [if_neg (by decide)]
      | ⟨2, _⟩ => by show k.val = if (125 : Nat) = 1 then 0 else k.val; rw [if_neg (by decide)])
  have hC : broadcastInDim S8x13776x125x3 ![0, 1, 2, 3] bcast_S1x13776x1x3_S8x13776x125x3_0_1_2_3
      (broadcastInDim S1x13776x1x3 ![1, 3] bcast_S13776x3_S1x13776x1x3_1_3 Cd) (ix4 b f k c) = Cd (ix2 f c) := by
    refine (broadcastInDim_apply _ bcast_S1x13776x1x3_S8x13776x125x3_0_1_2_3 _ (ix4 b f k c) (ix4 (0 : Fin 1) f (0 : Fin 1) c) (fun a => match a with
      | ⟨0, _⟩ => by show 0 = if (1 : Nat) = 1 then 0 else b.val; rw [if_pos rfl]
      | ⟨1, _⟩ => by show f.val = if (13776 : Nat) = 1 then 0 else f.val; rw [if_neg (by decide)]
      | ⟨2, _⟩ => by show 0 = if (1 : Nat) = 1 then 0 else k.val; rw [if_pos rfl]
      | ⟨3, _⟩ => by show c.val = if (3 : Nat) = 1 then 0 else c.val; rw [if_neg (by decide)])).trans ?_
    exact broadcastInDim_apply _ bcast_S13776x3_S1x13776x1x3_1_3 Cd (ix4 (0 : Fin 1) f (0 : Fin 1) c) (ix2 f c) (fun a => match a with
      | ⟨0, _⟩ => by show f.val = if (13776 : Nat) = 1 then 0 else f.val; rw [if_neg (by decide)]
      | ⟨1, _⟩ => by show c.val = if (3 : Nat) = 1 then 0 else c.val; rw [if_neg (by decide)])
  rw [hW, hC]

/-- A row of the per-splat products: row `q` (the row-major number of the splat `p`), column `c`, is `W p · Cd[face of p, c]`
    — the same flat list as the one the weights are read through. -/
theorem contrib_row (W : FVec F S8x13776x125 .f32) (Cd : FVec F S13776x3 .f32) (q : S13776000.Idx) (c : Fin 3) :
    contrib W Cd (ix2 (q 0) c)
      = shapeCast S13776000 (fun p : S8x13776x125.Idx => FloatOps.mulf (W p) (Cd (ix2 (⟨(p 1).val, (p 1).isLt⟩ : Fin 13776) c)))
          shapeCasts_S8x13776x125_S13776000 q := by
  have h0 : (q 0).val < 13776000 := (q 0).isLt
  have hb : (q 0).val / 1722000 < 8 := by omega
  have hf : (q 0).val / 125 % 13776 < 13776 := by omega
  have hk : (q 0).val % 125 < 125 := by omega
  have hc : c.val < 3 := c.isLt
  unfold contrib
  refine (shapeCast_apply _ shapeCasts_S8x13776x125x3_S13776000x3 (ix2 (q 0) c)
    (ix4 (⟨(q 0).val / 1722000, hb⟩ : Fin 8) (⟨(q 0).val / 125 % 13776, hf⟩ : Fin 13776) (⟨(q 0).val % 125, hk⟩ : Fin 125) c) ?_).trans ?_
  · rw [Shape.rowMajor_val_four, Shape.rowMajor_val_two]
    show ((((q 0).val / 1722000) * 13776 + (q 0).val / 125 % 13776) * 125 + (q 0).val % 125) * 3 + c.val = (q 0).val * 3 + c.val
    omega
  rw [contrib4_apply]
  refine (shapeCast_apply (fun p : S8x13776x125.Idx => FloatOps.mulf (W p) (Cd (ix2 (⟨(p 1).val, (p 1).isLt⟩ : Fin 13776) c)))
    shapeCasts_S8x13776x125_S13776000 q
    (ix3 (⟨(q 0).val / 1722000, hb⟩ : Fin 8) (⟨(q 0).val / 125 % 13776, hf⟩ : Fin 13776) (⟨(q 0).val % 125, hk⟩ : Fin 125)) ?_).symm
  rw [Shape.rowMajor_val_three, Shape.rowMajor_val_one]
  show (((q 0).val / 1722000) * 13776 + (q 0).val / 125 % 13776) * 125 + (q 0).val % 125 = (q 0).val
  omega

/-- The output at `(b, c, x, y, z)` is the quotient of the code sum and the weight sum of voxel `n = ((b·128 + x)·128 + y)·128 + z`,
    column `c`. -/
theorem refOut_apply_div (W : FVec F S8x13776x125 .f32) (Cd : FVec F S13776x3 .f32) (Vx : IVec S8x13776x125x3 32)
    (b : Fin 8) (c : Fin 3) (x y z : Fin 128) (hn : ((b.val * 128 + x.val) * 128 + y.val) * 128 + z.val < 16777216) :
    refOut W Cd Vx (ix5 b c x y z)
      = FloatOps.hostDivf (semSum W Cd Vx (ix2 (⟨((b.val * 128 + x.val) * 128 + y.val) * 128 + z.val, hn⟩ : Fin 16777216) c))
          (wSum W Vx (ix1 (⟨((b.val * 128 + x.val) * 128 + y.val) * 128 + z.val, hn⟩ : Fin 16777216))) := by
  have hc : c.val < 3 := c.isLt
  unfold refOut
  refine (transpose_apply [0, 4, 1, 2, 3] _ transposes_S8x128x128x128x3_S8x3x128x128x128_0_4_1_2_3 (ix5 b c x y z) (ix5 b x y z c) (fun a => match a with
    | ⟨0, _⟩ => rfl
    | ⟨1, _⟩ => rfl
    | ⟨2, _⟩ => rfl
    | ⟨3, _⟩ => rfl
    | ⟨4, _⟩ => rfl)).trans ?_
  refine (shapeCast_apply _ shapeCasts_S16777216x3_S8x128x128x128x3 (ix5 b x y z c)
    (ix2 (⟨((b.val * 128 + x.val) * 128 + y.val) * 128 + z.val, hn⟩ : Fin 16777216) c) ?_).trans ?_
  · rw [Shape.rowMajor_val_two, Shape.rowMajor_val_five]; rfl
  show FloatOps.hostDivf (semSum W Cd Vx (ix2 (⟨((b.val * 128 + x.val) * 128 + y.val) * 128 + z.val, hn⟩ : Fin 16777216) c))
    (broadcastInDim S16777216x3 ![0, 1] bcast_S16777216x1_S16777216x3_0_1
      (broadcastInDim S16777216x1 ![0] bcast_S16777216_S16777216x1_0 (wSum W Vx))
      (ix2 (⟨((b.val * 128 + x.val) * 128 + y.val) * 128 + z.val, hn⟩ : Fin 16777216) c)) = _
  refine congrArg (fun t => FloatOps.hostDivf (semSum W Cd Vx (ix2 (⟨((b.val * 128 + x.val) * 128 + y.val) * 128 + z.val, hn⟩ : Fin 16777216) c)) t) ?_
  refine (broadcastInDim_apply _ bcast_S16777216x1_S16777216x3_0_1 _ (ix2 (⟨((b.val * 128 + x.val) * 128 + y.val) * 128 + z.val, hn⟩ : Fin 16777216) c)
    (ix2 (⟨((b.val * 128 + x.val) * 128 + y.val) * 128 + z.val, hn⟩ : Fin 16777216) (0 : Fin 1)) (fun a => match a with
    | ⟨0, _⟩ => by show ((b.val * 128 + x.val) * 128 + y.val) * 128 + z.val = if (16777216 : Nat) = 1 then 0 else ((b.val * 128 + x.val) * 128 + y.val) * 128 + z.val; rw [if_neg (by decide)]
    | ⟨1, _⟩ => by show 0 = if (1 : Nat) = 1 then 0 else c.val; rw [if_pos rfl])).trans ?_
  exact broadcastInDim_apply _ bcast_S16777216_S16777216x1_0 (wSum W Vx) (ix2 (⟨((b.val * 128 + x.val) * 128 + y.val) * 128 + z.val, hn⟩ : Fin 16777216) (0 : Fin 1))
    (ix1 (⟨((b.val * 128 + x.val) * 128 + y.val) * 128 + z.val, hn⟩ : Fin 16777216)) (fun a => match a with
    | ⟨0, _⟩ => by show ((b.val * 128 + x.val) * 128 + y.val) * 128 + z.val = if (16777216 : Nat) = 1 then 0 else ((b.val * 128 + x.val) * 128 + y.val) * 128 + z.val; rw [if_neg (by decide)])

end Cert.ReferenceIdeal.Tail

end
-- ==== Proof.RRun.lean ====
/-
  The reference program's run, read back in two steps.

  The reference's @main is a list of 148 host operations. Its first 81 (through the zero scalar that masks the weights) compute
  the face centres, the neighbour voxels, the Gaussian weights before masking, the inside-the-volume mask and the face codes;
  they stay folded as the valuation `after opsHead`. The remaining 67 — the masking, the clipping, the flat voxel rows, the two
  accumulating scatters, the quotient and the transposition — are read back over ANY valuation as the reference's tail
  (module RTail) of the masked weights, the codes and the clipped voxels.
-/
import proofs.«102091_j32057635897979_2_alg».proof.Proof.RefRun
import proofs.«102091_j32057635897979_2_alg».proof.Proof.RTail
import proofs.«102091_j32057635897979_2_alg».proof.Proof.LibNary3

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first 81 operations of @main: everything up to the masking. -/
abbrev opsHead : List (HloOp τ sig (Elt F)) :=
  [ nullary main_c (constantI S_ 32 0#32),
    unary main_c main_v0 (broadcastInDim S13776x3 ![] bcast_S_S13776x3 : (⟨S_, .i32⟩ : BufTy).Contents (Elt F) → (⟨S13776x3, .i32⟩ : BufTy).Contents (Elt F)),
    binary main_arg2 main_v0 main_v1 (cmpi .slt : (⟨S13776x3, .i32⟩ : BufTy).Contents (Elt F) → (⟨S13776x3, .i32⟩ : BufTy).Contents (Elt F) → (⟨S13776x3, .i1⟩ : BufTy).Contents (Elt F)),
    nullary main_c_0 (constantI S_ 32 6890#32),
    unary main_c_0 main_v2 (broadcastInDim S13776x3 ![] bcast_S_S13776x3 : (⟨S_, .i32⟩ : BufTy).Contents (Elt F) → (⟨S13776x3, .i32⟩ : BufTy).Contents (Elt F)),
    binary main_arg2 main_v2 main_v3 (addi : (⟨S13776x3, .i32⟩ : BufTy).Contents (Elt F) → (⟨S13776x3, .i32⟩ : BufTy).Contents (Elt F) → (⟨S13776x3, .i32⟩ : BufTy).Contents (Elt F)),
    ternary main_v1 main_v3 main_arg2 main_v4 (select : (⟨S13776x3, .i1⟩ : BufTy).Contents (Elt F) → (⟨S13776x3, .i32⟩ : BufTy).Contents (Elt F) → (⟨S13776x3, .i32⟩ : BufTy).Contents (Elt F) → (⟨S13776x3, .i32⟩ : BufTy).Contents (Elt F)),
    unary main_v4 main_v5 (broadcastInDim S13776x3x1 ![0, 1] bcast_S13776x3_S13776x3x1_0_1 : (⟨S13776x3, .i32⟩ : BufTy).Contents (Elt F) → (⟨S13776x3x1, .i32⟩ : BufTy).Contents (Elt F)),
    binary main_arg0 main_v5 main_v6 ((fun x i => Host.gather gather_S8x6890x3_S13776x3x1_S8x13776x3x3_03_1_n_n_1_2_813 x i) : (⟨S8x6890x3, .f32⟩ : BufTy).Contents (Elt F) → (⟨S13776x3x1, .i32⟩ : BufTy).Contents (Elt F) → (⟨S8x13776x3x3, .f32⟩ : BufTy).Contents (Elt F)),
    nullary main_cst (constant S_ .f32 0x00000000#32),
    binary main_v6 main_cst main_v7 ((fun x v => Host.reduceAdd x v reducesTo_S8x13776x3x3_S8x13776x3_d2 h_S_) : (⟨S8x13776x3x3, .f32⟩ : BufTy).Contents (Elt F) → (⟨S_, .f32⟩ : BufTy).Contents (Elt F) → (⟨S8x13776x3, .f32⟩ : BufTy).Contents (Elt F)),
    nullary main_cst_1 (constant S_ .f32 0x40400000#32),
    unary main_cst_1 main_v8 (broadcastInDim S8x13776x3 ![] bcast_S_S8x13776x3 : (⟨S_, .f32⟩ : BufTy).Contents (Elt F) → (⟨S8x13776x3, .f32⟩ : BufTy).Contents (Elt F)),
    binary main_v7 main_v8 main_v9 (Host.divf : (⟨S8x13776x3, .f32⟩ : BufTy).Contents (Elt F) → (⟨S8x13776x3, .f32⟩ : BufTy).Contents (Elt F) → (⟨S8x13776x3, .f32⟩ : BufTy).Contents (Elt F)),
    nullary main_c_2 (constantI S_ 32 0#32),
    unary main_c_2 main_v10 (broadcastInDim S13776x3 ![] bcast_S_S13776x3 : (⟨S_, .i32⟩ : BufTy).Contents (Elt F) → (⟨S13776x3, .i32⟩ : BufTy).Contents (Elt F)),
    binary main_arg2 main_v10 main_v11 (cmpi .slt : (⟨S13776x3, .i32⟩ : BufTy).Contents (Elt F) → (⟨S13776x3, .i32⟩ : BufTy).Contents (Elt F) → (⟨S13776x3, .i1⟩ : BufTy).Contents (Elt F)),
    nullary main_c_3 (constantI S_ 32 6890#32),
    unary main_c_3 main_v12 (broadcastInDim S13776x3 ![] bcast_S_S13776x3 : (⟨S_, .i32⟩ : BufTy).Contents (Elt F) → (⟨S13776x3, .i32⟩ : BufTy).Contents (Elt F)),
    binary main_arg2 main_v12 main_v13 (addi : (⟨S13776x3, .i32⟩ : BufTy).Contents (Elt F) → (⟨S13776x3, .i32⟩ : BufTy).Contents (Elt F) → (⟨S13776x3, .i32⟩ : BufTy).Contents (Elt F)),
    ternary main_v11 main_v13 main_arg2 main_v14 (select : (⟨S13776x3, .i1⟩ : BufTy).Contents (Elt F) → (⟨S13776x3, .i32⟩ : BufTy).Contents (Elt F) → (⟨S13776x3, .i32⟩ : BufTy).Contents (Elt F) → (⟨S13776x3, .i32⟩ : BufTy).Contents (Elt F)),
    unary main_v14 main_v15 (broadcastInDim S13776x3x1 ![0, 1] bcast_S13776x3_S13776x3x1_0_1 : (⟨S13776x3, .i32⟩ : BufTy).Contents (Elt F) → (⟨S13776x3x1, .i32⟩ : BufTy).Contents (Elt F)),
    binary main_arg1 main_v15 main_v16 ((fun x i => Host.gather gather_S6890x3_S13776x3x1_S13776x3x3_2_0_n_n_0_2_13 x i) : (⟨S6890x3, .f32⟩ : BufTy).Contents (Elt F) → (⟨S13776x3x1, .i32⟩ : BufTy).Contents (Elt F) → (⟨S13776x3x3, .f32⟩ : BufTy).Contents (Elt F)),
    nullary main_cst_4 (constant S_ .f32 0x00000000#32),
    binary main_v16 main_cst_4 main_v17 ((fun x v => Host.reduceAdd x v reducesTo_S13776x3x3_S13776x3_d1 h_S_) : (⟨S13776x3x3, .f32⟩ : BufTy).Contents (Elt F) → (⟨S_, .f32⟩ : BufTy).Contents (Elt F) → (⟨S13776x3, .f32⟩ : BufTy).Contents (Elt F)),
    nullary main_cst_5 (constant S_ .f32 0x40400000#32),
    unary main_cst_5 main_v18 (broadcastInDim S13776x3 ![] bcast_S_S13776x3 : (⟨S_, .f32⟩ : BufTy).Contents (Elt F) → (⟨S13776x3, .f32⟩ : BufTy).Contents (Elt F)),
    binary main_v17 main_v18 main_v19 (Host.divf : (⟨S13776x3, .f32⟩ : BufTy).Contents (Elt F) → (⟨S13776x3, .f32⟩ : BufTy).Contents (Elt F) → (⟨S13776x3, .f32⟩ : BufTy).Contents (Elt F)),
    nullary main_cst_6 (constant S_ .f32 0x3C800000#32),
    unary main_cst_6 main_v20 (broadcastInDim S8x13776x3 ![] bcast_S_S8x13776x3 : (⟨S_, .f32⟩ : BufTy).Contents (Elt F) → (⟨S8x13776x3, .f32⟩ : BufTy).Contents (Elt F)),
    binary main_v9 main_v20 main_v21 (Host.divf : (⟨S8x13776x3, .f32⟩ : BufTy).Contents (Elt F) → (⟨S8x13776x3, .f32⟩ : BufTy).Contents (Elt F) → (⟨S8x13776x3, .f32⟩ : BufTy).Contents (Elt F)),
    nullary main_cst_7 (constant S_ .f32 0x427E0000#32),
    unary main_cst_7 main_v22 (broadcastInDim S8x13776x3 ![] bcast_S_S8x13776x3 : (⟨S_, .f32⟩ : BufTy).Contents (Elt F) → (⟨S8x13776x3, .f32⟩ : BufTy).Contents (Elt F)),
    binary main_v21 main_v22 main_v23 (addf : (⟨S8x13776x3, .f32⟩ : BufTy).Contents (Elt F) → (⟨S8x13776x3, .f32⟩ : BufTy).Contents (Elt F) → (⟨S8x13776x3, .f32⟩ : BufTy).Contents (Elt F)),
    unary main_v23 main_v24 (Host.floor : (⟨S8x13776x3, .f32⟩ : BufTy).Contents (Elt F) → (⟨S8x13776x3, .f32⟩ : BufTy).Contents (Elt F)),
    unary main_v24 main_v25 (fptosi 32 : (⟨S8x13776x3, .f32⟩ : BufTy).Contents (Elt F) → (⟨S8x13776x3, .i32⟩ : BufTy).Contents (Elt F)),
    nullary main_v26 (iotaInDim S5 32 0),
    nullary main_c_8 (constantI S_ 32 4294967294#32),
    unary main_c_8 main_v27 (broadcastInDim S5 ![] bcast_S_S5 : (⟨S_, .i32⟩ : BufTy).Contents (Elt F) → (⟨S5, .i32⟩ : BufTy).Contents (Elt F)),
    binary main_v27 main_v26 main_v28 (addi : (⟨S5, .i32⟩ : BufTy).Contents (Elt F) → (⟨S5, .i32⟩ : BufTy).Contents (Elt F) → (⟨S5, .i32⟩ : BufTy).Contents (Elt F)),
    unary main_v28 main_v29 (broadcastInDim S5x5x5 ![0] bcast_S5_S5x5x5_0 : (⟨S5, .i32⟩ : BufTy).Contents (Elt F) → (⟨S5x5x5, .i32⟩ : BufTy).Contents (Elt F)),
    unary main_v28 main_v30 (broadcastInDim S5x5x5 ![1] bcast_S5_S5x5x5_1 : (⟨S5, .i32⟩ : BufTy).Contents (Elt F) → (⟨S5x5x5, .i32⟩ : BufTy).Contents (Elt F)),
    unary main_v28 main_v31 (broadcastInDim S5x5x5 ![2] bcast_S5_S5x5x5_2 : (⟨S5, .i32⟩ : BufTy).Contents (Elt F) → (⟨S5x5x5, .i32⟩ : BufTy).Contents (Elt F)),
    unary main_v29 main_v32 (broadcastInDim S5x5x5x1 ![0, 1, 2] bcast_S5x5x5_S5x5x5x1_0_1_2 : (⟨S5x5x5, .i32⟩ : BufTy).Contents (Elt F) → (⟨S5x5x5x1, .i32⟩ : BufTy).Contents (Elt F)),
    unary main_v30 main_v33 (broadcastInDim S5x5x5x1 ![0, 1, 2] bcast_S5x5x5_S5x5x5x1_0_1_2 : (⟨S5x5x5, .i32⟩ : BufTy).Contents (Elt F) → (⟨S5x5x5x1, .i32⟩ : BufTy).Contents (Elt F)),
    unary main_v31 main_v34 (broadcastInDim S5x5x5x1 ![0, 1, 2] bcast_S5x5x5_S5x5x5x1_0_1_2 : (⟨S5x5x5, .i32⟩ : BufTy).Contents (Elt F) → (⟨S5x5x5x1, .i32⟩ : BufTy).Contents (Elt F)),
    nary ![main_v32, main_v33, main_v34] main_v35 (fun u => concatenate S5x5x5x3 3 [⟨S5x5x5x1, u 0⟩, ⟨S5x5x5x1, u 1⟩, ⟨S5x5x5x1, u 2⟩] concatenates_S5x5x5x1_S5x5x5x1_S5x5x5x1_S5x5x5x3_d3),
    reshape main_v35 main_v36 rfl shapeCasts_S5x5x5x3_S125x3,
    unary main_v25 main_v37 (broadcastInDim S8x13776x1x3 ![0, 1, 3] bcast_S8x13776x3_S8x13776x1x3_0_1_3 : (⟨S8x13776x3, .i32⟩ : BufTy).Contents (Elt F) → (⟨S8x13776x1x3, .i32⟩ : BufTy).Contents (Elt F)),
    unary main_v36 main_v38 (broadcastInDim S1x1x125x3 ![2, 3] bcast_S125x3_S1x1x125x3_2_3 : (⟨S125x3, .i32⟩ : BufTy).Contents (Elt F) → (⟨S1x1x125x3, .i32⟩ : BufTy).Contents (Elt F)),
    unary main_v37 main_v39 (broadcastInDim S8x13776x125x3 ![0, 1, 2, 3] bcast_S8x13776x1x3_S8x13776x125x3_0_1_2_3 : (⟨S8x13776x1x3, .i32⟩ : BufTy).Contents (Elt F) → (⟨S8x13776x125x3, .i32⟩ : BufTy).Contents (Elt F)),
    unary main_v38 main_v40 (broadcastInDim S8x13776x125x3 ![0, 1, 2, 3] bcast_S1x1x125x3_S8x13776x125x3_0_1_2_3 : (⟨S1x1x125x3, .i32⟩ : BufTy).Contents (Elt F) → (⟨S8x13776x125x3, .i32⟩ : BufTy).Contents (Elt F)),
    binary main_v39 main_v40 main_v41 (addi : (⟨S8x13776x125x3, .i32⟩ : BufTy).Contents (Elt F) → (⟨S8x13776x125x3, .i32⟩ : BufTy).Contents (Elt F) → (⟨S8x13776x125x3, .i32⟩ : BufTy).Contents (Elt F)),
    unary main_v41 main_v42 (sitofp .f32 : (⟨S8x13776x125x3, .i32⟩ : BufTy).Contents (Elt F) → (⟨S8x13776x125x3, .f32⟩ : BufTy).Contents (Elt F)),
    nullary main_cst_9 (constant S_ .f32 0x427E0000#32),
    unary main_cst_9 main_v43 (broadcastInDim S8x13776x125x3 ![] bcast_S_S8x13776x125x3 : (⟨S_, .f32⟩ : BufTy).Contents (Elt F) → (⟨S8x13776x125x3, .f32⟩ : BufTy).Contents (Elt F)),
    binary main_v42 main_v43 main_v44 (subf : (⟨S8x13776x125x3, .f32⟩ : BufTy).Contents (Elt F) → (⟨S8x13776x125x3, .f32⟩ : BufTy).Contents (Elt F) → (⟨S8x13776x125x3, .f32⟩ : BufTy).Contents (Elt F)),
    nullary main_cst_10 (constant S_ .f32 0x3C800000#32),
    unary main_cst_10 main_v45 (broadcastInDim S8x13776x125x3 ![] bcast_S_S8x13776x125x3 : (⟨S_, .f32⟩ : BufTy).Contents (Elt F) → (⟨S8x13776x125x3, .f32⟩ : BufTy).Contents (Elt F)),
    binary main_v44 main_v45 main_v46 (mulf : (⟨S8x13776x125x3, .f32⟩ : BufTy).Contents (Elt F) → (⟨S8x13776x125x3, .f32⟩ : BufTy).Contents (Elt F) → (⟨S8x13776x125x3, .f32⟩ : BufTy).Contents (Elt F)),
    unary main_v9 main_v47 (broadcastInDim S8x13776x1x3 ![0, 1, 3] bcast_S8x13776x3_S8x13776x1x3_0_1_3 : (⟨S8x13776x3, .f32⟩ : BufTy).Contents (Elt F) → (⟨S8x13776x1x3, .f32⟩ : BufTy).Contents (Elt F)),
    unary main_v47 main_v48 (broadcastInDim S8x13776x125x3 ![0, 1, 2, 3] bcast_S8x13776x1x3_S8x13776x125x3_0_1_2_3 : (⟨S8x13776x1x3, .f32⟩ : BufTy).Contents (Elt F) → (⟨S8x13776x125x3, .f32⟩ : BufTy).Contents (Elt F)),
    binary main_v46 main_v48 main_v49 (subf : (⟨S8x13776x125x3, .f32⟩ : BufTy).Contents (Elt F) → (⟨S8x13776x125x3, .f32⟩ : BufTy).Contents (Elt F) → (⟨S8x13776x125x3, .f32⟩ : BufTy).Contents (Elt F)),
    binary main_v49 main_v49 main_v50 (mulf : (⟨S8x13776x125x3, .f32⟩ : BufTy).Contents (Elt F) → (⟨S8x13776x125x3, .f32⟩ : BufTy).Contents (Elt F) → (⟨S8x13776x125x3, .f32⟩ : BufTy).Contents (Elt F)),
    nullary main_cst_11 (constant S_ .f32 0x00000000#32),
    binary main_v50 main_cst_11 main_v51 ((fun x v => Host.reduceAdd x v reducesTo_S8x13776x125x3_S8x13776x125_d3 h_S_) : (⟨S8x13776x125x3, .f32⟩ : BufTy).Contents (Elt F) → (⟨S_, .f32⟩ : BufTy).Contents (Elt F) → (⟨S8x13776x125, .f32⟩ : BufTy).Contents (Elt F)),
    unary main_v51 main_v52 (Host.negf : (⟨S8x13776x125, .f32⟩ : BufTy).Contents (Elt F) → (⟨S8x13776x125, .f32⟩ : BufTy).Contents (Elt F)),
    nullary main_cst_12 (constant S_ .f32 0x3951B717#32),
    unary main_cst_12 main_v53 (broadcastInDim S8x13776x125 ![] bcast_S_S8x13776x125 : (⟨S_, .f32⟩ : BufTy).Contents (Elt F) → (⟨S8x13776x125, .f32⟩ : BufTy).Contents (Elt F)),
    binary main_v52 main_v53 main_v54 (Host.divf : (⟨S8x13776x125, .f32⟩ : BufTy).Contents (Elt F) → (⟨S8x13776x125, .f32⟩ : BufTy).Contents (Elt F) → (⟨S8x13776x125, .f32⟩ : BufTy).Contents (Elt F)),
    unary main_v54 main_v55 (Host.exp : (⟨S8x13776x125, .f32⟩ : BufTy).Contents (Elt F) → (⟨S8x13776x125, .f32⟩ : BufTy).Contents (Elt F)),
    nullary main_c_13 (constantI S_ 32 0#32),
    unary main_c_13 main_v56 (broadcastInDim S8x13776x125x3 ![] bcast_S_S8x13776x125x3 : (⟨S_, .i32⟩ : BufTy).Contents (Elt F) → (⟨S8x13776x125x3, .i32⟩ : BufTy).Contents (Elt F)),
    binary main_v41 main_v56 main_v57 (cmpi .sge : (⟨S8x13776x125x3, .i32⟩ : BufTy).Contents (Elt F) → (⟨S8x13776x125x3, .i32⟩ : BufTy).Contents (Elt F) → (⟨S8x13776x125x3, .i1⟩ : BufTy).Contents (Elt F)),
    nullary main_c_14 (constantI S_ 32 128#32),
    unary main_c_14 main_v58 (broadcastInDim S8x13776x125x3 ![] bcast_S_S8x13776x125x3 : (⟨S_, .i32⟩ : BufTy).Contents (Elt F) → (⟨S8x13776x125x3, .i32⟩ : BufTy).Contents (Elt F)),
    binary main_v41 main_v58 main_v59 (cmpi .slt : (⟨S8x13776x125x3, .i32⟩ : BufTy).Contents (Elt F) → (⟨S8x13776x125x3, .i32⟩ : BufTy).Contents (Elt F) → (⟨S8x13776x125x3, .i1⟩ : BufTy).Contents (Elt F)),
    binary main_v57 main_v59 main_v60 (andi : (⟨S8x13776x125x3, .i1⟩ : BufTy).Contents (Elt F) → (⟨S8x13776x125x3, .i1⟩ : BufTy).Contents (Elt F) → (⟨S8x13776x125x3, .i1⟩ : BufTy).Contents (Elt F)),
    nullary main_c_15 (constantI S_ 1 1#1),
    binary main_v60 main_c_15 main_v61 ((fun x v => Host.reduce IntOp.andi x v reducesTo_S8x13776x125x3_S8x13776x125_d3 h_S_) : (⟨S8x13776x125x3, .i1⟩ : BufTy).Contents (Elt F) → (⟨S_, .i1⟩ : BufTy).Contents (Elt F) → (⟨S8x13776x125, .i1⟩ : BufTy).Contents (Elt F)),
    nullary main_cst_16 (constant S_ .f32 0x00000000#32) ]

/-- The last 67 operations of @main: the masking, the clipping, the accumulations, the quotient. -/
abbrev opsRest : List (HloOp τ sig (Elt F)) :=
  [ TRef.unary (TRef.of (T := ⟨S_, .f32⟩) main_cst_16) (TRef.of (T := ⟨S_, .f32⟩) main_call0_v0) id,
    TRef.unary (TRef.of (T := ⟨S_, .f32⟩) main_call0_v0) (TRef.of (T := ⟨S8x13776x125, .f32⟩) main_call0_v1) (broadcastInDim S8x13776x125 ![] bcast_S_S8x13776x125),
    TRef.ternary (TRef.of (T := ⟨S8x13776x125, .i1⟩) main_v61) (TRef.of (T := ⟨S8x13776x125, .f32⟩) main_v55) (TRef.of (T := ⟨S8x13776x125, .f32⟩) main_call0_v1) (TRef.of (T := ⟨S8x13776x125, .f32⟩) main_v62) select,
    nullary main_c_17 (constantI S_ 32 0#32),
    nullary main_c_18 (constantI S_ 32 127#32),
    TRef.unary (TRef.of (T := ⟨S_, .i32⟩) main_c_17) (TRef.of (T := ⟨S_, .i32⟩) main_call1_v0) id,
    TRef.unary (TRef.of (T := ⟨S_, .i32⟩) main_call1_v0) (TRef.of (T := ⟨S8x13776x125x3, .i32⟩) main_call1_v1) (broadcastInDim S8x13776x125x3 ![] bcast_S_S8x13776x125x3),
    TRef.binary (TRef.of (T := ⟨S8x13776x125x3, .i32⟩) main_call1_v1) (TRef.of (T := ⟨S8x13776x125x3, .i32⟩) main_v41) (TRef.of (T := ⟨S8x13776x125x3, .i32⟩) main_call1_v2) maxsi,
    TRef.unary (TRef.of (T := ⟨S_, .i32⟩) main_c_18) (TRef.of (T := ⟨S_, .i32⟩) main_call1_v3) id,
    TRef.unary (TRef.of (T := ⟨S_, .i32⟩) main_call1_v3) (TRef.of (T := ⟨S8x13776x125x3, .i32⟩) main_call1_v4) (broadcastInDim S8x13776x125x3 ![] bcast_S_S8x13776x125x3),
    TRef.binary (TRef.of (T := ⟨S8x13776x125x3, .i32⟩) main_call1_v4) (TRef.of (T := ⟨S8x13776x125x3, .i32⟩) main_call1_v2) (TRef.of (T := ⟨S8x13776x125x3, .i32⟩) main_v63) minsi,
    nullary main_v64 (iotaInDim S8 32 0),
    unary main_v64 main_v65 (broadcastInDim S8x1x1 ![0] bcast_S8_S8x1x1_0 : (⟨S8, .i32⟩ : BufTy).Contents (Elt F) → (⟨S8x1x1, .i32⟩ : BufTy).Contents (Elt F)),
    nullary main_c_19 (constantI S_ 32 128#32),
    unary main_c_19 main_v66 (broadcastInDim S8x1x1 ![] bcast_S_S8x1x1 : (⟨S_, .i32⟩ : BufTy).Contents (Elt F) → (⟨S8x1x1, .i32⟩ : BufTy).Contents (Elt F)),
    binary main_v65 main_v66 main_v67 (muli : (⟨S8x1x1, .i32⟩ : BufTy).Contents (Elt F) → (⟨S8x1x1, .i32⟩ : BufTy).Contents (Elt F) → (⟨S8x1x1, .i32⟩ : BufTy).Contents (Elt F)),
    unary main_v63 main_v68 ((extractStridedSlice S8x13776x125x1 ![0, 0, 0, 0] · slices_S8x13776x125x3_S8x13776x125x1_0_0_0_0) : (⟨S8x13776x125x3, .i32⟩ : BufTy).Contents (Elt F) → (⟨S8x13776x125x1, .i32⟩ : BufTy).Contents (Elt F)),
    reshape main_v68 main_v69 rfl shapeCasts_S8x13776x125x1_S8x13776x125,
    unary main_v67 main_v70 (broadcastInDim S8x13776x125 ![0, 1, 2] bcast_S8x1x1_S8x13776x125_0_1_2 : (⟨S8x1x1, .i32⟩ : BufTy).Contents (Elt F) → (⟨S8x13776x125, .i32⟩ : BufTy).Contents (Elt F)),
    binary main_v70 main_v69 main_v71 (addi : (⟨S8x13776x125, .i32⟩ : BufTy).Contents (Elt F) → (⟨S8x13776x125, .i32⟩ : BufTy).Contents (Elt F) → (⟨S8x13776x125, .i32⟩ : BufTy).Contents (Elt F)),
    nullary main_c_20 (constantI S_ 32 128#32),
    unary main_c_20 main_v72 (broadcastInDim S8x13776x125 ![] bcast_S_S8x13776x125 : (⟨S_, .i32⟩ : BufTy).Contents (Elt F) → (⟨S8x13776x125, .i32⟩ : BufTy).Contents (Elt F)),
    binary main_v71 main_v72 main_v73 (muli : (⟨S8x13776x125, .i32⟩ : BufTy).Contents (Elt F) → (⟨S8x13776x125, .i32⟩ : BufTy).Contents (Elt F) → (⟨S8x13776x125, .i32⟩ : BufTy).Contents (Elt F)),
    unary main_v63 main_v74 ((extractStridedSlice S8x13776x125x1 ![0, 0, 0, 1] · slices_S8x13776x125x3_S8x13776x125x1_0_0_0_1) : (⟨S8x13776x125x3, .i32⟩ : BufTy).Contents (Elt F) → (⟨S8x13776x125x1, .i32⟩ : BufTy).Contents (Elt F)),
    reshape main_v74 main_v75 rfl shapeCasts_S8x13776x125x1_S8x13776x125,
    binary main_v73 main_v75 main_v76 (addi : (⟨S8x13776x125, .i32⟩ : BufTy).Contents (Elt F) → (⟨S8x13776x125, .i32⟩ : BufTy).Contents (Elt F) → (⟨S8x13776x125, .i32⟩ : BufTy).Contents (Elt F)),
    nullary main_c_21 (constantI S_ 32 128#32),
    unary main_c_21 main_v77 (broadcastInDim S8x13776x125 ![] bcast_S_S8x13776x125 : (⟨S_, .i32⟩ : BufTy).Contents (Elt F) → (⟨S8x13776x125, .i32⟩ : BufTy).Contents (Elt F)),
    binary main_v76 main_v77 main_v78 (muli : (⟨S8x13776x125, .i32⟩ : BufTy).Contents (Elt F) → (⟨S8x13776x125, .i32⟩ : BufTy).Contents (Elt F) → (⟨S8x13776x125, .i32⟩ : BufTy).Contents (Elt F)),
    unary main_v63 main_v79 ((extractStridedSlice S8x13776x125x1 ![0, 0, 0, 2] · slices_S8x13776x125x3_S8x13776x125x1_0_0_0_2) : (⟨S8x13776x125x3, .i32⟩ : BufTy).Contents (Elt F) → (⟨S8x13776x125x1, .i32⟩ : BufTy).Contents (Elt F)),
    reshape main_v79 main_v80 rfl shapeCasts_S8x13776x125x1_S8x13776x125,
    binary main_v78 main_v80 main_v81 (addi : (⟨S8x13776x125, .i32⟩ : BufTy).Contents (Elt F) → (⟨S8x13776x125, .i32⟩ : BufTy).Contents (Elt F) → (⟨S8x13776x125, .i32⟩ : BufTy).Contents (Elt F)),
    reshape main_v81 main_v82 rfl shapeCasts_S8x13776x125_S13776000,
    reshape main_v62 main_v83 rfl shapeCasts_S8x13776x125_S13776000,
    unary main_v62 main_v84 (broadcastInDim S8x13776x125x1 ![0, 1, 2] bcast_S8x13776x125_S8x13776x125x1_0_1_2 : (⟨S8x13776x125, .f32⟩ : BufTy).Contents (Elt F) → (⟨S8x13776x125x1, .f32⟩ : BufTy).Contents (Elt F)),
    unary main_v19 main_v85 (broadcastInDim S1x13776x1x3 ![1, 3] bcast_S13776x3_S1x13776x1x3_1_3 : (⟨S13776x3, .f32⟩ : BufTy).Contents (Elt F) → (⟨S1x13776x1x3, .f32⟩ : BufTy).Contents (Elt F)),
    unary main_v84 main_v86 (broadcastInDim S8x13776x125x3 ![0, 1, 2, 3] bcast_S8x13776x125x1_S8x13776x125x3_0_1_2_3 : (⟨S8x13776x125x1, .f32⟩ : BufTy).Contents (Elt F) → (⟨S8x13776x125x3, .f32⟩ : BufTy).Contents (Elt F)),
    unary main_v85 main_v87 (broadcastInDim S8x13776x125x3 ![0, 1, 2, 3] bcast_S1x13776x1x3_S8x13776x125x3_0_1_2_3 : (⟨S1x13776x1x3, .f32⟩ : BufTy).Contents (Elt F) → (⟨S8x13776x125x3, .f32⟩ : BufTy).Contents (Elt F)),
    binary main_v86 main_v87 main_v88 (mulf : (⟨S8x13776x125x3, .f32⟩ : BufTy).Contents (Elt F) → (⟨S8x13776x125x3, .f32⟩ : BufTy).Contents (Elt F) → (⟨S8x13776x125x3, .f32⟩ : BufTy).Contents (Elt F)),
    reshape main_v88 main_v89 rfl shapeCasts_S8x13776x125x3_S13776000x3,
    nullary main_cst_22 (constant S_ .f32 0x00000000#32),
    unary main_cst_22 main_v90 (broadcastInDim S16777216x3 ![] bcast_S_S16777216x3 : (⟨S_, .f32⟩ : BufTy).Contents (Elt F) → (⟨S16777216x3, .f32⟩ : BufTy).Contents (Elt F)),
    nullary main_c_23 (constantI S_ 32 0#32),
    unary main_c_23 main_v91 (broadcastInDim S13776000 ![] bcast_S_S13776000 : (⟨S_, .i32⟩ : BufTy).Contents (Elt F) → (⟨S13776000, .i32⟩ : BufTy).Contents (Elt F)),
    binary main_v82 main_v91 main_v92 (cmpi .slt : (⟨S13776000, .i32⟩ : BufTy).Contents (Elt F) → (⟨S13776000, .i32⟩ : BufTy).Contents (Elt F) → (⟨S13776000, .i1⟩ : BufTy).Contents (Elt F)),
    nullary main_c_24 (constantI S_ 32 16777216#32),
    unary main_c_24 main_v93 (broadcastInDim S13776000 ![] bcast_S_S13776000 : (⟨S_, .i32⟩ : BufTy).Contents (Elt F) → (⟨S13776000, .i32⟩ : BufTy).Contents (Elt F)),
    binary main_v82 main_v93 main_v94 (addi : (⟨S13776000, .i32⟩ : BufTy).Contents (Elt F) → (⟨S13776000, .i32⟩ : BufTy).Contents (Elt F) → (⟨S13776000, .i32⟩ : BufTy).Contents (Elt F)),
    ternary main_v92 main_v94 main_v82 main_v95 (select : (⟨S13776000, .i1⟩ : BufTy).Contents (Elt F) → (⟨S13776000, .i32⟩ : BufTy).Contents (Elt F) → (⟨S13776000, .i32⟩ : BufTy).Contents (Elt F) → (⟨S13776000, .i32⟩ : BufTy).Contents (Elt F)),
    unary main_v95 main_v96 (broadcastInDim S13776000x1 ![0] bcast_S13776000_S13776000x1_0 : (⟨S13776000, .i32⟩ : BufTy).Contents (Elt F) → (⟨S13776000x1, .i32⟩ : BufTy).Contents (Elt F)),
    ternary main_v90 main_v96 main_v89 main_v97 ((fun x i u => Host.scatterAdd scatter_S16777216x3_S13776000x1_S13776000x3_1_0_0_1 x i u) : (⟨S16777216x3, .f32⟩ : BufTy).Contents (Elt F) → (⟨S13776000x1, .i32⟩ : BufTy).Contents (Elt F) → (⟨S13776000x3, .f32⟩ : BufTy).Contents (Elt F) → (⟨S16777216x3, .f32⟩ : BufTy).Contents (Elt F)),
    nullary main_cst_25 (constant S_ .f32 0x3A83126F#32),
    unary main_cst_25 main_v98 (broadcastInDim S16777216 ![] bcast_S_S16777216 : (⟨S_, .f32⟩ : BufTy).Contents (Elt F) → (⟨S16777216, .f32⟩ : BufTy).Contents (Elt F)),
    nullary main_c_26 (constantI S_ 32 0#32),
    unary main_c_26 main_v99 (broadcastInDim S13776000 ![] bcast_S_S13776000 : (⟨S_, .i32⟩ : BufTy).Contents (Elt F) → (⟨S13776000, .i32⟩ : BufTy).Contents (Elt F)),
    binary main_v82 main_v99 main_v100 (cmpi .slt : (⟨S13776000, .i32⟩ : BufTy).Contents (Elt F) → (⟨S13776000, .i32⟩ : BufTy).Contents (Elt F) → (⟨S13776000, .i1⟩ : BufTy).Contents (Elt F)),
    nullary main_c_27 (constantI S_ 32 16777216#32),
    unary main_c_27 main_v101 (broadcastInDim S13776000 ![] bcast_S_S13776000 : (⟨S_, .i32⟩ : BufTy).Contents (Elt F) → (⟨S13776000, .i32⟩ : BufTy).Contents (Elt F)),
    binary main_v82 main_v101 main_v102 (addi : (⟨S13776000, .i32⟩ : BufTy).Contents (Elt F) → (⟨S13776000, .i32⟩ : BufTy).Contents (Elt F) → (⟨S13776000, .i32⟩ : BufTy).Contents (Elt F)),
    ternary main_v100 main_v102 main_v82 main_v103 (select : (⟨S13776000, .i1⟩ : BufTy).Contents (Elt F) → (⟨S13776000, .i32⟩ : BufTy).Contents (Elt F) → (⟨S13776000, .i32⟩ : BufTy).Contents (Elt F) → (⟨S13776000, .i32⟩ : BufTy).Contents (Elt F)),
    unary main_v103 main_v104 (broadcastInDim S13776000x1 ![0] bcast_S13776000_S13776000x1_0 : (⟨S13776000, .i32⟩ : BufTy).Contents (Elt F) → (⟨S13776000x1, .i32⟩ : BufTy).Contents (Elt F)),
    ternary main_v98 main_v104 main_v83 main_v105 ((fun x i u => Host.scatterAdd scatter_S16777216_S13776000x1_S13776000_n_0_0_1 x i u) : (⟨S16777216, .f32⟩ : BufTy).Contents (Elt F) → (⟨S13776000x1, .i32⟩ : BufTy).Contents (Elt F) → (⟨S13776000, .f32⟩ : BufTy).Contents (Elt F) → (⟨S16777216, .f32⟩ : BufTy).Contents (Elt F)),
    unary main_v105 main_v106 (broadcastInDim S16777216x1 ![0] bcast_S16777216_S16777216x1_0 : (⟨S16777216, .f32⟩ : BufTy).Contents (Elt F) → (⟨S16777216x1, .f32⟩ : BufTy).Contents (Elt F)),
    unary main_v106 main_v107 (broadcastInDim S16777216x3 ![0, 1] bcast_S16777216x1_S16777216x3_0_1 : (⟨S16777216x1, .f32⟩ : BufTy).Contents (Elt F) → (⟨S16777216x3, .f32⟩ : BufTy).Contents (Elt F)),
    binary main_v97 main_v107 main_v108 (Host.divf : (⟨S16777216x3, .f32⟩ : BufTy).Contents (Elt F) → (⟨S16777216x3, .f32⟩ : BufTy).Contents (Elt F) → (⟨S16777216x3, .f32⟩ : BufTy).Contents (Elt F)),
    reshape main_v108 main_v109 rfl shapeCasts_S16777216x3_S8x128x128x128x3,
    unary main_v109 main_v110 ((transpose S8x3x128x128x128 [0, 4, 1, 2, 3] · transposes_S8x128x128x128x3_S8x3x128x128x128_0_4_1_2_3) : (⟨S8x128x128x128x3, .f32⟩ : BufTy).Contents (Elt F) → (⟨S8x3x128x128x128, .f32⟩ : BufTy).Contents (Elt F)) ]

set_option maxRecDepth 16384 in
/-- @main's operations are the two lists end to end. -/
theorem ops_split : (Cert.ReferenceIdeal.ValueP.ops (F := F)) = opsHead ++ opsRest := rfl

/-- What the reference holds after its first 81 operations, from the launch contents `m`. -/
abbrev Vhead (m : (ℓ : Loc nD τ sig) → Buf (Elt F) ℓ) (c : Dev nD) : Valuation τ sig (Elt F) :=
  after (opsHead (F := F)) (launchContents m c)

set_option maxHeartbeats 40000000 in
/-- The last 67 operations over ANY valuation leave, in the result buffer, the reference's tail of the masked weights
    (`%61` the mask, `%55` the Gaussian weights, the zero scalar), the face codes `%19` and the clipped voxels of `%41`. -/
theorem rest_result (V' : Valuation τ sig (Elt F)) :
    (after (opsRest (F := F)) V' (Proc.devRef .tc main_v110) : S8x3x128x128x128.Idx → F .f32)
      = Tail.refOut (Tail.whereOut (V' (Proc.devRef .tc main_v61)) (V' (Proc.devRef .tc main_v55)) (V' (Proc.devRef .tc main_cst_16)))
          (V' (Proc.devRef .tc main_v19)) (Tail.clipOut (V' (Proc.devRef .tc main_v41))) := by
  after_results_simp3
  rfl

set_option maxHeartbeats 59200000 in
/-- On every device, from any memory with zero counters: every weakly fair execution of the reference's @main terminates,
    the result buffer holding the reference's tail of what the first 81 operations computed, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v110)
          = Tail.refOut (Tail.whereOut (Vhead m c (Proc.devRef .tc main_v61)) (Vhead m c (Proc.devRef .tc main_v55)) (Vhead m c (Proc.devRef .tc main_cst_16)))
              (Vhead m c (Proc.devRef .tc main_v19)) (Tail.clipOut (Vhead m c (Proc.devRef .tc main_v41)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v110).trans (by
        show after (Cert.ReferenceIdeal.ValueP.ops (F := F)) _ _ = _
        rw [ops_split, after_append]
        exact rest_result _),
      (h c main_arg0).trans (by after_results_simp3 <;> rfl),
      (h c main_arg1).trans (by after_results_simp3 <;> rfl),
      (h c main_arg2).trans (by after_results_simp3 <;> rfl),
      (h c main_arg3).trans (by after_results_simp3 <;> rfl)⟩)
    (run_seq Cert.ReferenceIdeal.ValueP.scopedRefs_eq Cert.ReferenceIdeal.ValueP.scopedSems_eq defs main (fun _ => Cert.ReferenceIdeal.ValueP.ops)
      Cert.ReferenceIdeal.ValueP.main_eq (fun _ => Cert.ReferenceIdeal.ValueP.ops_sub) m ρ)

end Cert.ReferenceIdeal.HandRun

end
-- ==== Proof.Cross.lean ====
/-
  The two programs' first 81 host operations are the same computation.

  Up to the masking, the kernel's @main and the reference's @main apply the same operations, in the same order, to the same
  arguments: the gathers of the faces' vertices and codes, the face centres, the base voxel, the 125 neighbour voxels, the
  squared distances, the Gaussian weights and the inside-the-volume mask. Read back from launch contents that agree on the
  arguments, the five values the later operations use — the codes, the neighbour voxels, the weights, the mask, the zero
  scalar — are therefore equal in the two programs.
-/
import proofs.«102091_j32057635897979_2_alg».proof.Proof.RRun
import proofs.«102091_j32057635897979_2_alg».proof.Proof.Gen.KernelIdeal.Launch
import proofs.«102091_j32057635897979_2_alg».proof.Proof.LibNary3

noncomputable section

namespace Cert.Cross

open Idealize.ShloMosaic Idealize.ShloMosaic.TcCoe Idealize.SL.Sem Idealize.ShloMosaic.StableHlo

variable {F : FTy → Type} [FloatOps F]

set_option maxHeartbeats 40000000 in
/-- The face codes: the mean of the three vertex codes of every face. -/
theorem codes_eq (VK : Valuation Cert.KernelIdeal.τ Cert.KernelIdeal.sig (Elt F)) (VR : Valuation Cert.ReferenceIdeal.τ Cert.ReferenceIdeal.sig (Elt F))
    (e0 : (VR (Proc.devRef .tc Cert.ReferenceIdeal.main_arg0) : Cert.ReferenceIdeal.S8x6890x3.Idx → F .f32) = VK (Proc.devRef .tc Cert.KernelIdeal.main_arg0))
    (e1 : (VR (Proc.devRef .tc Cert.ReferenceIdeal.main_arg1) : Cert.ReferenceIdeal.S6890x3.Idx → F .f32) = VK (Proc.devRef .tc Cert.KernelIdeal.main_arg1))
    (e2 : (VR (Proc.devRef .tc Cert.ReferenceIdeal.main_arg2) : Cert.ReferenceIdeal.S13776x3.Idx → BitVec 32) = VK (Proc.devRef .tc Cert.KernelIdeal.main_arg2)) :
    (after (Cert.ReferenceIdeal.HandRun.opsHead (F := F)) VR (Proc.devRef .tc Cert.ReferenceIdeal.main_v19) : Cert.ReferenceIdeal.S13776x3.Idx → F .f32)
      = after (Cert.KernelIdeal.Gen.hostOps0 (F := F)) VK (Proc.devRef .tc Cert.KernelIdeal.main_v19) := by
  after_results_simp3
  rw [e1, e2]
  rfl

set_option maxHeartbeats 40000000 in
/-- The zero scalar of the masking. -/
theorem zero_eq (VK : Valuation Cert.KernelIdeal.τ Cert.KernelIdeal.sig (Elt F)) (VR : Valuation Cert.ReferenceIdeal.τ Cert.ReferenceIdeal.sig (Elt F))
    (e0 : (VR (Proc.devRef .tc Cert.ReferenceIdeal.main_arg0) : Cert.ReferenceIdeal.S8x6890x3.Idx → F .f32) = VK (Proc.devRef .tc Cert.KernelIdeal.main_arg0))
    (e1 : (VR (Proc.devRef .tc Cert.ReferenceIdeal.main_arg1) : Cert.ReferenceIdeal.S6890x3.Idx → F .f32) = VK (Proc.devRef .tc Cert.KernelIdeal.main_arg1))
    (e2 : (VR (Proc.devRef .tc Cert.ReferenceIdeal.main_arg2) : Cert.ReferenceIdeal.S13776x3.Idx → BitVec 32) = VK (Proc.devRef .tc Cert.KernelIdeal.main_arg2)) :
    (after (Cert.ReferenceIdeal.HandRun.opsHead (F := F)) VR (Proc.devRef .tc Cert.ReferenceIdeal.main_cst_16) : Cert.ReferenceIdeal.S_.Idx → F .f32)
      = after (Cert.KernelIdeal.Gen.hostOps0 (F := F)) VK (Proc.devRef .tc Cert.KernelIdeal.main_cst_16) := by
  after_results_simp3

set_option maxHeartbeats 40000000 in
/-- The neighbour voxels of every face centre, before clipping. -/
theorem voxels_eq (VK : Valuation Cert.KernelIdeal.τ Cert.KernelIdeal.sig (Elt F)) (VR : Valuation Cert.ReferenceIdeal.τ Cert.ReferenceIdeal.sig (Elt F))
    (e0 : (VR (Proc.devRef .tc Cert.ReferenceIdeal.main_arg0) : Cert.ReferenceIdeal.S8x6890x3.Idx → F .f32) = VK (Proc.devRef .tc Cert.KernelIdeal.main_arg0))
    (e1 : (VR (Proc.devRef .tc Cert.ReferenceIdeal.main_arg1) : Cert.ReferenceIdeal.S6890x3.Idx → F .f32) = VK (Proc.devRef .tc Cert.KernelIdeal.main_arg1))
    (e2 : (VR (Proc.devRef .tc Cert.ReferenceIdeal.main_arg2) : Cert.ReferenceIdeal.S13776x3.Idx → BitVec 32) = VK (Proc.devRef .tc Cert.KernelIdeal.main_arg2)) :
    (after (Cert.ReferenceIdeal.HandRun.opsHead (F := F)) VR (Proc.devRef .tc Cert.ReferenceIdeal.main_v41) : Cert.ReferenceIdeal.S8x13776x125x3.Idx → BitVec 32)
      = after (Cert.KernelIdeal.Gen.hostOps0 (F := F)) VK (Proc.devRef .tc Cert.KernelIdeal.main_v41) := by
  after_results_simp3
  rw [e0, e2]
  rfl

set_option maxHeartbeats 40000000 in
/-- The mask: every coordinate of the neighbour voxel inside the volume. -/
theorem mask_eq (VK : Valuation Cert.KernelIdeal.τ Cert.KernelIdeal.sig (Elt F)) (VR : Valuation Cert.ReferenceIdeal.τ Cert.ReferenceIdeal.sig (Elt F))
    (e0 : (VR (Proc.devRef .tc Cert.ReferenceIdeal.main_arg0) : Cert.ReferenceIdeal.S8x6890x3.Idx → F .f32) = VK (Proc.devRef .tc Cert.KernelIdeal.main_arg0))
    (e1 : (VR (Proc.devRef .tc Cert.ReferenceIdeal.main_arg1) : Cert.ReferenceIdeal.S6890x3.Idx → F .f32) = VK (Proc.devRef .tc Cert.KernelIdeal.main_arg1))
    (e2 : (VR (Proc.devRef .tc Cert.ReferenceIdeal.main_arg2) : Cert.ReferenceIdeal.S13776x3.Idx → BitVec 32) = VK (Proc.devRef .tc Cert.KernelIdeal.main_arg2)) :
    (after (Cert.ReferenceIdeal.HandRun.opsHead (F := F)) VR (Proc.devRef .tc Cert.ReferenceIdeal.main_v61) : Cert.ReferenceIdeal.S8x13776x125.Idx → BitVec 1)
      = after (Cert.KernelIdeal.Gen.hostOps0 (F := F)) VK (Proc.devRef .tc Cert.KernelIdeal.main_v61) := by
  after_results_simp3
  rw [e0, e2]
  rfl

set_option maxHeartbeats 40000000 in
/-- The Gaussian weights before masking. -/
theorem weights_eq (VK : Valuation Cert.KernelIdeal.τ Cert.KernelIdeal.sig (Elt F)) (VR : Valuation Cert.ReferenceIdeal.τ Cert.ReferenceIdeal.sig (Elt F))
    (e0 : (VR (Proc.devRef .tc Cert.ReferenceIdeal.main_arg0) : Cert.ReferenceIdeal.S8x6890x3.Idx → F .f32) = VK (Proc.devRef .tc Cert.KernelIdeal.main_arg0))
    (e1 : (VR (Proc.devRef .tc Cert.ReferenceIdeal.main_arg1) : Cert.ReferenceIdeal.S6890x3.Idx → F .f32) = VK (Proc.devRef .tc Cert.KernelIdeal.main_arg1))
    (e2 : (VR (Proc.devRef .tc Cert.ReferenceIdeal.main_arg2) : Cert.ReferenceIdeal.S13776x3.Idx → BitVec 32) = VK (Proc.devRef .tc Cert.KernelIdeal.main_arg2)) :
    (after (Cert.ReferenceIdeal.HandRun.opsHead (F := F)) VR (Proc.devRef .tc Cert.ReferenceIdeal.main_v55) : Cert.ReferenceIdeal.S8x13776x125.Idx → F .f32)
      = after (Cert.KernelIdeal.Gen.hostOps0 (F := F)) VK (Proc.devRef .tc Cert.KernelIdeal.main_v55) := by
  after_results_simp3
  rw [e0, e2]
  rfl

end Cert.Cross

end
-- ==== Proof.LibScatterIdx.lean ====
/-
  Stable HLO's accumulating scatter, read at one index, for a flat vector of scatter indices.

  The scatter adds every update element to the operand element at its RESULT INDEX: on each operand axis the start read
  (signed, not clamped) off the scatter indices plus the update's window coordinate; an update whose result index leaves
  the operand is dropped. For the two layouts of dimension numbers that a flat index vector of length `M` (stored as an
  `M × 1` array) comes with, the result index is explicit:
    • operand a vector of length `N`, updates a vector of length `M`: update `j` lands on element `idx[j, 0]`;
    • operand an `N × K` matrix, updates an `M × K` matrix: update `(j, k)` lands on element `(idx[j, 0], k)`.
  So the scatter's value at an element is the operand's plus the sum of the updates whose index entry names that
  element (its row).
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.LibScatterIdx

/-- An update index `j` lands on operand index `i` exactly when, on every operand axis, the signed start plus the window
    coordinate is `i`'s coordinate: the in-range test of the result index is then automatic, because `i`'s coordinates
    are in range. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some_inj]
    constructor
    · intro hf a
      have ha := congrArg (fun f : s.Idx => ((f a).val : Int)) hf
      simp only at ha
      rw [← ha]
      exact (Int.toNat_of_nonneg (h a).1).symm
    · intro H
      funext a
      refine Fin.ext ?_
      show (d.start j idx a + (d.window j a : Int)).toNat = (i a).val
      rw [H a]
      exact Int.toNat_natCast _
  · rename_i h
    constructor
    · intro hf
      cases hf
    · intro H
      exfalso
      apply h
      intro a
      rw [H a]
      exact ⟨Int.natCast_nonneg _, by exact_mod_cast (i a).isLt⟩

/-- Vector operand, vector updates, one index entry per update: update `j` lands on element `i` exactly when the index
    entry `idx[j, 0]`, read as a signed integer, is `i`. (The operand's one axis is an inserted window axis, so the window
    coordinate is `0`, and the start on it is the entry the update's own coordinate selects.) -/
theorem resultIdx_vec {N M : Nat}
    (d : ScatterDims (⟨1, ![N]⟩ : Shape) (⟨2, ![M, 1]⟩ : Shape) (⟨1, ![M]⟩ : Shape))
    (huw : d.updateWindowDims = []) (hiw : d.insertedWindowDims = [0])
    (hsd : d.scatterDimsToOperandDims = [0]) (hiv : d.indexVectorDim = 1) {w : Nat}
    (idx : IVec (⟨2, ![M, 1]⟩ : Shape) w) (j : (⟨1, ![M]⟩ : Shape).Idx) (i : (⟨1, ![N]⟩ : Shape).Idx) :
    d.resultIdx? j idx = some i ↔ (idx (ix2 (j 0) 0)).toInt = ((i 0).val : Int) := by
  obtain ⟨uw, iw, sd, iv, wf⟩ := d
  simp only at huw hiw hsd hiv
  subst huw hiw hsd hiv
  have hst : (ScatterDims.mk [] [0] [0] 1 wf).start j idx 0 = (idx (ix2 (j 0) 0)).toInt := by
    unfold ScatterDims.start
    rw [dif_pos (List.mem_singleton.mpr rfl)]
    congr 2
    funext b
    refine Fin.ext ?_
    match b with
    | ⟨0, _⟩ => rfl
    | ⟨1, _⟩ => rfl
  have hwin : (ScatterDims.mk [] [0] [0] 1 wf).window j 0 = 0 := by
    unfold ScatterDims.window
    rw [dif_neg]
    intro h
    exact absurd h (by
      show ¬ ((0 : Fin 1) ∈ ([] : List (Fin 1)))
      exact List.not_mem_nil)
  rw [resultIdx?_eq_some_iff]
  constructor
  · intro H
    have := H 0
    rw [hst, hwin] at this
    simpa using this
  · intro H a
    obtain rfl : a = 0 := Subsingleton.elim _ _
    rw [hst, hwin]
    simpa using H

/-- Matrix operand, matrix updates, one index entry per update row: update `(j₀, j₁)` lands on element `(i₀, i₁)` exactly
    when the index entry `idx[j₀, 0]`, read as a signed integer, is the row `i₀` and the columns agree, `j₁ = i₁`. (The
    operand's row axis is an inserted window axis whose start is the entry the update's row selects; its column axis
    has start `0` and carries the update's column as window coordinate.) -/
theorem resultIdx_rows {N M K : Nat}
    (d : ScatterDims (⟨2, ![N, K]⟩ : Shape) (⟨2, ![M, 1]⟩ : Shape) (⟨2, ![M, K]⟩ : Shape))
    (huw : d.updateWindowDims = [1]) (hiw : d.insertedWindowDims = [0])
    (hsd : d.scatterDimsToOperandDims = [0]) (hiv : d.indexVectorDim = 1) {w : Nat}
    (idx : IVec (⟨2, ![M, 1]⟩ : Shape) w) (j : (⟨2, ![M, K]⟩ : Shape).Idx) (i : (⟨2, ![N, K]⟩ : Shape).Idx) :
    d.resultIdx? j idx = some i ↔
      (idx (ix2 (j 0) 0)).toInt = ((i 0).val : Int) ∧ (j 1).val = (i 1).val := by
  obtain ⟨uw, iw, sd, iv, wf⟩ := d
  simp only at huw hiw hsd hiv
  subst huw hiw hsd hiv
  have hst0 : (ScatterDims.mk [1] [0] [0] 1 wf).start j idx 0 = (idx (ix2 (j 0) 0)).toInt := by
    unfold ScatterDims.start
    rw [dif_pos (List.mem_singleton.mpr rfl)]
    congr 2
    funext b
    refine Fin.ext ?_
    match b with
    | ⟨0, _⟩ => rfl
    | ⟨1, _⟩ => rfl
  have hst1 : (ScatterDims.mk [1] [0] [0] 1 wf).start j idx 1 = 0 := by
    unfold ScatterDims.start
    rw [dif_neg]
    show ¬ ((1 : Fin 2) ∈ ([0] : List (Fin 2)))
    decide
  have hwin0 : (ScatterDims.mk [1] [0] [0] 1 wf).window j 0 = 0 := by
    unfold ScatterDims.window
    rw [dif_neg]
    show ¬ ((0 : Fin 2) ∈ ([1] : List (Fin 2)))
    decide
  have hwin1 : (ScatterDims.mk [1] [0] [0] 1 wf).window j 1 = (j 1).val := by
    unfold ScatterDims.window
    split
    · rfl
    · rename_i h
      exact absurd (show (1 : Fin 2) ∈ ([1] : List (Fin 2)) from List.mem_singleton.mpr rfl) h
  rw [resultIdx?_eq_some_iff]
  constructor
  · intro H
    have h0 := H 0
    have h1 := H 1
    rw [hst0, hwin0] at h0
    rw [hst1, hwin1] at h1
    refine ⟨by simpa using h0, ?_⟩
    have : ((j 1).val : Int) = ((i 1).val : Int) := by simpa using h1
    exact_mod_cast this
  · rintro ⟨H0, H1⟩ a
    match a with
    | ⟨0, _⟩ =>
      show (ScatterDims.mk [1] [0] [0] 1 wf).start j idx 0 + ((ScatterDims.mk [1] [0] [0] 1 wf).window j 0 : Int) = _
      rw [hst0, hwin0]
      simpa using H0
    | ⟨1, _⟩ =>
      show (ScatterDims.mk [1] [0] [0] 1 wf).start j idx 1 + ((ScatterDims.mk [1] [0] [0] 1 wf).window j 1 : Int) = _
      rw [hst1, hwin1, H1]
      simp

/-- The accumulating scatter into a vector, at element `i`, over the extended reals: the operand's element plus the sum
    of the updates `upd j` whose index entry `idx[j, 0]` is `i`. An update whose entry is negative or at least `N` meets no
    `i`: it is dropped. -/
theorem scatterAdd_vec_apply {N M : Nat} {φ : FTy}
    (d : ScatterDims (⟨1, ![N]⟩ : Shape) (⟨2, ![M, 1]⟩ : Shape) (⟨1, ![M]⟩ : Shape))
    (huw : d.updateWindowDims = []) (hiw : d.insertedWindowDims = [0])
    (hsd : d.scatterDimsToOperandDims = [0]) (hiv : d.indexVectorDim = 1) {w : Nat}
    (x : FVec Ideal (⟨1, ![N]⟩ : Shape) φ) (idx : IVec (⟨2, ![M, 1]⟩ : Shape) w)
    (upd : FVec Ideal (⟨1, ![M]⟩ : Shape) φ) (i : (⟨1, ![N]⟩ : Shape).Idx) :
    Host.scatterAdd d x idx upd i =
      x i + ∑ j ∈ Finset.univ.filter
        (fun j : (⟨1, ![M]⟩ : Shape).Idx => (idx (ix2 (j 0) 0)).toInt = ((i 0).val : Int)), upd j := by
  show x i + ∑ j ∈ Finset.univ.filter (fun j => d.resultIdx? j idx = some i), upd j = _
  congr 1
  exact Finset.sum_congr
    (Finset.filter_congr fun j _ => resultIdx_vec d huw hiw hsd hiv idx j i) fun _ _ => rfl

/-- The accumulating scatter of rows into a matrix, at element `(i₀, i₁)`, over the extended reals: the operand's
    element plus the sum of the updates `upd (j₀, j₁)` in column `j₁ = i₁` whose row's index entry `idx[j₀, 0]` is `i₀`. -/
theorem scatterAdd_rows_apply {N M K : Nat} {φ : FTy}
    (d : ScatterDims (⟨2, ![N, K]⟩ : Shape) (⟨2, ![M, 1]⟩ : Shape) (⟨2, ![M, K]⟩ : Shape))
    (huw : d.updateWindowDims = [1]) (hiw : d.insertedWindowDims = [0])
    (hsd : d.scatterDimsToOperandDims = [0]) (hiv : d.indexVectorDim = 1) {w : Nat}
    (x : FVec Ideal (⟨2, ![N, K]⟩ : Shape) φ) (idx : IVec (⟨2, ![M, 1]⟩ : Shape) w)
    (upd : FVec Ideal (⟨2, ![M, K]⟩ : Shape) φ) (i : (⟨2, ![N, K]⟩ : Shape).Idx) :
    Host.scatterAdd d x idx upd i =
      x i + ∑ j ∈ Finset.univ.filter
        (fun j : (⟨2, ![M, K]⟩ : Shape).Idx =>
          (idx (ix2 (j 0) 0)).toInt = ((i 0).val : Int) ∧ (j 1).val = (i 1).val), upd j := by
  show x i + ∑ j ∈ Finset.univ.filter (fun j => d.resultIdx? j idx = some i), upd j = _
  congr 1
  exact Finset.sum_congr
    (Finset.filter_congr fun j _ => resultIdx_rows d huw hiw hsd hiv idx j i) fun _ _ => rfl

end Cert.LibScatterIdx

end
-- ==== Proof.LibSumReindex.lean ====
/-
  Re-indexing filtered finite sums over array indices.

  A sum of the entries `Y j` of an array over the indices `j` at which a companion array `X j` satisfies a predicate does
  not change when both arrays are rearranged by the same bijection of indices. Three rearrangements are read here:
    • a concatenation of four vectors of one length: the sum over the long vector is the sum, over the four pieces, of
      the sum over each piece;
    • a change of shape that keeps the row-major order: the sum over the new shape is the sum over the old one;
    • a matrix summed over the entries of one column whose row satisfies a predicate: the sum over those rows.
-/
import Idealize.ShloMosaic.PureOps.Ideal
import Idealize.ShloMosaic.Lib.Pipeline.Value
import Idealize.ShloMosaic.Lib.ValueIdx

noncomputable section

open scoped BigOperators
open Idealize.ShloMosaic Idealize.ShloMosaic.ValueIdx

namespace Cert.LibSumReindex

/-- Two arrays of one shape read under another shape with the same number of elements (row-major order kept): the sum
    of the second array's entries over the indices where the first array's entry satisfies `P` is the same before and
    after, because the change of shape is a bijection of indices applied to both arrays. -/
theorem sum_filter_shapeCast {s t : Shape} {α β : Type} [AddCommMonoid β] (h : s.ShapeCasts t)
    (X : s.Idx → α) (Y : s.Idx → β) (P : α → Prop) [DecidablePred P] :
    ∑ q ∈ Finset.univ.filter (fun q => P (shapeCast t X h q)), shapeCast t Y h q =
      ∑ p ∈ Finset.univ.filter (fun p => P (X p)), Y p := by
  rw [Finset.sum_filter, Finset.sum_filter]
  exact Equiv.sum_comp (Shape.reshapeEquiv h) (fun p => if P (X p) then Y p else 0)

/-- A matrix summed over the entries `(j₀, j₁)` in column `j₁ = c` whose row `j₀` satisfies `A`: the sum over the rows
    `q` satisfying `A` of the entry `(q, c)`. (The entries of column `c` correspond one to one to the rows.) -/
theorem sum_filter_rows {M K : Nat} {β : Type} [AddCommMonoid β] (g : (⟨2, ![M, K]⟩ : Shape).Idx → β)
    (A : Fin M → Prop) [DecidablePred A] (c : Fin K) :
    ∑ j ∈ @Finset.filter _ (fun j : (⟨2, ![M, K]⟩ : Shape).Idx => A (j 0) ∧ (j 1).val = c.val)
        (fun j => haveI : Decidable (A (j 0)) := ‹DecidablePred A› (j 0); inferInstance) Finset.univ, g j =
      ∑ q ∈ @Finset.filter _ (fun q : (⟨1, ![M]⟩ : Shape).Idx => A (q 0))
        (fun q => ‹DecidablePred A› (q 0)) Finset.univ, g (ix2 (q 0) c) := by
  letI dA2 : ∀ j : (⟨2, ![M, K]⟩ : Shape).Idx, Decidable (A (j 0)) := fun j => ‹DecidablePred A› (j 0)
  letI dA1 : ∀ q : (⟨1, ![M]⟩ : Shape).Idx, Decidable (A (q 0)) := fun q => ‹DecidablePred A› (q 0)
  symm
  refine Finset.sum_bij' (fun q _ => (ix2 (q 0) c : (⟨2, ![M, K]⟩ : Shape).Idx))
    (fun j _ => (ix1 (j 0) : (⟨1, ![M]⟩ : Shape).Idx)) ?_ ?_ ?_ ?_ ?_
  · intro q hq
    rw [Finset.mem_filter] at hq ⊢
    exact ⟨Finset.mem_univ _, hq.2, rfl⟩
  · intro j hj
    rw [Finset.mem_filter] at hj ⊢
    exact ⟨Finset.mem_univ _, hj.2.1⟩
  · intro q _
    exact (eq_ix1 q).symm
  · intro j hj
    rw [Finset.mem_filter] at hj
    funext a
    match a with
    | ⟨0, _⟩ => rfl
    | ⟨1, _⟩ => exact Fin.ext hj.2.2.symm
  · intro q _
    rfl

/-- A length-`n` vector's indices are its coordinates `0, …, n − 1`. -/
def idx1Equiv (n : Nat) : (⟨1, ![n]⟩ : Shape).Idx ≃ Fin n where
  toFun q := q 0
  invFun a := ix1 a
  left_inv q := (eq_ix1 q).symm
  right_inv _ := rfl

/-- A vector of length `N = 4 · M` cut into four consecutive pieces of length `M`: the pair (piece `ch`, position `q` in
    the piece) names the position `ch · M + q` of the long vector, and every position is named once. -/
def chunkEquiv {N M : Nat} (hN : N = 4 * M) :
    Fin 4 × (⟨1, ![M]⟩ : Shape).Idx ≃ (⟨1, ![N]⟩ : Shape).Idx :=
  (Equiv.prodCongr (Equiv.refl (Fin 4)) (idx1Equiv M)).trans
    (finProdFinEquiv.trans ((finCongr hN.symm).trans (idx1Equiv N).symm))

/-- The position the pair (piece `ch`, position `q`) names is `ch · M + q`. -/
theorem chunkEquiv_val {N M : Nat} (hN : N = 4 * M) (ch : Fin 4) (q : (⟨1, ![M]⟩ : Shape).Idx) :
    ((chunkEquiv hN (ch, q)) 0).val = ch.val * M + (q 0).val := by
  show (q 0).val + M * ch.val = ch.val * M + (q 0).val
  rw [Nat.mul_comm, Nat.add_comm]

/-- Four vectors of length `M` laid end to end, read at position `ch · M + q`: the piece `ch` at its position `q` (the
    pieces before it take up `ch · M` positions). -/
theorem concat4_apply {N M : Nat} {γ : Type} (V : Fin 4 → (⟨1, ![M]⟩ : Shape).Idx → γ)
    (hV : Shape.Concatenates (([⟨(⟨1, ![M]⟩ : Shape), V 0⟩, ⟨(⟨1, ![M]⟩ : Shape), V 1⟩, ⟨(⟨1, ![M]⟩ : Shape), V 2⟩,
      ⟨(⟨1, ![M]⟩ : Shape), V 3⟩] : List ((s : Shape) × (s.Idx → γ))).map (·.1)) (⟨1, ![N]⟩ : Shape) 0)
    (ch : Fin 4) (q : (⟨1, ![M]⟩ : Shape).Idx) (j : (⟨1, ![N]⟩ : Shape).Idx)
    (hj : (j 0).val = ch.val * M + (q 0).val) :
    concatenate (⟨1, ![N]⟩ : Shape) 0 [⟨_, V 0⟩, ⟨_, V 1⟩, ⟨_, V 2⟩, ⟨_, V 3⟩] hV j = V ch q := by
  refine concatenate_apply_piece (0 : Fin (⟨1, ![N]⟩ : Shape).rank) _ hV j ch.val ch.isLt (⟨1, ![M]⟩ : Shape) (V ch) ?_ rfl
    (ch.val * M) ?_ q ?_ hj.symm
  · fin_cases ch <;> rfl
  · fin_cases ch
    · show (0 : Nat) = 0 * M
      omega
    · show M + 0 = 1 * M
      omega
    · show M + (M + 0) = 2 * M
      omega
    · show M + (M + (M + 0)) = 3 * M
      omega
  · intro b hb
    exact absurd (Subsingleton.elim _ _) hb

/-- Two lists of four vectors of length `M`, each list laid end to end into a vector of length `N` (so `N = 4 · M`): the
    sum of the second long vector's entries over the positions where the first long vector's entry satisfies `P` is the
    sum over the four pieces of the same filtered sum within the piece — position `ch · M + q` of either long vector is
    position `q` of its piece `ch`, and the positions `ch · M + q` are all the positions, each once. -/
theorem sum_filter_concat4 {N M : Nat} {α β : Type} [AddCommMonoid β]
    (I : Fin 4 → (⟨1, ![M]⟩ : Shape).Idx → α) (U : Fin 4 → (⟨1, ![M]⟩ : Shape).Idx → β)
    (hI : Shape.Concatenates (([⟨(⟨1, ![M]⟩ : Shape), I 0⟩, ⟨(⟨1, ![M]⟩ : Shape), I 1⟩, ⟨(⟨1, ![M]⟩ : Shape), I 2⟩,
      ⟨(⟨1, ![M]⟩ : Shape), I 3⟩] : List ((s : Shape) × (s.Idx → α))).map (·.1)) (⟨1, ![N]⟩ : Shape) 0)
    (hU : Shape.Concatenates (([⟨(⟨1, ![M]⟩ : Shape), U 0⟩, ⟨_, U 1⟩, ⟨_, U 2⟩, ⟨_, U 3⟩] :
      List ((s : Shape) × (s.Idx → β))).map (·.1)) (⟨1, ![N]⟩ : Shape) 0)
    (P : α → Prop) [DecidablePred P] :
    ∑ j ∈ Finset.univ.filter (fun j =>
        P (concatenate (⟨1, ![N]⟩ : Shape) 0 [⟨_, I 0⟩, ⟨_, I 1⟩, ⟨_, I 2⟩, ⟨_, I 3⟩] hI j)),
      concatenate (⟨1, ![N]⟩ : Shape) 0 [⟨_, U 0⟩, ⟨_, U 1⟩, ⟨_, U 2⟩, ⟨_, U 3⟩] hU j =
    ∑ ch : Fin 4, ∑ q ∈ Finset.univ.filter (fun q => P (I ch q)), U ch q := by
  have hN : N = 4 * M := by
    have h := hI.2.2
    have e : (⟨1, ![N]⟩ : Shape).size 0 = N := rfl
    rw [e] at h
    rw [← h]
    show M + (M + (M + (M + 0))) = 4 * M
    omega
  rw [Finset.sum_filter]
  have hR : ∀ ch : Fin 4, ∑ q ∈ Finset.univ.filter (fun q => P (I ch q)), U ch q =
      ∑ q, if P (I ch q) then U ch q else 0 := fun ch => Finset.sum_filter _ _
  rw [Finset.sum_congr rfl fun ch _ => hR ch]
  rw [← Fintype.sum_prod_type (fun p : Fin 4 × (⟨1, ![M]⟩ : Shape).Idx => if P (I p.1 p.2) then U p.1 p.2 else 0)]
  symm
  refine Fintype.sum_equiv (chunkEquiv hN) _ _ ?_
  rintro ⟨ch, q⟩
  rw [concat4_apply I hI ch q _ (chunkEquiv_val hN ch q), concat4_apply U hU ch q _ (chunkEquiv_val hN ch q)]

end Cert.LibSumReindex

end
-- ==== Proof.KSum.lean ====
/-
  The accumulation volume at a cell, as ONE sum over the splats.

  Cell `(b, ch, x, y, z)` of the four-channel volume receives exactly the updates of channel `ch` whose splat is of batch `b`
  and lands on voxel `(x, y, z)`: the four channels' cell numbers `b·2²³ + ch·2²¹ + voxel` are pairwise different across
  batches, channels and voxels (nothing wraps in 32 bits), the four update lists are laid end to end, and each list is the
  row-major flattening of a `[8, 13776, 125]` array. So the cell holds `0 + ∑_{(b', f, k) : b' = b, voxel(b', f, k) = (x, y, z)} upd_ch(b', f, k)`
  with `upd_0 = W` and `upd_{c+1} = W · Cd[f, c]`.
-/
import proofs.«102091_j32057635897979_2_alg».proof.Proof.KTail
import proofs.«102091_j32057635897979_2_alg».proof.Proof.SplatIdx
import proofs.«102091_j32057635897979_2_alg».proof.Proof.LibScatterIdx
import proofs.«102091_j32057635897979_2_alg».proof.Proof.LibSumReindex

noncomputable section

namespace Cert.KernelIdeal.Tail

open Cert.KernelIdeal Idealize.ShloMosaic Idealize.ShloMosaic.ValueIdx
open Cert.KernelIdeal.Facts₀ Cert.SplatIdx

/-- The four channels' offsets `ch · 2²¹`. -/
def offOf : Fin 4 → BitVec 32 := ![0#32, 2097152#32, 4194304#32, 6291456#32]

theorem offOf_toNat (ch : Fin 4) : (offOf ch).toNat = ch.val * 2097152 := by
  fin_cases ch <;> rfl

/-- The four update arrays: the weights, and the weights times each code column. -/
def updOf (W : FVec Ideal S8x13776x125 .f32) (Cd : FVec Ideal S13776x3 .f32) : Fin 4 → FVec Ideal S8x13776x125 .f32 :=
  ![W, mulf W (codeCol0 Cd), mulf W (codeCol1 Cd), mulf W (codeCol2 Cd)]

/-- The negative-index normalisation of a word, read signed, is the cell number `n`. -/
def hits (n : Nat) (w : BitVec 32) : Prop :=
  (Scalar.select (IntOp.cmpi .slt w 0#32) (IntOp.addi w 67108864#32) w).toInt = (n : Int)

instance (n : Nat) : DecidablePred (hits n) := fun w => by unfold hits; infer_instance

/-- Which splats of channel `ch` land on cell `b·2²³ + ch0·2²¹ + v`: those of channel `ch0`, batch `b`, voxel offset `v`. -/
theorem hits_chan (Vx : IVec S8x13776x125x3 32) (hV : ∀ i, (Vx i).toNat ≤ 127) (b : Fin 8) (ch ch0 : Fin 4) (v : Nat) (hv : v < 2097152)
    (p : S8x13776x125.Idx) :
    hits (b.val * 8388608 + ch0.val * 2097152 + v) (addi (baseFlat Vx) (splat32 (offOf ch)) p) ↔ ch = ch0 ∧ pb p = b ∧ voxOf Vx p = v := by
  unfold hits
  have hx : addi (baseFlat Vx) (splat32 (offOf ch)) p = IntOp.addi (IntOp.addi (IntOp.muli (BitVec.ofNat 32 (pb p).val) 8388608#32)
      (IntOp.addi (IntOp.muli (IntOp.addi (IntOp.muli (Vx (ix4 (pb p) (pf p) (pk p) (0 : Fin 3))) 128#32) (Vx (ix4 (pb p) (pf p) (pk p) (1 : Fin 3)))) 128#32) (Vx (ix4 (pb p) (pf p) (pk p) (2 : Fin 3))))) (offOf ch) := by
    show IntOp.addi (baseFlat Vx p) (offOf ch) = _
    rw [p_eq p, baseFlat_apply]
    rfl
  rw [chan_index_toInt (pb p).val (pb p).isLt ch.val ch.isLt (offOf ch) _ _ _ (offOf_toNat ch) (hV _) (hV _) (hV _) _ hx]
  have hvp := vox_lt _ _ _ (hV (ix4 (pb p) (pf p) (pk p) (0 : Fin 3))) (hV (ix4 (pb p) (pf p) (pk p) (1 : Fin 3))) (hV (ix4 (pb p) (pf p) (pk p) (2 : Fin 3)))
  rw [Int.natCast_inj, chan_addr_inj _ _ _ _ _ _ ch.isLt ch0.isLt hvp hv]
  unfold voxOf
  constructor
  · rintro ⟨h1, h2, h3⟩; exact ⟨Fin.ext h2, Fin.ext h1, h3⟩
  · rintro ⟨h1, h2, h3⟩; exact ⟨congrArg Fin.val h2, congrArg Fin.val h1, h3⟩

/-- The cell numbers as the scatter reads them: the column of indices at row `j` is the normalised word of the flat list. -/
theorem idxCol_apply (Vx : IVec S8x13776x125x3 32) (j : S55104000.Idx) :
    idxCol Vx (ix2 (j 0) (0 : Fin 1)) = Scalar.select (IntOp.cmpi .slt (allIdx Vx j) 0#32) (IntOp.addi (allIdx Vx j) 67108864#32) (allIdx Vx j) := by
  unfold idxCol
  exact (broadcastInDim_apply _ bcast_S55104000_S55104000x1_0 _ (ix2 (j 0) (0 : Fin 1)) j (fun a => match a with
    | ⟨0, _⟩ => by show (j 0).val = if (55104000 : Nat) = 1 then 0 else (j 0).val; rw [if_neg (by decide)])).trans rfl

/-- **The accumulation volume at a cell** is zero plus the sum, over the splats of batch `b` landing on voxel `(x, y, z)`,
    of channel `ch0`'s update. -/
theorem combined_apply (W : FVec Ideal S8x13776x125 .f32) (Cd : FVec Ideal S13776x3 .f32) (Vx : IVec S8x13776x125x3 32)
    (hV : ∀ i, (Vx i).toNat ≤ 127) (b : Fin 8) (ch0 : Fin 4) (x y z : Fin 128) :
    combined (F := Ideal) W Cd Vx (ix5 b ch0 x y z)
      = Ideal.ofBits .f32 0x00000000#32 + ∑ p ∈ Finset.univ.filter (fun p : S8x13776x125.Idx => pb p = b ∧ voxOf Vx p = (x.val * 128 + y.val) * 128 + z.val), updOf W Cd ch0 p := by
  have hv : (x.val * 128 + y.val) * 128 + z.val < 2097152 := by have := x.isLt; have := y.isLt; have := z.isLt; omega
  have hcell : ((((b.val * 4 + ch0.val) * 128 + x.val) * 128 + y.val) * 128 + z.val) < 67108864 := by
    have := x.isLt; have := y.isLt; have := z.isLt; have := b.isLt; have := ch0.isLt; omega
  unfold combined
  refine (shapeCast_apply _ shapeCasts_S67108864_S8x4x128x128x128 (ix5 b ch0 x y z)
    (ix1 (⟨((((b.val * 4 + ch0.val) * 128 + x.val) * 128 + y.val) * 128 + z.val), hcell⟩ : Fin 67108864)) ?_).trans ?_
  · rw [Shape.rowMajor_val_one, Shape.rowMajor_val_five]; rfl
  rw [Cert.LibScatterIdx.scatterAdd_vec_apply scatter_S67108864_S55104000x1_S55104000_n_0_0_1 rfl rfl rfl rfl]
  refine congrArg (fun s => Ideal.ofBits .f32 0x00000000#32 + s) ?_
  -- the updates that land on the cell, through the index column
  have hfilter : (Finset.univ.filter (fun j : S55104000.Idx => (idxCol Vx (ix2 (j 0) (0 : Fin 1))).toInt
        = (((ix1 (⟨((((b.val * 4 + ch0.val) * 128 + x.val) * 128 + y.val) * 128 + z.val), hcell⟩ : Fin 67108864) : S67108864.Idx) 0).val : Int)))
      = Finset.univ.filter (fun j : S55104000.Idx => hits (b.val * 8388608 + ch0.val * 2097152 + ((x.val * 128 + y.val) * 128 + z.val)) (allIdx Vx j)) := by
    refine Finset.filter_congr (fun j _ => ?_)
    rw [idxCol_apply]
    unfold hits
    show _ = ((((((b.val * 4 + ch0.val) * 128 + x.val) * 128 + y.val) * 128 + z.val : Nat) : Int)) ↔ _
    have e : ((((b.val * 4 + ch0.val) * 128 + x.val) * 128 + y.val) * 128 + z.val) = b.val * 8388608 + ch0.val * 2097152 + ((x.val * 128 + y.val) * 128 + z.val) := by omega
    rw [e]
  rw [hfilter]
  -- the four lists end to end, each a flattened [8, 13776, 125] array
  have h4 := Cert.LibSumReindex.sum_filter_concat4 (N := 55104000) (M := 13776000)
    (fun ch : Fin 4 => chanIdx Vx (offOf ch))
    (fun ch : Fin 4 => shapeCast S13776000 (updOf W Cd ch) shapeCasts_S8x13776x125_S13776000)
    concatenates_S13776000_S13776000_S13776000_S13776000_S55104000_d0
    concatenates_S13776000_S13776000_S13776000_S13776000_S55104000_d0
    (hits (b.val * 8388608 + ch0.val * 2097152 + ((x.val * 128 + y.val) * 128 + z.val)))
  refine (Eq.trans ?_ h4).trans ?_
  · rfl
  -- each list re-indexed by the splat, and the channels other than `ch0` contribute nothing
  have hch : ∀ ch : Fin 4,
      (∑ q ∈ Finset.univ.filter (fun q : S13776000.Idx => hits (b.val * 8388608 + ch0.val * 2097152 + ((x.val * 128 + y.val) * 128 + z.val)) (chanIdx Vx (offOf ch) q)),
          shapeCast S13776000 (updOf W Cd ch) shapeCasts_S8x13776x125_S13776000 q)
        = if ch = ch0 then ∑ p ∈ Finset.univ.filter (fun p : S8x13776x125.Idx => pb p = b ∧ voxOf Vx p = (x.val * 128 + y.val) * 128 + z.val), updOf W Cd ch p else 0 := by
    intro ch
    unfold chanIdx
    rw [Cert.LibSumReindex.sum_filter_shapeCast shapeCasts_S8x13776x125_S13776000 (addi (baseFlat Vx) (splat32 (offOf ch))) (updOf W Cd ch)
      (hits (b.val * 8388608 + ch0.val * 2097152 + ((x.val * 128 + y.val) * 128 + z.val)))]
    by_cases hc : ch = ch0
    · rw [if_pos hc]
      refine Finset.sum_congr (Finset.filter_congr (fun p _ => ?_)) (fun _ _ => rfl)
      rw [hits_chan Vx hV b ch ch0 _ hv p]
      exact ⟨fun h => h.2, fun h => ⟨hc, h⟩⟩
    · rw [if_neg hc]
      refine Finset.sum_eq_zero (fun p hp => ?_)
      rw [Finset.mem_filter, hits_chan Vx hV b ch ch0 _ hv p] at hp
      exact absurd hp.2.1 hc
  rw [Finset.sum_congr rfl (fun ch _ => hch ch), Finset.sum_ite_eq' Finset.univ ch0, if_pos (Finset.mem_univ _)]

end Cert.KernelIdeal.Tail

end
-- ==== Proof.RSum.lean ====
/-
  The reference's output at a voxel, as TWO sums over the splats.

  Row `n = b·2²¹ + voxel` of the two flat volumes receives exactly the updates whose splat is of batch `b` and lands on that
  voxel: the row numbers `((b·128 + V0)·128 + V1)·128 + V2` do not wrap in 32 bits and are different across batches and
  voxels, the update lists are the row-major flattening of a `[8, 13776, 125]` array (of `[8, 13776, 125, 3]` for the three
  code columns, whose rows are the same splats), and the index column is that flattening of the voxel numbers. So the output
  at `(b, c, x, y, z)` is `(0 + ∑ W·Cd[face, c]) / (10⁻³ + ∑ W)`, both sums over the splats of batch `b` on voxel `(x, y, z)`.
-/
import proofs.«102091_j32057635897979_2_alg».proof.Proof.RTail
import proofs.«102091_j32057635897979_2_alg».proof.Proof.SplatIdx
import proofs.«102091_j32057635897979_2_alg».proof.Proof.LibScatterIdx
import proofs.«102091_j32057635897979_2_alg».proof.Proof.LibSumReindex

noncomputable section

namespace Cert.ReferenceIdeal.Tail

open Cert.ReferenceIdeal Idealize.ShloMosaic Idealize.ShloMosaic.ValueIdx
open Cert.ReferenceIdeal.Facts₀ Cert.SplatIdx

/-- The negative-index normalisation of a word, read signed, is the row number `n`. -/
def hitsR (n : Nat) (w : BitVec 32) : Prop :=
  (Scalar.select (IntOp.cmpi .slt w 0#32) (IntOp.addi w 16777216#32) w).toInt = (n : Int)

instance (n : Nat) : DecidablePred (hitsR n) := fun w => by unfold hitsR; infer_instance

/-- Which splats land on row `b·2²¹ + v`: those of batch `b` and voxel offset `v`. -/
theorem hits_last (Vx : IVec S8x13776x125x3 32) (hV : ∀ i, (Vx i).toNat ≤ 127) (b : Fin 8) (v : Nat) (hv : v < 2097152)
    (p : S8x13776x125.Idx) :
    hitsR (b.val * 2097152 + v) (lastFlat Vx p) ↔ pb p = b ∧ voxOf Vx p = v := by
  unfold hitsR
  have hx : lastFlat Vx p = IntOp.addi (IntOp.muli (IntOp.addi (IntOp.muli (IntOp.addi (IntOp.muli (BitVec.ofNat 32 (pb p).val) 128#32)
      (Vx (ix4 (pb p) (pf p) (pk p) (0 : Fin 3)))) 128#32) (Vx (ix4 (pb p) (pf p) (pk p) (1 : Fin 3)))) 128#32) (Vx (ix4 (pb p) (pf p) (pk p) (2 : Fin 3))) := by
    rw [p_eq p, lastFlat_apply]
    rfl
  rw [last_index_toInt (pb p).val (pb p).isLt _ _ _ (hV _) (hV _) (hV _) _ hx]
  have hvp := vox_lt _ _ _ (hV (ix4 (pb p) (pf p) (pk p) (0 : Fin 3))) (hV (ix4 (pb p) (pf p) (pk p) (1 : Fin 3))) (hV (ix4 (pb p) (pf p) (pk p) (2 : Fin 3)))
  rw [Int.natCast_inj, last_addr_inj _ _ _ _ hvp hv]
  unfold voxOf
  constructor
  · rintro ⟨h1, h2⟩; exact ⟨Fin.ext h1, h2⟩
  · rintro ⟨h1, h2⟩; exact ⟨congrArg Fin.val h1, h2⟩

/-- The rows of the index column that name row `n` are the flat positions whose normalised word is `n`. -/
theorem idxColR_filter (Vx : IVec S8x13776x125x3 32) (n : Nat) :
    (Finset.univ.filter (fun j : S13776000.Idx => (idxColR Vx (ix2 (j 0) (0 : Fin 1))).toInt = (n : Int)))
      = Finset.univ.filter (fun j : S13776000.Idx => hitsR n (flatIdx Vx j)) := by
  refine Finset.filter_congr (fun j _ => ?_)
  rw [idxColR_apply]
  rfl

/-- **The weight sum of a voxel**: `10⁻³` plus the weights of the splats of batch `b` landing on voxel `(x, y, z)`. -/
theorem wSum_apply (W : FVec Ideal S8x13776x125 .f32) (Vx : IVec S8x13776x125x3 32) (hV : ∀ i, (Vx i).toNat ≤ 127)
    (b : Fin 8) (x y z : Fin 128) (hn : ((b.val * 128 + x.val) * 128 + y.val) * 128 + z.val < 16777216) :
    wSum (F := Ideal) W Vx (ix1 (⟨((b.val * 128 + x.val) * 128 + y.val) * 128 + z.val, hn⟩ : Fin 16777216))
      = Ideal.ofBits .f32 0x3A83126F#32 + ∑ p ∈ Finset.univ.filter (fun p : S8x13776x125.Idx =>
          pb p = b ∧ voxOf Vx p = (x.val * 128 + y.val) * 128 + z.val), W p := by
  have hv : (x.val * 128 + y.val) * 128 + z.val < 2097152 := by have := x.isLt; have := y.isLt; have := z.isLt; omega
  unfold wSum
  rw [Cert.LibScatterIdx.scatterAdd_vec_apply scatter_S16777216_S13776000x1_S13776000_n_0_0_1 rfl rfl rfl rfl]
  refine congrArg (fun s => Ideal.ofBits .f32 0x3A83126F#32 + s) ?_
  refine (Eq.trans ?_ (congrArg (fun S : Finset S13776000.Idx => ∑ j ∈ S, shapeCast S13776000 W shapeCasts_S8x13776x125_S13776000 j)
    (idxColR_filter Vx (((b.val * 128 + x.val) * 128 + y.val) * 128 + z.val)))).trans ?_
  · rfl
  unfold flatIdx
  rw [Cert.LibSumReindex.sum_filter_shapeCast shapeCasts_S8x13776x125_S13776000 (lastFlat Vx) W
    (hitsR (((b.val * 128 + x.val) * 128 + y.val) * 128 + z.val))]
  refine Finset.sum_congr (Finset.filter_congr (fun p _ => ?_)) (fun _ _ => rfl)
  have e : ((b.val * 128 + x.val) * 128 + y.val) * 128 + z.val = b.val * 2097152 + ((x.val * 128 + y.val) * 128 + z.val) := by omega
  rw [e]
  exact hits_last Vx hV b _ hv p

/-- **The code sum of a voxel, column `c`**: zero plus `W · Cd[face, c]` over the splats of batch `b` landing on voxel `(x, y, z)`. -/
theorem semSum_apply (W : FVec Ideal S8x13776x125 .f32) (Cd : FVec Ideal S13776x3 .f32) (Vx : IVec S8x13776x125x3 32)
    (hV : ∀ i, (Vx i).toNat ≤ 127) (b : Fin 8) (c : Fin 3) (x y z : Fin 128)
    (hn : ((b.val * 128 + x.val) * 128 + y.val) * 128 + z.val < 16777216) :
    semSum (F := Ideal) W Cd Vx (ix2 (⟨((b.val * 128 + x.val) * 128 + y.val) * 128 + z.val, hn⟩ : Fin 16777216) c)
      = Ideal.ofBits .f32 0x00000000#32 + ∑ p ∈ Finset.univ.filter (fun p : S8x13776x125.Idx =>
          pb p = b ∧ voxOf Vx p = (x.val * 128 + y.val) * 128 + z.val), W p * Cd (ix2 (pf p) c) := by
  have hv : (x.val * 128 + y.val) * 128 + z.val < 2097152 := by have := x.isLt; have := y.isLt; have := z.isLt; omega
  unfold semSum
  rw [Cert.LibScatterIdx.scatterAdd_rows_apply scatter_S16777216x3_S13776000x1_S13776000x3_1_0_0_1 rfl rfl rfl rfl]
  refine congrArg (fun s => Ideal.ofBits .f32 0x00000000#32 + s) ?_
  -- the rows of column `c`
  refine (Eq.trans ?_ (Cert.LibSumReindex.sum_filter_rows (contrib W Cd)
    (fun a : Fin 13776000 => (idxColR Vx (ix2 a (0 : Fin 1))).toInt = ((((b.val * 128 + x.val) * 128 + y.val) * 128 + z.val : Nat) : Int)) c)).trans ?_
  · rfl
  -- each row is the splat's product, read through the same flat list as the weights
  rw [Finset.sum_congr rfl (fun q _ => contrib_row W Cd q c)]
  refine (Eq.trans ?_ (congrArg (fun S : Finset S13776000.Idx => ∑ q ∈ S,
      shapeCast S13776000 (fun p : S8x13776x125.Idx => FloatOps.mulf (W p) (Cd (ix2 (⟨(p 1).val, (p 1).isLt⟩ : Fin 13776) c)))
        shapeCasts_S8x13776x125_S13776000 q)
    (idxColR_filter Vx (((b.val * 128 + x.val) * 128 + y.val) * 128 + z.val)))).trans ?_
  · rfl
  unfold flatIdx
  rw [Cert.LibSumReindex.sum_filter_shapeCast shapeCasts_S8x13776x125_S13776000 (lastFlat Vx)
    (fun p : S8x13776x125.Idx => FloatOps.mulf (W p) (Cd (ix2 (⟨(p 1).val, (p 1).isLt⟩ : Fin 13776) c)))
    (hitsR (((b.val * 128 + x.val) * 128 + y.val) * 128 + z.val))]
  refine Finset.sum_congr (Finset.filter_congr (fun p _ => ?_)) (fun _ _ => rfl)
  have e : ((b.val * 128 + x.val) * 128 + y.val) * 128 + z.val = b.val * 2097152 + ((x.val * 128 + y.val) * 128 + z.val) := by omega
  rw [e]
  exact hits_last Vx hV b _ hv p

/-- **The output at a voxel and a column**: the code sum over the weight sum, each over the splats of batch `b` landing
    on voxel `(x, y, z)`. -/
theorem refOut_apply (W : FVec Ideal S8x13776x125 .f32) (Cd : FVec Ideal S13776x3 .f32) (Vx : IVec S8x13776x125x3 32)
    (hV : ∀ i, (Vx i).toNat ≤ 127) (b : Fin 8) (c : Fin 3) (x y z : Fin 128) :
    refOut (F := Ideal) W Cd Vx (ix5 b c x y z)
      = Ideal.div (Ideal.ofBits .f32 0x00000000#32 + ∑ p ∈ Finset.univ.filter (fun p : S8x13776x125.Idx => Cert.SplatIdx.pb p = b ∧ Cert.SplatIdx.voxOf Vx p = (x.val * 128 + y.val) * 128 + z.val), W p * Cd (ix2 (Cert.SplatIdx.pf p) c))
          (Ideal.ofBits .f32 0x3A83126F#32 + ∑ p ∈ Finset.univ.filter (fun p : S8x13776x125.Idx => Cert.SplatIdx.pb p = b ∧ Cert.SplatIdx.voxOf Vx p = (x.val * 128 + y.val) * 128 + z.val), W p) := by
  have hn : ((b.val * 128 + x.val) * 128 + y.val) * 128 + z.val < 16777216 := by
    have := b.isLt; have := x.isLt; have := y.isLt; have := z.isLt; omega
  rw [refOut_apply_div W Cd Vx b c x y z hn, semSum_apply W Cd Vx hV b c x y z hn, wSum_apply W Vx hV b x y z hn]
  rfl

end Cert.ReferenceIdeal.Tail

end
-- ==== Proof.Agree.lean ====
/-
  The two programs' tails are one function.

  From the same splat weights `W`, face codes `Cd` and clipped voxel coordinates `Vx`, the kernel normalises its four-channel
  accumulation volume — `vol[b, c+1, v] / (vol[b, 0, v] + ε)` — and the reference divides its channel-last weighted code sums by
  its weight sums started from `ε`. At a cell `(b, c, v)` both numerators are `0 + ∑_{splats of batch b on voxel v} W · Cd[face, c]`,
  and the denominators are `(0 + ∑ W) + ε` and `ε + ∑ W` over the same splats: equal on the extended reals, where addition is
  commutative and `0` is neutral.
-/
import proofs.«102091_j32057635897979_2_alg».proof.Proof.KSum
import proofs.«102091_j32057635897979_2_alg».proof.Proof.RSum
import proofs.«102091_j32057635897979_2_alg».proof.Proof.KNorm

noncomputable section

namespace Cert.Agree

open Idealize.ShloMosaic Idealize.ShloMosaic.ValueIdx Cert.SplatIdx
open Cert.KernelIdeal.Tail

/-- Channel `c + 1`'s update of a splat is its weight times its face's code `c`; channel 0's is its weight. -/
theorem updOf_succ (W : FVec Ideal Cert.KernelIdeal.S8x13776x125 .f32) (Cd : FVec Ideal Cert.KernelIdeal.S13776x3 .f32) (c : Fin 3) (p : Pt) :
    updOf W Cd (⟨c.val + 1, Nat.succ_lt_succ c.isLt⟩ : Fin 4) p = W p * Cd (ix2 (pf p) c) := by
  have hp := p_eq p
  fin_cases c
  · show FloatOps.mulf (W p) (codeCol0 Cd p) = _
    rw [hp, codeCol0_apply]; rfl
  · show FloatOps.mulf (W p) (codeCol1 Cd p) = _
    rw [hp, codeCol1_apply]; rfl
  · show FloatOps.mulf (W p) (codeCol2 Cd p) = _
    rw [hp, codeCol2_apply]; rfl

theorem updOf_zero (W : FVec Ideal Cert.KernelIdeal.S8x13776x125 .f32) (Cd : FVec Ideal Cert.KernelIdeal.S13776x3 .f32) (p : Pt) :
    updOf W Cd (0 : Fin 4) p = W p := rfl

/-- **The kernel's normalised volume is the reference's result**, as functions of the weights, codes and clipped voxels. -/
theorem normalize_combined_eq_refOut (W : FVec Ideal Cert.KernelIdeal.S8x13776x125 .f32) (Cd : FVec Ideal Cert.KernelIdeal.S13776x3 .f32)
    (Vx : IVec Cert.KernelIdeal.S8x13776x125x3 32) (hV : ∀ i, (Vx i).toNat ≤ 127) :
    Cert.KNorm.normalize (combined (F := Ideal) W Cd Vx) = Cert.ReferenceIdeal.Tail.refOut (F := Ideal) W Cd Vx := by
  funext i
  obtain ⟨b, c, x, y, z, rfl⟩ : ∃ (b : Fin 8) (c : Fin 3) (x y z : Fin 128), i = ix5 b c x y z := ⟨i 0, i 1, i 2, i 3, i 4, eq_ix5 i⟩
  rw [Cert.ReferenceIdeal.Tail.refOut_apply W Cd Vx hV b c x y z, Cert.KNorm.normalize_apply,
    combined_apply W Cd Vx hV b _ x y z, combined_apply W Cd Vx hV b (0 : Fin 4) x y z]
  simp only [updOf_succ, updOf_zero]
  show Ideal.div _ (_ + Ideal.ofBits .f32 0x3A83126F#32) = _
  rw [Ideal.ofBits_zero_f32, zero_add, zero_add]
  exact congrArg (Ideal.div _) (add_comm _ _)

end Cert.Agree

end
-- ==== Proof.lean ====
/-
  Mesh-to-voxel Gaussian splatting: the kernel's normalised four-channel volume against the reference's channel-last quotient.

  Both programs compute, operation for operation the same, the Gaussian weights `W[b, f, k]` of the distance from a face centre to a
  neighbouring voxel centre (masked to zero outside the volume), the face codes `Cd[f, c]` and the voxel coordinates clipped into
  `[0, 127]³`. The kernel then adds the four update lists `W, W·Cd[·,0], W·Cd[·,1], W·Cd[·,2]` into ONE zero volume
  `[8, 4, 128, 128, 128]` at the cells `b·2²³ + ch·2²¹ + voxel`, and its region, block by block, writes
  `out[b, c, v] = vol[b, c+1, v] / (vol[b, 0, v] + ε)`. The reference adds `W·Cd` into a zero array `[8·128³, 3]` and `W` into an
  array `[8·128³]` started at `ε`, at the rows `b·2²¹ + voxel`, divides, and moves the channel axis to the front.
  At the ideal instance an accumulating scatter is the exact sum of the updates that land on a cell, so both results are, at
  `(b, c, v)`, `(0 + ∑ W·Cd[face, c]) / (ε + ∑ W)` over the splats of batch `b` on voxel `v` — the kernel's denominator being
  `(0 + ∑ W) + ε`, equal by commutativity on the extended reals. No finiteness of the inputs is used.

  The frames of the two kernel programs (five stretches of host operations, then one region on an 8 × 4 grid whose body loads
  the input block, divides and stores the output block) are in FrameK / FrameKI; the kernel's value in ValueKI (blocks to array)
  and KHost (the host operations read back over what the first stretch computed); the reference's run in RefRun / RRun; that the two
  programs' first stretches compute the same five values in Cross; the two tails as sums over the splats in KSum / RSum; and
  their agreement in Agree.
-/
import proofs.«102091_j32057635897979_2_alg».proof.Defs
import proofs.«102091_j32057635897979_2_alg».proof.Proof.Gen.Kernel
import proofs.«102091_j32057635897979_2_alg».proof.Proof.Gen.Kernel.Skeleton
import proofs.«102091_j32057635897979_2_alg».proof.Proof.Gen.Kernel.Launch
import proofs.«102091_j32057635897979_2_alg».proof.Proof.Gen.Kernel.Points
import proofs.«102091_j32057635897979_2_alg».proof.Proof.Gen.KernelIdeal
import proofs.«102091_j32057635897979_2_alg».proof.Proof.Gen.KernelIdeal.Skeleton
import proofs.«102091_j32057635897979_2_alg».proof.Proof.Gen.KernelIdeal.Launch
import proofs.«102091_j32057635897979_2_alg».proof.Proof.Gen.KernelIdeal.Points
import proofs.«102091_j32057635897979_2_alg».proof.Proof.Gen.ReferenceIdeal
import proofs.«102091_j32057635897979_2_alg».proof.Proof.Gen.Pre_finite_inputs
import proofs.«102091_j32057635897979_2_alg».proof.Proof.FrameK
import proofs.«102091_j32057635897979_2_alg».proof.Proof.FrameKI
import proofs.«102091_j32057635897979_2_alg».proof.Proof.ValueKI
import proofs.«102091_j32057635897979_2_alg».proof.Proof.KHost
import proofs.«102091_j32057635897979_2_alg».proof.Proof.RRun
import proofs.«102091_j32057635897979_2_alg».proof.Proof.Cross
import proofs.«102091_j32057635897979_2_alg».proof.Proof.Agree
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs to the end, faults nowhere and leaves its arguments as they were. -/
theorem frame_k : Cert.frame_Kernel := fun m ρ _ => Cert.Kernel.Hand.frame m ρ
/-- So does the idealized kernel program. -/
theorem frame_ki : Cert.frame_KernelIdeal := fun m ρ _ => Cert.KernelIdeal.Hand.frame m ρ
/-- So does the reference: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

set_option maxHeartbeats 4000000 in
/-- The reference's tail of what ITS first stretch computed is the kernel's normalised input array, when the launch contents
    agree on the arguments: the first stretches compute the same five values (Cross), the kernel's remaining host operations
    build the accumulation volume of them (KHost), and the two tails agree (Agree). -/
theorem tails_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (e0 : (launchContents m' c (Proc.devRef .tc Cert.ReferenceIdeal.main_arg0) : Cert.ReferenceIdeal.S8x6890x3.Idx → Ideal .f32) = launchContents m c (Proc.devRef .tc Cert.KernelIdeal.main_arg0))
    (e1 : (launchContents m' c (Proc.devRef .tc Cert.ReferenceIdeal.main_arg1) : Cert.ReferenceIdeal.S6890x3.Idx → Ideal .f32) = launchContents m c (Proc.devRef .tc Cert.KernelIdeal.main_arg1))
    (e2 : (launchContents m' c (Proc.devRef .tc Cert.ReferenceIdeal.main_arg2) : Cert.ReferenceIdeal.S13776x3.Idx → BitVec 32) = launchContents m c (Proc.devRef .tc Cert.KernelIdeal.main_arg2)) :
    (Cert.ReferenceIdeal.Tail.refOut (F := Ideal)
        (Cert.ReferenceIdeal.Tail.whereOut (Cert.ReferenceIdeal.HandRun.Vhead m' c (Proc.devRef .tc Cert.ReferenceIdeal.main_v61))
          (Cert.ReferenceIdeal.HandRun.Vhead m' c (Proc.devRef .tc Cert.ReferenceIdeal.main_v55))
          (Cert.ReferenceIdeal.HandRun.Vhead m' c (Proc.devRef .tc Cert.ReferenceIdeal.main_cst_16)))
        (Cert.ReferenceIdeal.HandRun.Vhead m' c (Proc.devRef .tc Cert.ReferenceIdeal.main_v19))
        (Cert.ReferenceIdeal.Tail.clipOut (Cert.ReferenceIdeal.HandRun.Vhead m' c (Proc.devRef .tc Cert.ReferenceIdeal.main_v41)))
      : Cert.ReferenceIdeal.S8x3x128x128x128.Idx → Ideal .f32)
      = Cert.KNorm.normalize (Cert.KernelIdeal.Hand.V m c Cert.KernelIdeal.main_v123 : Cert.KernelIdeal.S8x4x128x128x128.Idx → Ideal .f32) := by
  rw [Cert.KernelIdeal.HostValue.V_volume m c]
  unfold Cert.ReferenceIdeal.HandRun.Vhead Cert.KernelIdeal.HostValue.Vpre
  rw [Cert.Cross.codes_eq (launchContents m c) (launchContents m' c) e0 e1 e2,
    Cert.Cross.zero_eq (launchContents m c) (launchContents m' c) e0 e1 e2,
    Cert.Cross.voxels_eq (launchContents m c) (launchContents m' c) e0 e1 e2,
    Cert.Cross.mask_eq (launchContents m c) (launchContents m' c) e0 e1 e2,
    Cert.Cross.weights_eq (launchContents m c) (launchContents m' c) e0 e1 e2]
  exact (Cert.Agree.normalize_combined_eq_refOut _ _ _ (fun i => Cert.KernelIdeal.Tail.clipOut_le _ i)).symm

set_option maxRecDepth 65536 in
/-- At the ideal instance the two programs, run from memories that agree on the arguments, end with the same result: the
    kernel's normalised accumulation volume is the reference's quotient, both of the same masked weights, codes and clipped
    voxels. -/
theorem algebraic : Cert.algebraic_KernelIdeal_ReferenceIdeal := by
  intro m ρ m' ρ' _ hagree
  refine ⟨_, Cert.KernelIdeal.HandValue.kernel_value m ρ, ?_⟩
  refine (θ_run Cert.ReferenceIdeal.defs _ _).mono (fun _ h c => ⟨(h c).1.trans ?_, (h c).2⟩)
    (Cert.ReferenceIdeal.HandRun.run (F := Ideal) m' ρ')
  exact tails_agree m m' c (hagree c).1 (hagree c).2.1 (hagree c).2.2.1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
